-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S512x64 : Shape := ⟨2, ![512, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S256 .f32) (main_arg17 : FVec F S512x64 .f32) (main_arg18 : FVec F S64 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S512x64 .f32 := Host.absf main_arg17
  let main_cst_28 : FVec F S_ .f32 := constant S_ .f32 0x7F800000#32
  let main_v75 : FVec F S512x64 .f32 := broadcastInDim S512x64 ![] bcast_S_S512x64 main_cst_28
  let main_v76 : IVec S512x64 1 := cmpf .olt main_v74 main_v75
  let main_c_29 : IVec S_ 1 := constantI S_ 1 1#1
  let main_v77 : IVec S_ 1 := (fun x v => Host.reduce IntOp.andi x v reducesTo_S512x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg13 : FVec F S256x256 .f32) (main_arg14 : FVec F S256 .f32) (main_arg15 : FVec F S256x256 .f32) (main_arg16 : FVec F S256 .f32) (main_arg17 : FVec F S512x64 .f32) (main_arg18 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_v63 main_v67

def fn_part2 {F : FTy → Type} [FloatOps F] (main_arg9 : FVec F S256x256 .f32) (main_arg10 : FVec F S256 .f32) (main_arg11 : FVec F S512x256 .f32) (main_arg12 : FVec F S256 .f32) (main_arg13 : FVec F S256x256 .f32) (main_arg14 : FVec F S256 .f32) (main_arg15 : FVec F S256x256 .f32) (main_arg16 : FVec F S256 .f32) (main_arg17 : FVec F S512x64 .f32) (main_arg18 : FVec F S64 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x256 .f32 := Host.absf main_arg11
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S512x256 .f32) (main_arg12 : FVec F S256 .f32) (main_arg13 : FVec F S256x256 .f32) (main_arg14 : FVec F S256 .f32) (main_arg15 : FVec F S256x256 .f32) (main_arg16 : FVec F S256 .f32) (main_arg17 : FVec F S512x64 .f32) (main_arg18 : FVec F S64 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x512 .f32) (main_arg1 : FVec F S50000x512 .f32) (main_arg2 : IVec S800000 32) (main_arg3 : IVec S800000 32) (main_arg4 : FVec F S800000 .f32) (main_arg5 : FVec F S512x256 .f32) (main_arg6 : FVec F S256 .f32) (main_arg7 : FVec F S256x256 .f32) (main_arg8 : FVec F S256 .f32) (main_arg9 : FVec F S256x256 .f32) (main_arg10 : FVec F S256 .f32) (main_arg11 : FVec F S512x256 .f32) (main_arg12 : FVec F S256 .f32) (main_arg13 : FVec F S256x256 .f32) (main_arg14 : FVec F S256 .f32) (main_arg15 : FVec F S256x256 .f32) (main_arg16 : FVec F S256 .f32) (main_arg17 : FVec F S512x64 .f32) (main_arg18 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S512x64 : Shape := ⟨2, ![512, 64]⟩
abbrev S64 : Shape := ⟨1, ![64]⟩
abbrev S50000x256 : Shape := ⟨2, ![50000, 256]⟩
abbrev S5000x512 : Shape := ⟨2, ![5000, 512]⟩
abbrev S5000x256 : Shape := ⟨2, ![5000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S5000 : Shape := ⟨1, ![5000]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 98
  | .vmem => 42
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S512x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S512x64, .f32⟩
  | .hbm, ⟨18, _⟩ => ⟨S64, .f32⟩
  | .hbm, ⟨19, _⟩ => ⟨S50000x256, .f32⟩
  | .hbm, ⟨20, _⟩ => ⟨S800000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x256, .f32⟩
  | .hbm, ⟨30, _⟩ => ⟨S800000x256, .f32⟩
  | .hbm, ⟨31, _⟩ => ⟨S800000x256, .f32⟩
  | .hbm, ⟨32, _⟩ => ⟨S_, .f32⟩
  | .hbm, ⟨33, _⟩ => ⟨S50000x256, .f32⟩
  | .hbm, ⟨34, _⟩ => ⟨S800000x1, .i32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S800000x1, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S800000x256, .f32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S1x256, .f32⟩
  | .hbm, ⟨55, _⟩ => ⟨S1x256, .f32⟩
  | .hbm, ⟨56, _⟩ => ⟨S50000x256, .f32⟩
  | .hbm, ⟨57, _⟩ => ⟨S50000x256, .f32⟩
  | .hbm, ⟨58, _⟩ => ⟨S800000x1, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S800000x256, .f32⟩
  | .hbm, ⟨69, _⟩ => ⟨S800000x256, .f32⟩
  | .hbm, ⟨70, _⟩ => ⟨S_, .f32⟩
  | .hbm, ⟨71, _⟩ => ⟨S50000x256, .f32⟩
  | .hbm, ⟨72, _⟩ => ⟨S800000x1, .i32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S800000x1, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x256, .f32⟩
  | .hbm, ⟨86, _⟩ => ⟨S800000x256, .f32⟩
  | .hbm, ⟨87, _⟩ => ⟨S800000x256, .f32⟩
  | .hbm, ⟨88, _⟩ => ⟨S_, .f32⟩
  | .hbm, ⟨89, _⟩ => ⟨S50000x256, .f32⟩
  | .hbm, ⟨90, _⟩ => ⟨S800000x1, .i32⟩
  | .hbm, ⟨91, _⟩ => ⟨S50000x256, .f32⟩
  | .hbm, ⟨92, _⟩ => ⟨S1x256, .f32⟩
  | .hbm, ⟨93, _⟩ => ⟨S1x256, .f32⟩
  | .hbm, ⟨94, _⟩ => ⟨S50000x256, .f32⟩
  | .hbm, ⟨95, _⟩ => ⟨S50000x512, .f32⟩
  | .hbm, ⟨96, _⟩ => ⟨S1x64, .f32⟩
  | .hbm, ⟨97, _⟩ => ⟨S50000x64, .f32⟩
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S256x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x512, .f32⟩
  | .local _ .vmem, ⟨19, _⟩ => ⟨S5000x512, .f32⟩
  | .local _ .vmem, ⟨20, _⟩ => ⟨S512x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S1x256, .f32⟩
  | .local _ .vmem, ⟨26, _⟩ => ⟨S256x256, .f32⟩
  | .local _ .vmem, ⟨27, _⟩ => ⟨S5000x256, .f32⟩
  | .local _ .vmem, ⟨28, _⟩ => ⟨S5000x256, .f32⟩
  | .local _ .vmem, ⟨29, _⟩ => ⟨S5000x256, .f32⟩
  | .local _ .vmem, ⟨30, _⟩ => ⟨S5000x256, .f32⟩
  | .local _ .vmem, ⟨31, _⟩ => ⟨S1x256, .f32⟩
  | .local _ .vmem, ⟨32, _⟩ => ⟨S256x256, .f32⟩
  | .local _ .vmem, ⟨33, _⟩ => ⟨S1x256, .f32⟩
  | .local _ .vmem, ⟨34, _⟩ => ⟨S5000x256, .f32⟩
  | .local _ .vmem, ⟨35, _⟩ => ⟨S5000x256, .f32⟩
  | .local _ .vmem, ⟨36, _⟩ => ⟨S5000x512, .f32⟩
  | .local _ .vmem, ⟨37, _⟩ => ⟨S5000x512, .f32⟩
  | .local _ .vmem, ⟨38, _⟩ => ⟨S512x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_7 : Ref sig .tc := ⟨.hbm, 77, rfl⟩
abbrev main_v49 : Ref sig .tc := ⟨.hbm, 78, rfl⟩
abbrev main_v50 : Ref sig .tc := ⟨.hbm, 79, rfl⟩
abbrev main_c_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S5000x256_S5000x256_0_0 : ∀ a, (![0, 0] : Fin 2 → Nat) a + S5000x256.size a ≤ S5000x256.size a
  h_S5000x256 : 0 < S5000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  reduces_S5000x256_S5000 : S5000x256.Reduces [1] S5000
  shapeCasts_S5000_S5000x1 : S5000.ShapeCasts S5000x1
  broadcasts_S5000x1_S5000x256 : S5000x1.Broadcasts S5000x256
  concatenates_S50000x256_S50000x256_S50000x512_d1 : Shape.Concatenates [S50000x256, S50000x256] S50000x512 1
  shapeCasts_S64_S1x64 : S64.ShapeCasts S1x64
  shapeCasts_S5000x512_S5000x512 : S5000x512.ShapeCasts S5000x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  dot_S5000x512_S512x256_S5000x256_1_0_0_1_n_n_wf : DotDims.WF S5000x512 S512x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x512_S512x64_S5000x64_1_0_0_1_n_n_wf : DotDims.WF S5000x512 S512x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x256.size a ≤ S50000x256.size a
  hwx2_4 : ∀ i : grid2.Coords, EltTy.bits .f32 = 32 ∨ (Rect.block (s := S50000x256) S5000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x512.size a ≤ S50000x512.size a
  hwx3_0 : ∀ i : grid3.Coords, EltTy.bits .f32 = 32 ∨ (Rect.block (s := S50000x512) S5000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S50000x256.size a
  hwx4_3 : ∀ i : grid4.Coords, EltTy.bits .f32 = 32 ∨ (Rect.block (s := S50000x256) S5000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x256.size a ≤ S50000x256.size a
  hwx5_4 : ∀ i : grid5.Coords, EltTy.bits .f32 = 32 ∨ (Rect.block (s := S50000x256) S5000x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x512.size a ≤ S50000x512.size a
  hwx6_0 : ∀ i : grid6.Coords, EltTy.bits .f32 = 32 ∨ (Rect.block (s := S50000x512) S5000x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x64.size a ≤ S512x64.size a
  hwx6_1 : ∀ i : grid6.Coords, EltTy.bits .f32 = 32 ∨ (Rect.block (s := S512x64) S512x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S5000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S5000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47) S5000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v60) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg15) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v63) S5000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v64) S5000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg17) S512x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v65) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v66) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S512x64 : Shape := ⟨2, ![512, 64]⟩
abbrev S64 : Shape := ⟨1, ![64]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩

abbrev nBuf : Space → Nat
  | .hbm => 163
  | .vmem => 0
  | .smem => 0
  | _ => 0

abbrev hbmTy0_0 (i : Nat) : BufTy := match i % 128 with
  | 0 => ⟨S50000x512, .f32⟩
  | 1 => ⟨S50000x512, .f32⟩
  | 2 => ⟨S800000, .i32⟩
  | 3 => ⟨S800000, .i32⟩
  | 4 => ⟨S800000, .f32⟩
  | 5 => ⟨S512x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S512x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S512x64, .f32⟩
  | 18 => ⟨S64, .f32⟩
  | 19 => ⟨S50000x256, .f32⟩
  | 20 => ⟨S800000x1, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x256, .f32⟩
  | 30 => ⟨S800000x256, .f32⟩
  | 31 => ⟨S800000x256, .f32⟩
  | 32 => ⟨S_, .f32⟩
  | 33 => ⟨S50000x256, .f32⟩
  | 34 => ⟨S800000x1, .i32⟩
  | 35 => ⟨S50000x256, .f32⟩
  | 36 => ⟨S1x256, .f32⟩
  | 37 => ⟨S50000x256, .f32⟩
  | 38 => ⟨S50000x256, .f32⟩
  | 39 => ⟨S_, .f32⟩
  | 40 => ⟨S50000x256, .f32⟩
  | 41 => ⟨S50000x256, .f32⟩
  | 42 => ⟨S50000x256, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x256, .f32⟩
  | 53 => ⟨S800000x256, .f32⟩
  | 54 => ⟨S800000x256, .f32⟩
  | 55 => ⟨S_, .f32⟩
  | 56 => ⟨S50000x256, .f32⟩
  | 57 => ⟨S800000x1, .i32⟩
  | 58 => ⟨S50000x256, .f32⟩
  | 59 => ⟨S1x256, .f32⟩
  | 60 => ⟨S50000x256, .f32⟩
  | 61 => ⟨S50000x256, .f32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x256, .f32⟩
  | 73 => ⟨S50000x256, .f32⟩
  | 74 => ⟨S50000x256, .f32⟩
  | 75 => ⟨S_, .f32⟩
  | 76 => ⟨S50000, .f32⟩
  | 77 => ⟨S50000x1, .f32⟩
  | 78 => ⟨S50000x1, .f32⟩
  | 79 => ⟨S50000x256, .f32⟩
  | 80 => ⟨S50000x256, .f32⟩
  | 81 => ⟨S50000x256, .f32⟩
  | 82 => ⟨S800000x1, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x256, .f32⟩
  | 92 => ⟨S800000x256, .f32⟩
  | 93 => ⟨S800000x256, .f32⟩
  | 94 => ⟨S_, .f32⟩
  | 95 => ⟨S50000x256, .f32⟩
  | 96 => ⟨S800000x1, .i32⟩
  | 97 => ⟨S50000x256, .f32⟩
  | 98 => ⟨S1x256, .f32⟩
  | 99 => ⟨S50000x256, .f32⟩
  | 100 => ⟨S50000x256, .f32⟩
  | 101 => ⟨S_, .f32⟩
  | 102 => ⟨S50000x256, .f32⟩
  | 103 => ⟨S50000x256, .f32⟩
  | 104 => ⟨S50000x256, .f32⟩
  | 105 => ⟨S800000x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x256, .f32⟩
  | 115 => ⟨S800000x256, .f32⟩
  | 116 => ⟨S800000x256, .f32⟩
  | 117 => ⟨S_, .f32⟩
  | 118 => ⟨S50000x256, .f32⟩
  | 119 => ⟨S800000x1, .i32⟩
  | 120 => ⟨S50000x256, .f32⟩
  | 121 => ⟨S1x256, .f32⟩
  | 122 => ⟨S50000x256, .f32⟩
  | 123 => ⟨S50000x256, .f32⟩
  | 124 => ⟨S50000x256, .f32⟩
  | 125 => ⟨S1x256, .f32⟩
  | 126 => ⟨S50000x256, .f32⟩
  | 127 => ⟨S50000x256, .f32⟩
  | _ => ⟨S50000x512, .f32⟩

abbrev hbmTy0_1 (i : Nat) : BufTy := match i % 128 with
  | 0 => ⟨S_, .f32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x256, .f32⟩
  | 7 => ⟨S50000x256, .f32⟩
  | 8 => ⟨S50000x256, .f32⟩
  | 9 => ⟨S_, .f32⟩
  | 10 => ⟨S50000, .f32⟩
  | 11 => ⟨S50000x1, .f32⟩
  | 12 => ⟨S50000x1, .f32⟩
  | 13 => ⟨S50000x256, .f32⟩
  | 14 => ⟨S50000x256, .f32⟩
  | 15 => ⟨S50000x512, .f32⟩
  | 16 => ⟨S50000x64, .f32⟩
  | 17 => ⟨S1x64, .f32⟩
  | 18 => ⟨S50000x64, .f32⟩
  | 19 => ⟨S50000x64, .f32⟩
  | 20 => ⟨S_, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S50000x64, .f32⟩
  | 27 => ⟨S50000x64, .f32⟩
  | 28 => ⟨S50000x64, .f32⟩
  | 29 => ⟨S_, .f32⟩
  | 30 => ⟨S50000, .f32⟩
  | 31 => ⟨S50000x1, .f32⟩
  | 32 => ⟨S50000x1, .f32⟩
  | 33 => ⟨S50000x64, .f32⟩
  | 34 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call0_cst : Ref sig .tc := ⟨.hbm, 39, rfl⟩
abbrev main_call0_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_1 : Ref sig .tc := ⟨.hbm, 44, rfl⟩
abbrev main_v20 : Ref sig .tc := ⟨.hbm, 45, rfl⟩
abbrev main_v21 : Ref sig .tc := ⟨.hbm, 46, rfl⟩
abbrev main_c_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call1_cst : Ref sig .tc := ⟨.hbm, 66, rfl⟩
abbrev main_call1_v0 : Ref sig .tc := ⟨.hbm, 67, rfl⟩
abbrev main_call1_cst_0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_cst_1 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_4 : Ref sig .tc := ⟨.hbm, 83, rfl⟩
abbrev main_v42 : Ref sig .tc := ⟨.hbm, 84, rfl⟩
abbrev main_v43 : Ref sig .tc := ⟨.hbm, 85, rfl⟩
abbrev main_c_5 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_6 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_call2_cst : Ref sig .tc := ⟨.hbm, 101, rfl⟩
abbrev main_call2_v0 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_7 : Ref sig .tc := ⟨.hbm, 106, rfl⟩
abbrev main_v60 : Ref sig .tc := ⟨.hbm, 107, rfl⟩
abbrev main_v61 : Ref sig .tc := ⟨.hbm, 108, rfl⟩
abbrev main_c_8 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_9 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_call4_cst : Ref sig .tc := ⟨.hbm, 148, rfl⟩
abbrev main_call4_v0 : Ref sig .tc := ⟨.hbm, 149, rfl⟩
abbrev main_call4_cst_0 : Ref sig .tc := ⟨.hbm, 150, rfl⟩
abbrev main_call4_v1 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_call4_v5 : Ref sig .tc := ⟨.hbm, 155, rfl⟩
abbrev main_call4_v6 : Ref sig .tc := ⟨.hbm, 156, rfl⟩
abbrev main_call4_cst_1 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_v85 : Ref sig .tc := ⟨.hbm, 162, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x512_S512x64_S50000x64_1_0_0_1_n_n_wf : DotDims.WF S50000x512 S512x64 S50000x64 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf

class Facts : Prop extends Facts₀ where

variable [Facts]
-- ==== Proof.KRun.lean ====
/-
  The kernel program's run with its result named.

  Every weakly fair execution of the program — seven regions with stretches of host operations between them — terminates
  without a fault, leaves the arguments as launched, and leaves in the result buffer what the fold of buffer contents
  through the twelve segments holds there at the end (`W12`): the same launch over the same segments as the frame, with
  the last thread state read at one buffer more.
-/
import proofs.«134329_j2834678415610_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v66) = W12 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v66 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.KRun

end
-- ==== Proof.Keep.lean ====
/-
  Buffers that the segments leave alone.

  No region writes an argument of the program and no host operation does: at every boundary between two segments an
  argument's buffer still holds what the program was launched with. The first log-softmax's result is written by the third
  region and then left alone until the two branches are joined. Each lemma walks the fold of buffer contents back one
  segment at a time: a region changes its own arrays only, a stretch of host operations the buffers its operations write.
-/
import proofs.«134329_j2834678415610_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer none of them writes as it was. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem arg1_at1 (c : Dev nD) : W1 m ρ c (Proc.devRef .tc main_arg1) = m ((c : Thread nD τ).loc main_arg1) :=
  (show W1 m ρ c (Proc.devRef .tc main_arg1) = W0 m ρ c (Proc.devRef .tc main_arg1) from W1_of_ne m ρ c main_arg1 (by decide)).trans (rfl)
theorem arg1_at2 (c : Dev nD) : W2 m ρ c (Proc.devRef .tc main_arg1) = m ((c : Thread nD τ).loc main_arg1) :=
  (show W2 m ρ c (Proc.devRef .tc main_arg1) = W1 m ρ c (Proc.devRef .tc main_arg1) from (by host_keep hostOps1)).trans (arg1_at1 m ρ c)
theorem arg1_at3 (c : Dev nD) : W3 m ρ c (Proc.devRef .tc main_arg1) = m ((c : Thread nD τ).loc main_arg1) :=
  (show W3 m ρ c (Proc.devRef .tc main_arg1) = W2 m ρ c (Proc.devRef .tc main_arg1) from W3_of_ne m ρ c main_arg1 (by decide)).trans (arg1_at2 m ρ c)
theorem arg1_at4 (c : Dev nD) : W4 m ρ c (Proc.devRef .tc main_arg1) = m ((c : Thread nD τ).loc main_arg1) :=
  (show W4 m ρ c (Proc.devRef .tc main_arg1) = W3 m ρ c (Proc.devRef .tc main_arg1) from (by host_keep hostOps2)).trans (arg1_at3 m ρ c)
theorem arg1_at5 (c : Dev nD) : W5 m ρ c (Proc.devRef .tc main_arg1) = m ((c : Thread nD τ).loc main_arg1) :=
  (show W5 m ρ c (Proc.devRef .tc main_arg1) = W4 m ρ c (Proc.devRef .tc main_arg1) from W5_of_ne m ρ c main_arg1 (by decide)).trans (arg1_at4 m ρ c)
theorem arg2_at1 (c : Dev nD) : W1 m ρ c (Proc.devRef .tc main_arg2) = m ((c : Thread nD τ).loc main_arg2) :=
  (show W1 m ρ c (Proc.devRef .tc main_arg2) = W0 m ρ c (Proc.devRef .tc main_arg2) from W1_of_ne m ρ c main_arg2 (by decide)).trans (rfl)
theorem arg2_at2 (c : Dev nD) : W2 m ρ c (Proc.devRef .tc main_arg2) = m ((c : Thread nD τ).loc main_arg2) :=
  (show W2 m ρ c (Proc.devRef .tc main_arg2) = W1 m ρ c (Proc.devRef .tc main_arg2) from (by host_keep hostOps1)).trans (arg2_at1 m ρ c)
theorem arg2_at3 (c : Dev nD) : W3 m ρ c (Proc.devRef .tc main_arg2) = m ((c : Thread nD τ).loc main_arg2) :=
  (show W3 m ρ c (Proc.devRef .tc main_arg2) = W2 m ρ c (Proc.devRef .tc main_arg2) from W3_of_ne m ρ c main_arg2 (by decide)).trans (arg2_at2 m ρ c)
theorem arg2_at4 (c : Dev nD) : W4 m ρ c (Proc.devRef .tc main_arg2) = m ((c : Thread nD τ).loc main_arg2) :=
  (show W4 m ρ c (Proc.devRef .tc main_arg2) = W3 m ρ c (Proc.devRef .tc main_arg2) from (by host_keep hostOps2)).trans (arg2_at3 m ρ c)
theorem arg2_at5 (c : Dev nD) : W5 m ρ c (Proc.devRef .tc main_arg2) = m ((c : Thread nD τ).loc main_arg2) :=
  (show W5 m ρ c (Proc.devRef .tc main_arg2) = W4 m ρ c (Proc.devRef .tc main_arg2) from W5_of_ne m ρ c main_arg2 (by decide)).trans (arg2_at4 m ρ c)
theorem arg2_at6 (c : Dev nD) : W6 m ρ c (Proc.devRef .tc main_arg2) = m ((c : Thread nD τ).loc main_arg2) :=
  (show W6 m ρ c (Proc.devRef .tc main_arg2) = W5 m ρ c (Proc.devRef .tc main_arg2) from W6_of_ne m ρ c main_arg2 (by decide)).trans (arg2_at5 m ρ c)
theorem arg2_at7 (c : Dev nD) : W7 m ρ c (Proc.devRef .tc main_arg2) = m ((c : Thread nD τ).loc main_arg2) :=
  (show W7 m ρ c (Proc.devRef .tc main_arg2) = W6 m ρ c (Proc.devRef .tc main_arg2) from (by host_keep hostOps4)).trans (arg2_at6 m ρ c)
theorem arg2_at8 (c : Dev nD) : W8 m ρ c (Proc.devRef .tc main_arg2) = m ((c : Thread nD τ).loc main_arg2) :=
  (show W8 m ρ c (Proc.devRef .tc main_arg2) = W7 m ρ c (Proc.devRef .tc main_arg2) from W8_of_ne m ρ c main_arg2 (by decide)).trans (arg2_at7 m ρ c)
theorem arg3_at1 (c : Dev nD) : W1 m ρ c (Proc.devRef .tc main_arg3) = m ((c : Thread nD τ).loc main_arg3) :=
  (show W1 m ρ c (Proc.devRef .tc main_arg3) = W0 m ρ c (Proc.devRef .tc main_arg3) from W1_of_ne m ρ c main_arg3 (by decide)).trans (rfl)
theorem arg3_at2 (c : Dev nD) : W2 m ρ c (Proc.devRef .tc main_arg3) = m ((c : Thread nD τ).loc main_arg3) :=
  (show W2 m ρ c (Proc.devRef .tc main_arg3) = W1 m ρ c (Proc.devRef .tc main_arg3) from (by host_keep hostOps1)).trans (arg3_at1 m ρ c)
theorem arg3_at3 (c : Dev nD) : W3 m ρ c (Proc.devRef .tc main_arg3) = m ((c : Thread nD τ).loc main_arg3) :=
  (show W3 m ρ c (Proc.devRef .tc main_arg3) = W2 m ρ c (Proc.devRef .tc main_arg3) from W3_of_ne m ρ c main_arg3 (by decide)).trans (arg3_at2 m ρ c)
theorem arg3_at4 (c : Dev nD) : W4 m ρ c (Proc.devRef .tc main_arg3) = m ((c : Thread nD τ).loc main_arg3) :=
  (show W4 m ρ c (Proc.devRef .tc main_arg3) = W3 m ρ c (Proc.devRef .tc main_arg3) from (by host_keep hostOps2)).trans (arg3_at3 m ρ c)
theorem arg3_at5 (c : Dev nD) : W5 m ρ c (Proc.devRef .tc main_arg3) = m ((c : Thread nD τ).loc main_arg3) :=
  (show W5 m ρ c (Proc.devRef .tc main_arg3) = W4 m ρ c (Proc.devRef .tc main_arg3) from W5_of_ne m ρ c main_arg3 (by decide)).trans (arg3_at4 m ρ c)
theorem arg3_at6 (c : Dev nD) : W6 m ρ c (Proc.devRef .tc main_arg3) = m ((c : Thread nD τ).loc main_arg3) :=
  (show W6 m ρ c (Proc.devRef .tc main_arg3) = W5 m ρ c (Proc.devRef .tc main_arg3) from W6_of_ne m ρ c main_arg3 (by decide)).trans (arg3_at5 m ρ c)
theorem arg3_at7 (c : Dev nD) : W7 m ρ c (Proc.devRef .tc main_arg3) = m ((c : Thread nD τ).loc main_arg3) :=
  (show W7 m ρ c (Proc.devRef .tc main_arg3) = W6 m ρ c (Proc.devRef .tc main_arg3) from (by host_keep hostOps4)).trans (arg3_at6 m ρ c)
theorem arg3_at8 (c : Dev nD) : W8 m ρ c (Proc.devRef .tc main_arg3) = m ((c : Thread nD τ).loc main_arg3) :=
  (show W8 m ρ c (Proc.devRef .tc main_arg3) = W7 m ρ c (Proc.devRef .tc main_arg3) from W8_of_ne m ρ c main_arg3 (by decide)).trans (arg3_at7 m ρ c)
theorem arg4_at1 (c : Dev nD) : W1 m ρ c (Proc.devRef .tc main_arg4) = m ((c : Thread nD τ).loc main_arg4) :=
  (show W1 m ρ c (Proc.devRef .tc main_arg4) = W0 m ρ c (Proc.devRef .tc main_arg4) from W1_of_ne m ρ c main_arg4 (by decide)).trans (rfl)
theorem arg4_at2 (c : Dev nD) : W2 m ρ c (Proc.devRef .tc main_arg4) = m ((c : Thread nD τ).loc main_arg4) :=
  (show W2 m ρ c (Proc.devRef .tc main_arg4) = W1 m ρ c (Proc.devRef .tc main_arg4) from (by host_keep hostOps1)).trans (arg4_at1 m ρ c)
theorem arg4_at3 (c : Dev nD) : W3 m ρ c (Proc.devRef .tc main_arg4) = m ((c : Thread nD τ).loc main_arg4) :=
  (show W3 m ρ c (Proc.devRef .tc main_arg4) = W2 m ρ c (Proc.devRef .tc main_arg4) from W3_of_ne m ρ c main_arg4 (by decide)).trans (arg4_at2 m ρ c)
theorem arg4_at4 (c : Dev nD) : W4 m ρ c (Proc.devRef .tc main_arg4) = m ((c : Thread nD τ).loc main_arg4) :=
  (show W4 m ρ c (Proc.devRef .tc main_arg4) = W3 m ρ c (Proc.devRef .tc main_arg4) from (by host_keep hostOps2)).trans (arg4_at3 m ρ c)
theorem arg4_at5 (c : Dev nD) : W5 m ρ c (Proc.devRef .tc main_arg4) = m ((c : Thread nD τ).loc main_arg4) :=
  (show W5 m ρ c (Proc.devRef .tc main_arg4) = W4 m ρ c (Proc.devRef .tc main_arg4) from W5_of_ne m ρ c main_arg4 (by decide)).trans (arg4_at4 m ρ c)
theorem arg4_at6 (c : Dev nD) : W6 m ρ c (Proc.devRef .tc main_arg4) = m ((c : Thread nD τ).loc main_arg4) :=
  (show W6 m ρ c (Proc.devRef .tc main_arg4) = W5 m ρ c (Proc.devRef .tc main_arg4) from W6_of_ne m ρ c main_arg4 (by decide)).trans (arg4_at5 m ρ c)
theorem arg4_at7 (c : Dev nD) : W7 m ρ c (Proc.devRef .tc main_arg4) = m ((c : Thread nD τ).loc main_arg4) :=
  (show W7 m ρ c (Proc.devRef .tc main_arg4) = W6 m ρ c (Proc.devRef .tc main_arg4) from (by host_keep hostOps4)).trans (arg4_at6 m ρ c)
theorem arg4_at8 (c : Dev nD) : W8 m ρ c (Proc.devRef .tc main_arg4) = m ((c : Thread nD τ).loc main_arg4) :=
  (show W8 m ρ c (Proc.devRef .tc main_arg4) = W7 m ρ c (Proc.devRef .tc main_arg4) from W8_of_ne m ρ c main_arg4 (by decide)).trans (arg4_at7 m ρ c)
theorem arg6_at1 (c : Dev nD) : W1 m ρ c (Proc.devRef .tc main_arg6) = m ((c : Thread nD τ).loc main_arg6) :=
  (show W1 m ρ c (Proc.devRef .tc main_arg6) = W0 m ρ c (Proc.devRef .tc main_arg6) from W1_of_ne m ρ c main_arg6 (by decide)).trans (rfl)
theorem arg7_at1 (c : Dev nD) : W1 m ρ c (Proc.devRef .tc main_arg7) = m ((c : Thread nD τ).loc main_arg7) :=
  (show W1 m ρ c (Proc.devRef .tc main_arg7) = W0 m ρ c (Proc.devRef .tc main_arg7) from W1_of_ne m ρ c main_arg7 (by decide)).trans (rfl)
theorem arg7_at2 (c : Dev nD) : W2 m ρ c (Proc.devRef .tc main_arg7) = m ((c : Thread nD τ).loc main_arg7) :=
  (show W2 m ρ c (Proc.devRef .tc main_arg7) = W1 m ρ c (Proc.devRef .tc main_arg7) from (by host_keep hostOps1)).trans (arg7_at1 m ρ c)
theorem arg8_at1 (c : Dev nD) : W1 m ρ c (Proc.devRef .tc main_arg8) = m ((c : Thread nD τ).loc main_arg8) :=
  (show W1 m ρ c (Proc.devRef .tc main_arg8) = W0 m ρ c (Proc.devRef .tc main_arg8) from W1_of_ne m ρ c main_arg8 (by decide)).trans (rfl)
theorem arg8_at2 (c : Dev nD) : W2 m ρ c (Proc.devRef .tc main_arg8) = m ((c : Thread nD τ).loc main_arg8) :=
  (show W2 m ρ c (Proc.devRef .tc main_arg8) = W1 m ρ c (Proc.devRef .tc main_arg8) from (by host_keep hostOps1)).trans (arg8_at1 m ρ c)
theorem arg8_at3 (c : Dev nD) : W3 m ρ c (Proc.devRef .tc main_arg8) = m ((c : Thread nD τ).loc main_arg8) :=
  (show W3 m ρ c (Proc.devRef .tc main_arg8) = W2 m ρ c (Proc.devRef .tc main_arg8) from W3_of_ne m ρ c main_arg8 (by decide)).trans (arg8_at2 m ρ c)
theorem arg9_at1 (c : Dev nD) : W1 m ρ c (Proc.devRef .tc main_arg9) = m ((c : Thread nD τ).loc main_arg9) :=
  (show W1 m ρ c (Proc.devRef .tc main_arg9) = W0 m ρ c (Proc.devRef .tc main_arg9) from W1_of_ne m ρ c main_arg9 (by decide)).trans (rfl)
theorem arg9_at2 (c : Dev nD) : W2 m ρ c (Proc.devRef .tc main_arg9) = m ((c : Thread nD τ).loc main_arg9) :=
  (show W2 m ρ c (Proc.devRef .tc main_arg9) = W1 m ρ c (Proc.devRef .tc main_arg9) from (by host_keep hostOps1)).trans (arg9_at1 m ρ c)
theorem arg9_at3 (c : Dev nD) : W3 m ρ c (Proc.devRef .tc main_arg9) = m ((c : Thread nD τ).loc main_arg9) :=
  (show W3 m ρ c (Proc.devRef .tc main_arg9) = W2 m ρ c (Proc.devRef .tc main_arg9) from W3_of_ne m ρ c main_arg9 (by decide)).trans (arg9_at2 m ρ c)
theorem arg9_at4 (c : Dev nD) : W4 m ρ c (Proc.devRef .tc main_arg9) = m ((c : Thread nD τ).loc main_arg9) :=
  (show W4 m ρ c (Proc.devRef .tc main_arg9) = W3 m ρ c (Proc.devRef .tc main_arg9) from (by host_keep hostOps2)).trans (arg9_at3 m ρ c)
theorem arg10_at1 (c : Dev nD) : W1 m ρ c (Proc.devRef .tc main_arg10) = m ((c : Thread nD τ).loc main_arg10) :=
  (show W1 m ρ c (Proc.devRef .tc main_arg10) = W0 m ρ c (Proc.devRef .tc main_arg10) from W1_of_ne m ρ c main_arg10 (by decide)).trans (rfl)
theorem arg10_at2 (c : Dev nD) : W2 m ρ c (Proc.devRef .tc main_arg10) = m ((c : Thread nD τ).loc main_arg10) :=
  (show W2 m ρ c (Proc.devRef .tc main_arg10) = W1 m ρ c (Proc.devRef .tc main_arg10) from (by host_keep hostOps1)).trans (arg10_at1 m ρ c)
theorem arg10_at3 (c : Dev nD) : W3 m ρ c (Proc.devRef .tc main_arg10) = m ((c : Thread nD τ).loc main_arg10) :=
  (show W3 m ρ c (Proc.devRef .tc main_arg10) = W2 m ρ c (Proc.devRef .tc main_arg10) from W3_of_ne m ρ c main_arg10 (by decide)).trans (arg10_at2 m ρ c)
theorem arg11_at1 (c : Dev nD) : W1 m ρ c (Proc.devRef .tc main_arg11) = m ((c : Thread nD τ).loc main_arg11) :=
  (show W1 m ρ c (Proc.devRef .tc main_arg11) = W0 m ρ c (Proc.devRef .tc main_arg11) from W1_of_ne m ρ c main_arg11 (by decide)).trans (rfl)
theorem arg11_at2 (c : Dev nD) : W2 m ρ c (Proc.devRef .tc main_arg11) = m ((c : Thread nD τ).loc main_arg11) :=
  (show W2 m ρ c (Proc.devRef .tc main_arg11) = W1 m ρ c (Proc.devRef .tc main_arg11) from (by host_keep hostOps1)).trans (arg11_at1 m ρ c)
theorem arg11_at3 (c : Dev nD) : W3 m ρ c (Proc.devRef .tc main_arg11) = m ((c : Thread nD τ).loc main_arg11) :=
  (show W3 m ρ c (Proc.devRef .tc main_arg11) = W2 m ρ c (Proc.devRef .tc main_arg11) from W3_of_ne m ρ c main_arg11 (by decide)).trans (arg11_at2 m ρ c)
theorem arg11_at4 (c : Dev nD) : W4 m ρ c (Proc.devRef .tc main_arg11) = m ((c : Thread nD τ).loc main_arg11) :=
  (show W4 m ρ c (Proc.devRef .tc main_arg11) = W3 m ρ c (Proc.devRef .tc main_arg11) from (by host_keep hostOps2)).trans (arg11_at3 m ρ c)
theorem arg11_at5 (c : Dev nD) : W5 m ρ c (Proc.devRef .tc main_arg11) = m ((c : Thread nD τ).loc main_arg11) :=
  (show W5 m ρ c (Proc.devRef .tc main_arg11) = W4 m ρ c (Proc.devRef .tc main_arg11) from W5_of_ne m ρ c main_arg11 (by decide)).trans (arg11_at4 m ρ c)
theorem arg12_at1 (c : Dev nD) : W1 m ρ c (Proc.devRef .tc main_arg12) = m ((c : Thread nD τ).loc main_arg12) :=
  (show W1 m ρ c (Proc.devRef .tc main_arg12) = W0 m ρ c (Proc.devRef .tc main_arg12) from W1_of_ne m ρ c main_arg12 (by decide)).trans (rfl)
theorem arg12_at2 (c : Dev nD) : W2 m ρ c (Proc.devRef .tc main_arg12) = m ((c : Thread nD τ).loc main_arg12) :=
  (show W2 m ρ c (Proc.devRef .tc main_arg12) = W1 m ρ c (Proc.devRef .tc main_arg12) from (by host_keep hostOps1)).trans (arg12_at1 m ρ c)
theorem arg12_at3 (c : Dev nD) : W3 m ρ c (Proc.devRef .tc main_arg12) = m ((c : Thread nD τ).loc main_arg12) :=
  (show W3 m ρ c (Proc.devRef .tc main_arg12) = W2 m ρ c (Proc.devRef .tc main_arg12) from W3_of_ne m ρ c main_arg12 (by decide)).trans (arg12_at2 m ρ c)
theorem arg12_at4 (c : Dev nD) : W4 m ρ c (Proc.devRef .tc main_arg12) = m ((c : Thread nD τ).loc main_arg12) :=
  (show W4 m ρ c (Proc.devRef .tc main_arg12) = W3 m ρ c (Proc.devRef .tc main_arg12) from (by host_keep hostOps2)).trans (arg12_at3 m ρ c)
theorem arg12_at5 (c : Dev nD) : W5 m ρ c (Proc.devRef .tc main_arg12) = m ((c : Thread nD τ).loc main_arg12) :=
  (show W5 m ρ c (Proc.devRef .tc main_arg12) = W4 m ρ c (Proc.devRef .tc main_arg12) from W5_of_ne m ρ c main_arg12 (by decide)).trans (arg12_at4 m ρ c)
theorem arg12_at6 (c : Dev nD) : W6 m ρ c (Proc.devRef .tc main_arg12) = m ((c : Thread nD τ).loc main_arg12) :=
  (show W6 m ρ c (Proc.devRef .tc main_arg12) = W5 m ρ c (Proc.devRef .tc main_arg12) from W6_of_ne m ρ c main_arg12 (by decide)).trans (arg12_at5 m ρ c)
theorem arg13_at1 (c : Dev nD) : W1 m ρ c (Proc.devRef .tc main_arg13) = m ((c : Thread nD τ).loc main_arg13) :=
  (show W1 m ρ c (Proc.devRef .tc main_arg13) = W0 m ρ c (Proc.devRef .tc main_arg13) from W1_of_ne m ρ c main_arg13 (by decide)).trans (rfl)
theorem arg13_at2 (c : Dev nD) : W2 m ρ c (Proc.devRef .tc main_arg13) = m ((c : Thread nD τ).loc main_arg13) :=
  (show W2 m ρ c (Proc.devRef .tc main_arg13) = W1 m ρ c (Proc.devRef .tc main_arg13) from (by host_keep hostOps1)).trans (arg13_at1 m ρ c)
theorem arg13_at3 (c : Dev nD) : W3 m ρ c (Proc.devRef .tc main_arg13) = m ((c : Thread nD τ).loc main_arg13) :=
  (show W3 m ρ c (Proc.devRef .tc main_arg13) = W2 m ρ c (Proc.devRef .tc main_arg13) from W3_of_ne m ρ c main_arg13 (by decide)).trans (arg13_at2 m ρ c)
theorem arg13_at4 (c : Dev nD) : W4 m ρ c (Proc.devRef .tc main_arg13) = m ((c : Thread nD τ).loc main_arg13) :=
  (show W4 m ρ c (Proc.devRef .tc main_arg13) = W3 m ρ c (Proc.devRef .tc main_arg13) from (by host_keep hostOps2)).trans (arg13_at3 m ρ c)
theorem arg13_at5 (c : Dev nD) : W5 m ρ c (Proc.devRef .tc main_arg13) = m ((c : Thread nD τ).loc main_arg13) :=
  (show W5 m ρ c (Proc.devRef .tc main_arg13) = W4 m ρ c (Proc.devRef .tc main_arg13) from W5_of_ne m ρ c main_arg13 (by decide)).trans (arg13_at4 m ρ c)
theorem arg13_at6 (c : Dev nD) : W6 m ρ c (Proc.devRef .tc main_arg13) = m ((c : Thread nD τ).loc main_arg13) :=
  (show W6 m ρ c (Proc.devRef .tc main_arg13) = W5 m ρ c (Proc.devRef .tc main_arg13) from W6_of_ne m ρ c main_arg13 (by decide)).trans (arg13_at5 m ρ c)
theorem arg13_at7 (c : Dev nD) : W7 m ρ c (Proc.devRef .tc main_arg13) = m ((c : Thread nD τ).loc main_arg13) :=
  (show W7 m ρ c (Proc.devRef .tc main_arg13) = W6 m ρ c (Proc.devRef .tc main_arg13) from (by host_keep hostOps4)).trans (arg13_at6 m ρ c)
theorem arg14_at1 (c : Dev nD) : W1 m ρ c (Proc.devRef .tc main_arg14) = m ((c : Thread nD τ).loc main_arg14) :=
  (show W1 m ρ c (Proc.devRef .tc main_arg14) = W0 m ρ c (Proc.devRef .tc main_arg14) from W1_of_ne m ρ c main_arg14 (by decide)).trans (rfl)
theorem arg14_at2 (c : Dev nD) : W2 m ρ c (Proc.devRef .tc main_arg14) = m ((c : Thread nD τ).loc main_arg14) :=
  (show W2 m ρ c (Proc.devRef .tc main_arg14) = W1 m ρ c (Proc.devRef .tc main_arg14) from (by host_keep hostOps1)).trans (arg14_at1 m ρ c)
theorem arg14_at3 (c : Dev nD) : W3 m ρ c (Proc.devRef .tc main_arg14) = m ((c : Thread nD τ).loc main_arg14) :=
  (show W3 m ρ c (Proc.devRef .tc main_arg14) = W2 m ρ c (Proc.devRef .tc main_arg14) from W3_of_ne m ρ c main_arg14 (by decide)).trans (arg14_at2 m ρ c)
theorem arg14_at4 (c : Dev nD) : W4 m ρ c (Proc.devRef .tc main_arg14) = m ((c : Thread nD τ).loc main_arg14) :=
  (show W4 m ρ c (Proc.devRef .tc main_arg14) = W3 m ρ c (Proc.devRef .tc main_arg14) from (by host_keep hostOps2)).trans (arg14_at3 m ρ c)
theorem arg14_at5 (c : Dev nD) : W5 m ρ c (Proc.devRef .tc main_arg14) = m ((c : Thread nD τ).loc main_arg14) :=
  (show W5 m ρ c (Proc.devRef .tc main_arg14) = W4 m ρ c (Proc.devRef .tc main_arg14) from W5_of_ne m ρ c main_arg14 (by decide)).trans (arg14_at4 m ρ c)
theorem arg14_at6 (c : Dev nD) : W6 m ρ c (Proc.devRef .tc main_arg14) = m ((c : Thread nD τ).loc main_arg14) :=
  (show W6 m ρ c (Proc.devRef .tc main_arg14) = W5 m ρ c (Proc.devRef .tc main_arg14) from W6_of_ne m ρ c main_arg14 (by decide)).trans (arg14_at5 m ρ c)
theorem arg14_at7 (c : Dev nD) : W7 m ρ c (Proc.devRef .tc main_arg14) = m ((c : Thread nD τ).loc main_arg14) :=
  (show W7 m ρ c (Proc.devRef .tc main_arg14) = W6 m ρ c (Proc.devRef .tc main_arg14) from (by host_keep hostOps4)).trans (arg14_at6 m ρ c)
theorem arg14_at8 (c : Dev nD) : W8 m ρ c (Proc.devRef .tc main_arg14) = m ((c : Thread nD τ).loc main_arg14) :=
  (show W8 m ρ c (Proc.devRef .tc main_arg14) = W7 m ρ c (Proc.devRef .tc main_arg14) from W8_of_ne m ρ c main_arg14 (by decide)).trans (arg14_at7 m ρ c)
theorem arg15_at1 (c : Dev nD) : W1 m ρ c (Proc.devRef .tc main_arg15) = m ((c : Thread nD τ).loc main_arg15) :=
  (show W1 m ρ c (Proc.devRef .tc main_arg15) = W0 m ρ c (Proc.devRef .tc main_arg15) from W1_of_ne m ρ c main_arg15 (by decide)).trans (rfl)
theorem arg15_at2 (c : Dev nD) : W2 m ρ c (Proc.devRef .tc main_arg15) = m ((c : Thread nD τ).loc main_arg15) :=
  (show W2 m ρ c (Proc.devRef .tc main_arg15) = W1 m ρ c (Proc.devRef .tc main_arg15) from (by host_keep hostOps1)).trans (arg15_at1 m ρ c)
theorem arg15_at3 (c : Dev nD) : W3 m ρ c (Proc.devRef .tc main_arg15) = m ((c : Thread nD τ).loc main_arg15) :=
  (show W3 m ρ c (Proc.devRef .tc main_arg15) = W2 m ρ c (Proc.devRef .tc main_arg15) from W3_of_ne m ρ c main_arg15 (by decide)).trans (arg15_at2 m ρ c)
theorem arg15_at4 (c : Dev nD) : W4 m ρ c (Proc.devRef .tc main_arg15) = m ((c : Thread nD τ).loc main_arg15) :=
  (show W4 m ρ c (Proc.devRef .tc main_arg15) = W3 m ρ c (Proc.devRef .tc main_arg15) from (by host_keep hostOps2)).trans (arg15_at3 m ρ c)
theorem arg15_at5 (c : Dev nD) : W5 m ρ c (Proc.devRef .tc main_arg15) = m ((c : Thread nD τ).loc main_arg15) :=
  (show W5 m ρ c (Proc.devRef .tc main_arg15) = W4 m ρ c (Proc.devRef .tc main_arg15) from W5_of_ne m ρ c main_arg15 (by decide)).trans (arg15_at4 m ρ c)
theorem arg15_at6 (c : Dev nD) : W6 m ρ c (Proc.devRef .tc main_arg15) = m ((c : Thread nD τ).loc main_arg15) :=
  (show W6 m ρ c (Proc.devRef .tc main_arg15) = W5 m ρ c (Proc.devRef .tc main_arg15) from W6_of_ne m ρ c main_arg15 (by decide)).trans (arg15_at5 m ρ c)
theorem arg15_at7 (c : Dev nD) : W7 m ρ c (Proc.devRef .tc main_arg15) = m ((c : Thread nD τ).loc main_arg15) :=
  (show W7 m ρ c (Proc.devRef .tc main_arg15) = W6 m ρ c (Proc.devRef .tc main_arg15) from (by host_keep hostOps4)).trans (arg15_at6 m ρ c)
theorem arg15_at8 (c : Dev nD) : W8 m ρ c (Proc.devRef .tc main_arg15) = m ((c : Thread nD τ).loc main_arg15) :=
  (show W8 m ρ c (Proc.devRef .tc main_arg15) = W7 m ρ c (Proc.devRef .tc main_arg15) from W8_of_ne m ρ c main_arg15 (by decide)).trans (arg15_at7 m ρ c)
theorem arg15_at9 (c : Dev nD) : W9 m ρ c (Proc.devRef .tc main_arg15) = m ((c : Thread nD τ).loc main_arg15) :=
  (show W9 m ρ c (Proc.devRef .tc main_arg15) = W8 m ρ c (Proc.devRef .tc main_arg15) from (by host_keep hostOps5)).trans (arg15_at8 m ρ c)
theorem arg16_at1 (c : Dev nD) : W1 m ρ c (Proc.devRef .tc main_arg16) = m ((c : Thread nD τ).loc main_arg16) :=
  (show W1 m ρ c (Proc.devRef .tc main_arg16) = W0 m ρ c (Proc.devRef .tc main_arg16) from W1_of_ne m ρ c main_arg16 (by decide)).trans (rfl)
theorem arg16_at2 (c : Dev nD) : W2 m ρ c (Proc.devRef .tc main_arg16) = m ((c : Thread nD τ).loc main_arg16) :=
  (show W2 m ρ c (Proc.devRef .tc main_arg16) = W1 m ρ c (Proc.devRef .tc main_arg16) from (by host_keep hostOps1)).trans (arg16_at1 m ρ c)
theorem arg16_at3 (c : Dev nD) : W3 m ρ c (Proc.devRef .tc main_arg16) = m ((c : Thread nD τ).loc main_arg16) :=
  (show W3 m ρ c (Proc.devRef .tc main_arg16) = W2 m ρ c (Proc.devRef .tc main_arg16) from W3_of_ne m ρ c main_arg16 (by decide)).trans (arg16_at2 m ρ c)
theorem arg16_at4 (c : Dev nD) : W4 m ρ c (Proc.devRef .tc main_arg16) = m ((c : Thread nD τ).loc main_arg16) :=
  (show W4 m ρ c (Proc.devRef .tc main_arg16) = W3 m ρ c (Proc.devRef .tc main_arg16) from (by host_keep hostOps2)).trans (arg16_at3 m ρ c)
theorem arg16_at5 (c : Dev nD) : W5 m ρ c (Proc.devRef .tc main_arg16) = m ((c : Thread nD τ).loc main_arg16) :=
  (show W5 m ρ c (Proc.devRef .tc main_arg16) = W4 m ρ c (Proc.devRef .tc main_arg16) from W5_of_ne m ρ c main_arg16 (by decide)).trans (arg16_at4 m ρ c)
theorem arg16_at6 (c : Dev nD) : W6 m ρ c (Proc.devRef .tc main_arg16) = m ((c : Thread nD τ).loc main_arg16) :=
  (show W6 m ρ c (Proc.devRef .tc main_arg16) = W5 m ρ c (Proc.devRef .tc main_arg16) from W6_of_ne m ρ c main_arg16 (by decide)).trans (arg16_at5 m ρ c)
theorem arg16_at7 (c : Dev nD) : W7 m ρ c (Proc.devRef .tc main_arg16) = m ((c : Thread nD τ).loc main_arg16) :=
  (show W7 m ρ c (Proc.devRef .tc main_arg16) = W6 m ρ c (Proc.devRef .tc main_arg16) from (by host_keep hostOps4)).trans (arg16_at6 m ρ c)
theorem arg16_at8 (c : Dev nD) : W8 m ρ c (Proc.devRef .tc main_arg16) = m ((c : Thread nD τ).loc main_arg16) :=
  (show W8 m ρ c (Proc.devRef .tc main_arg16) = W7 m ρ c (Proc.devRef .tc main_arg16) from W8_of_ne m ρ c main_arg16 (by decide)).trans (arg16_at7 m ρ c)
theorem arg17_at1 (c : Dev nD) : W1 m ρ c (Proc.devRef .tc main_arg17) = m ((c : Thread nD τ).loc main_arg17) :=
  (show W1 m ρ c (Proc.devRef .tc main_arg17) = W0 m ρ c (Proc.devRef .tc main_arg17) from W1_of_ne m ρ c main_arg17 (by decide)).trans (rfl)
theorem arg17_at2 (c : Dev nD) : W2 m ρ c (Proc.devRef .tc main_arg17) = m ((c : Thread nD τ).loc main_arg17) :=
  (show W2 m ρ c (Proc.devRef .tc main_arg17) = W1 m ρ c (Proc.devRef .tc main_arg17) from (by host_keep hostOps1)).trans (arg17_at1 m ρ c)
theorem arg17_at3 (c : Dev nD) : W3 m ρ c (Proc.devRef .tc main_arg17) = m ((c : Thread nD τ).loc main_arg17) :=
  (show W3 m ρ c (Proc.devRef .tc main_arg17) = W2 m ρ c (Proc.devRef .tc main_arg17) from W3_of_ne m ρ c main_arg17 (by decide)).trans (arg17_at2 m ρ c)
theorem arg17_at4 (c : Dev nD) : W4 m ρ c (Proc.devRef .tc main_arg17) = m ((c : Thread nD τ).loc main_arg17) :=
  (show W4 m ρ c (Proc.devRef .tc main_arg17) = W3 m ρ c (Proc.devRef .tc main_arg17) from (by host_keep hostOps2)).trans (arg17_at3 m ρ c)
theorem arg17_at5 (c : Dev nD) : W5 m ρ c (Proc.devRef .tc main_arg17) = m ((c : Thread nD τ).loc main_arg17) :=
  (show W5 m ρ c (Proc.devRef .tc main_arg17) = W4 m ρ c (Proc.devRef .tc main_arg17) from W5_of_ne m ρ c main_arg17 (by decide)).trans (arg17_at4 m ρ c)
theorem arg17_at6 (c : Dev nD) : W6 m ρ c (Proc.devRef .tc main_arg17) = m ((c : Thread nD τ).loc main_arg17) :=
  (show W6 m ρ c (Proc.devRef .tc main_arg17) = W5 m ρ c (Proc.devRef .tc main_arg17) from W6_of_ne m ρ c main_arg17 (by decide)).trans (arg17_at5 m ρ c)
theorem arg17_at7 (c : Dev nD) : W7 m ρ c (Proc.devRef .tc main_arg17) = m ((c : Thread nD τ).loc main_arg17) :=
  (show W7 m ρ c (Proc.devRef .tc main_arg17) = W6 m ρ c (Proc.devRef .tc main_arg17) from (by host_keep hostOps4)).trans (arg17_at6 m ρ c)
theorem arg17_at8 (c : Dev nD) : W8 m ρ c (Proc.devRef .tc main_arg17) = m ((c : Thread nD τ).loc main_arg17) :=
  (show W8 m ρ c (Proc.devRef .tc main_arg17) = W7 m ρ c (Proc.devRef .tc main_arg17) from W8_of_ne m ρ c main_arg17 (by decide)).trans (arg17_at7 m ρ c)
theorem arg17_at9 (c : Dev nD) : W9 m ρ c (Proc.devRef .tc main_arg17) = m ((c : Thread nD τ).loc main_arg17) :=
  (show W9 m ρ c (Proc.devRef .tc main_arg17) = W8 m ρ c (Proc.devRef .tc main_arg17) from (by host_keep hostOps5)).trans (arg17_at8 m ρ c)
theorem arg17_at10 (c : Dev nD) : W10 m ρ c (Proc.devRef .tc main_arg17) = m ((c : Thread nD τ).loc main_arg17) :=
  (show W10 m ρ c (Proc.devRef .tc main_arg17) = W9 m ρ c (Proc.devRef .tc main_arg17) from W10_of_ne m ρ c main_arg17 (by decide)).trans (arg17_at9 m ρ c)
theorem arg17_at11 (c : Dev nD) : W11 m ρ c (Proc.devRef .tc main_arg17) = m ((c : Thread nD τ).loc main_arg17) :=
  (show W11 m ρ c (Proc.devRef .tc main_arg17) = W10 m ρ c (Proc.devRef .tc main_arg17) from (by host_keep hostOps6)).trans (arg17_at10 m ρ c)
theorem arg18_at1 (c : Dev nD) : W1 m ρ c (Proc.devRef .tc main_arg18) = m ((c : Thread nD τ).loc main_arg18) :=
  (show W1 m ρ c (Proc.devRef .tc main_arg18) = W0 m ρ c (Proc.devRef .tc main_arg18) from W1_of_ne m ρ c main_arg18 (by decide)).trans (rfl)
theorem arg18_at2 (c : Dev nD) : W2 m ρ c (Proc.devRef .tc main_arg18) = m ((c : Thread nD τ).loc main_arg18) :=
  (show W2 m ρ c (Proc.devRef .tc main_arg18) = W1 m ρ c (Proc.devRef .tc main_arg18) from (by host_keep hostOps1)).trans (arg18_at1 m ρ c)
theorem arg18_at3 (c : Dev nD) : W3 m ρ c (Proc.devRef .tc main_arg18) = m ((c : Thread nD τ).loc main_arg18) :=
  (show W3 m ρ c (Proc.devRef .tc main_arg18) = W2 m ρ c (Proc.devRef .tc main_arg18) from W3_of_ne m ρ c main_arg18 (by decide)).trans (arg18_at2 m ρ c)
theorem arg18_at4 (c : Dev nD) : W4 m ρ c (Proc.devRef .tc main_arg18) = m ((c : Thread nD τ).loc main_arg18) :=
  (show W4 m ρ c (Proc.devRef .tc main_arg18) = W3 m ρ c (Proc.devRef .tc main_arg18) from (by host_keep hostOps2)).trans (arg18_at3 m ρ c)
theorem arg18_at5 (c : Dev nD) : W5 m ρ c (Proc.devRef .tc main_arg18) = m ((c : Thread nD τ).loc main_arg18) :=
  (show W5 m ρ c (Proc.devRef .tc main_arg18) = W4 m ρ c (Proc.devRef .tc main_arg18) from W5_of_ne m ρ c main_arg18 (by decide)).trans (arg18_at4 m ρ c)
theorem arg18_at6 (c : Dev nD) : W6 m ρ c (Proc.devRef .tc main_arg18) = m ((c : Thread nD τ).loc main_arg18) :=
  (show W6 m ρ c (Proc.devRef .tc main_arg18) = W5 m ρ c (Proc.devRef .tc main_arg18) from W6_of_ne m ρ c main_arg18 (by decide)).trans (arg18_at5 m ρ c)
theorem arg18_at7 (c : Dev nD) : W7 m ρ c (Proc.devRef .tc main_arg18) = m ((c : Thread nD τ).loc main_arg18) :=
  (show W7 m ρ c (Proc.devRef .tc main_arg18) = W6 m ρ c (Proc.devRef .tc main_arg18) from (by host_keep hostOps4)).trans (arg18_at6 m ρ c)
theorem arg18_at8 (c : Dev nD) : W8 m ρ c (Proc.devRef .tc main_arg18) = m ((c : Thread nD τ).loc main_arg18) :=
  (show W8 m ρ c (Proc.devRef .tc main_arg18) = W7 m ρ c (Proc.devRef .tc main_arg18) from W8_of_ne m ρ c main_arg18 (by decide)).trans (arg18_at7 m ρ c)
theorem arg18_at9 (c : Dev nD) : W9 m ρ c (Proc.devRef .tc main_arg18) = m ((c : Thread nD τ).loc main_arg18) :=
  (show W9 m ρ c (Proc.devRef .tc main_arg18) = W8 m ρ c (Proc.devRef .tc main_arg18) from (by host_keep hostOps5)).trans (arg18_at8 m ρ c)
theorem arg18_at10 (c : Dev nD) : W10 m ρ c (Proc.devRef .tc main_arg18) = m ((c : Thread nD τ).loc main_arg18) :=
  (show W10 m ρ c (Proc.devRef .tc main_arg18) = W9 m ρ c (Proc.devRef .tc main_arg18) from W10_of_ne m ρ c main_arg18 (by decide)).trans (arg18_at9 m ρ c)
theorem v31_at6 (c : Dev nD) : W6 m ρ c (Proc.devRef .tc main_v31) = W5 m ρ c (Proc.devRef .tc main_v31) :=
  (show W6 m ρ c (Proc.devRef .tc main_v31) = W5 m ρ c (Proc.devRef .tc main_v31) from W6_of_ne m ρ c main_v31 (by decide)).trans (rfl)
theorem v31_at7 (c : Dev nD) : W7 m ρ c (Proc.devRef .tc main_v31) = W5 m ρ c (Proc.devRef .tc main_v31) :=
  (show W7 m ρ c (Proc.devRef .tc main_v31) = W6 m ρ c (Proc.devRef .tc main_v31) from (by host_keep hostOps4)).trans (v31_at6 m ρ c)
theorem v31_at8 (c : Dev nD) : W8 m ρ c (Proc.devRef .tc main_v31) = W5 m ρ c (Proc.devRef .tc main_v31) :=
  (show W8 m ρ c (Proc.devRef .tc main_v31) = W7 m ρ c (Proc.devRef .tc main_v31) from W8_of_ne m ρ c main_v31 (by decide)).trans (v31_at7 m ρ c)
theorem v31_at9 (c : Dev nD) : W9 m ρ c (Proc.devRef .tc main_v31) = W5 m ρ c (Proc.devRef .tc main_v31) :=
  (show W9 m ρ c (Proc.devRef .tc main_v31) = W8 m ρ c (Proc.devRef .tc main_v31) from (by host_keep hostOps5)).trans (v31_at8 m ρ c)
theorem v31_at10 (c : Dev nD) : W10 m ρ c (Proc.devRef .tc main_v31) = W5 m ρ c (Proc.devRef .tc main_v31) :=
  (show W10 m ρ c (Proc.devRef .tc main_v31) = W9 m ρ c (Proc.devRef .tc main_v31) from W10_of_ne m ρ c main_v31 (by decide)).trans (v31_at9 m ρ c)

end Cert.KernelIdeal.Keep

end
-- ==== Proof.LibRowwise.lean ====
/-
  The mathematics of the two programs, index by index, over the extended reals.

  Both programs compute a two-layer graph convolution followed by a row-wise log-softmax. Three pieces of it are computed
  differently by the two sides (in tiles by the one, whole by the other) and are named here as functions of whole arrays:

  * `mm X Y`, the matrix product: entry (r, c) is the sum over k of X(r, k) · Y(k, c);
  * `relu X`: every entry replaced by its maximum with zero;
  * `lsm X`, the row-wise log-softmax: entry (r, c) is (X(r, c) − μ_r) − log Σ_k exp (X(r, k) − μ_r), where μ_r is the largest
    entry of row r (the maximum taken from −∞).

  An entry of `mm X Y` depends on one row of X and one column of Y, and an entry of `lsm X` on one row of X: that is what
  lets a tile of the result be computed from a tile of the operand (`mm_congr`, `lsm_congr`).
-/
import Idealize.ShloMosaic.PureOps.Ideal
import Idealize.ShloMosaic.Lib.ValueIdx

noncomputable section

namespace Cert.Spec

open Idealize.ShloMosaic Idealize.ShloMosaic.ValueIdx

/-- The matrix product of an M × K and a K × N array. -/
def mm {M K N : ℕ} (X : (⟨2, ![M, K]⟩ : Shape).Idx → EReal) (Y : (⟨2, ![K, N]⟩ : Shape).Idx → EReal) :
    (⟨2, ![M, N]⟩ : Shape).Idx → EReal :=
  fun j => ∑ k : Fin K, X (ix2 ⟨(j 0).val, idx2_lt0 j⟩ k) * Y (ix2 k ⟨(j 1).val, idx2_lt1 j⟩)

theorem mm_ix2 {M K N : ℕ} (X : (⟨2, ![M, K]⟩ : Shape).Idx → EReal) (Y : (⟨2, ![K, N]⟩ : Shape).Idx → EReal)
    (r : Fin M) (c : Fin N) : mm X Y (ix2 r c) = ∑ k : Fin K, X (ix2 r k) * Y (ix2 k c) := rfl

/-- An entry of a product is determined by one row of the left factor and one column of the right one. -/
theorem mm_congr {M M' K N N' : ℕ} {X : (⟨2, ![M, K]⟩ : Shape).Idx → EReal} {Y : (⟨2, ![K, N]⟩ : Shape).Idx → EReal}
    {X' : (⟨2, ![M', K]⟩ : Shape).Idx → EReal} {Y' : (⟨2, ![K, N']⟩ : Shape).Idx → EReal}
    {r : Fin M} {c : Fin N} {r' : Fin M'} {c' : Fin N'}
    (hX : ∀ k, X (ix2 r k) = X' (ix2 r' k)) (hY : ∀ k, Y (ix2 k c) = Y' (ix2 k c')) :
    mm X Y (ix2 r c) = mm X' Y' (ix2 r' c') := by
  rw [mm_ix2, mm_ix2]
  exact Finset.sum_congr rfl fun k _ => by rw [hX k, hY k]

/-- Every entry replaced by its maximum with zero (the zero spelt by its single-precision pattern). -/
def relu {s : Shape} (X : s.Idx → EReal) : s.Idx → EReal := fun i => max (X i) (Ideal.ofBits .f32 0x00000000#32)

/-- The largest entry of a row, the maximum taken from −∞ (spelt by its single-precision pattern). -/
def rowMax {M N : ℕ} (X : (⟨2, ![M, N]⟩ : Shape).Idx → EReal) (r : Fin M) : EReal :=
  (Finset.univ : Finset (Fin N)).fold max (Ideal.ofBits .f32 0xFF800000#32) (fun k => X (ix2 r k))

/-- The row-wise log-softmax. -/
def lsm {M N : ℕ} (X : (⟨2, ![M, N]⟩ : Shape).Idx → EReal) : (⟨2, ![M, N]⟩ : Shape).Idx → EReal :=
  fun j => (X j - rowMax X ⟨(j 0).val, idx2_lt0 j⟩)
    - Ideal.log (∑ k : Fin N, Ideal.exp (X (ix2 ⟨(j 0).val, idx2_lt0 j⟩ k) - rowMax X ⟨(j 0).val, idx2_lt0 j⟩))

theorem lsm_ix2 {M N : ℕ} (X : (⟨2, ![M, N]⟩ : Shape).Idx → EReal) (r : Fin M) (c : Fin N) :
    lsm X (ix2 r c) = (X (ix2 r c) - rowMax X r) - Ideal.log (∑ k : Fin N, Ideal.exp (X (ix2 r k) - rowMax X r)) := rfl

theorem rowMax_congr {M M' N : ℕ} {X : (⟨2, ![M, N]⟩ : Shape).Idx → EReal} {X' : (⟨2, ![M', N]⟩ : Shape).Idx → EReal}
    {r : Fin M} {r' : Fin M'} (hX : ∀ k, X (ix2 r k) = X' (ix2 r' k)) : rowMax X r = rowMax X' r' := by
  unfold rowMax
  rw [show (fun k => X (ix2 r k)) = fun k => X' (ix2 r' k) from funext hX]

/-- An entry of the log-softmax is determined by its row. -/
theorem lsm_congr {M M' N : ℕ} {X : (⟨2, ![M, N]⟩ : Shape).Idx → EReal} {X' : (⟨2, ![M', N]⟩ : Shape).Idx → EReal}
    {r : Fin M} {r' : Fin M'} (c : Fin N) (hX : ∀ k, X (ix2 r k) = X' (ix2 r' k)) :
    lsm X (ix2 r c) = lsm X' (ix2 r' c) := by
  rw [lsm_ix2, lsm_ix2, rowMax_congr hX, hX c]
  exact congrArg _ (congrArg _ (Finset.sum_congr rfl fun k _ => by rw [hX k]))

/-- The maximum from −∞ of a row does not change when it is taken against −∞ once more. -/
theorem max_init_rowMax {M N : ℕ} (X : (⟨2, ![M, N]⟩ : Shape).Idx → EReal) (r : Fin M) :
    max (Ideal.ofBits .f32 0xFF800000#32) (rowMax X r) = rowMax X r :=
  max_eq_right (Finset.le_fold_max (Ideal.ofBits .f32 0xFF800000#32) |>.mpr (Or.inl le_rfl))

end Cert.Spec

end
-- ==== Proof.LibRowBias.lean ====
/-
  A vector added to every row of a matrix, and a row-wise log-softmax put together from its parts, over the extended reals.

  `addRow X b` adds the vector `b` to every row of `X`; `addRow1 X b` does the same with `b` held as a one-row matrix, which
  is how a row-tiled kernel sees a bias; the two agree when the one row holds the vector (`addRow1_eq_addRow`). An entry of
  either depends on one entry of the matrix (`addRow1_congr`). `lsm_of_parts`: if `mx` holds each row's maximum in every
  lane and `ls` the logarithm of the row's sum of exponentials of the shifted entries in every lane, then
  `(Y − mx) − ls` is the row-wise log-softmax of `Y` — the form in which both a kernel body (lane reductions kept as columns
  and spread back) and a host program (reductions broadcast back) compute it.
-/
import proofs.«134329_j2834678415610_1_alg».proof.Proof.LibRowwise

noncomputable section

namespace Cert.Spec

open Idealize.ShloMosaic Idealize.ShloMosaic.ValueIdx

/-- A vector added to every row of a matrix. -/
def addRow {M N : ℕ} (X : (⟨2, ![M, N]⟩ : Shape).Idx → EReal) (b : (⟨1, ![N]⟩ : Shape).Idx → EReal) :
    (⟨2, ![M, N]⟩ : Shape).Idx → EReal :=
  fun j => X j + b (ix1 ⟨(j 1).val, idx2_lt1 j⟩)

theorem addRow_ix2 {M N : ℕ} (X : (⟨2, ![M, N]⟩ : Shape).Idx → EReal) (b : (⟨1, ![N]⟩ : Shape).Idx → EReal)
    (r : Fin M) (c : Fin N) : addRow X b (ix2 r c) = X (ix2 r c) + b (ix1 c) := rfl

/-- The one row of a one-row matrix added to every row of a matrix. -/
def addRow1 {M N : ℕ} (X : (⟨2, ![M, N]⟩ : Shape).Idx → EReal) (b : (⟨2, ![1, N]⟩ : Shape).Idx → EReal) :
    (⟨2, ![M, N]⟩ : Shape).Idx → EReal :=
  fun j => X j + b (ix2 (0 : Fin 1) ⟨(j 1).val, idx2_lt1 j⟩)

theorem addRow1_ix2 {M N : ℕ} (X : (⟨2, ![M, N]⟩ : Shape).Idx → EReal) (b : (⟨2, ![1, N]⟩ : Shape).Idx → EReal)
    (r : Fin M) (c : Fin N) : addRow1 X b (ix2 r c) = X (ix2 r c) + b (ix2 (0 : Fin 1) c) := rfl

/-- An entry of a matrix with a row added is determined by the entry of the matrix. -/
theorem addRow1_congr {M M' N : ℕ} {X : (⟨2, ![M, N]⟩ : Shape).Idx → EReal} {X' : (⟨2, ![M', N]⟩ : Shape).Idx → EReal}
    {b b' : (⟨2, ![1, N]⟩ : Shape).Idx → EReal} {r : Fin M} {r' : Fin M'} (c : Fin N)
    (hX : X (ix2 r c) = X' (ix2 r' c)) (hb : b (ix2 (0 : Fin 1) c) = b' (ix2 (0 : Fin 1) c)) :
    addRow1 X b (ix2 r c) = addRow1 X' b' (ix2 r' c) := by
  rw [addRow1_ix2, addRow1_ix2, hX, hb]

theorem relu_apply {s : Shape} (X : s.Idx → EReal) (i : s.Idx) :
    relu X i = max (X i) (Ideal.ofBits .f32 0x00000000#32) := rfl

/-- A one-row matrix holding a vector, added to every row, is the vector added to every row. -/
theorem addRow1_eq_addRow {M N : ℕ} (X : (⟨2, ![M, N]⟩ : Shape).Idx → EReal) (b1 : (⟨2, ![1, N]⟩ : Shape).Idx → EReal)
    (b : (⟨1, ![N]⟩ : Shape).Idx → EReal) (h : ∀ c : Fin N, b1 (ix2 (0 : Fin 1) c) = b (ix1 c)) :
    addRow1 X b1 = addRow X b := by
  funext j
  show X j + b1 (ix2 (0 : Fin 1) ⟨(j 1).val, idx2_lt1 j⟩) = X j + b (ix1 ⟨(j 1).val, idx2_lt1 j⟩)
  rw [h]

/-- A log-softmax assembled from its parts: a matrix holding each row's maximum in every lane, and one holding the
    logarithm of the row's sum of exponentials in every lane. -/
theorem lsm_of_parts {a b : ℕ} (Y mx ls : (⟨2, ![a, b]⟩ : Shape).Idx → EReal)
    (hmx : ∀ (r : Fin a) (k : Fin b), mx (ix2 r k) = rowMax Y r)
    (hls : ∀ (r : Fin a) (c : Fin b), ls (ix2 r c) = Ideal.log (∑ k : Fin b, Ideal.exp (Y (ix2 r k) - mx (ix2 r k)))) :
    (fun j => (Y j - mx j) - ls j) = lsm Y := by
  funext j
  obtain ⟨r, c, rfl⟩ : ∃ (r : Fin a) (c : Fin b), j = ix2 r c := ⟨j 0, j 1, eq_ix2 j⟩
  rw [lsm_ix2, hls r c, hmx r c]
  refine congrArg _ (congrArg _ (Finset.sum_congr rfl fun k _ => ?_))
  rw [hmx r k]

end Cert.Spec

end
-- ==== Proof.Spec.lean ====
/-
  The network both programs compute, as one function of whole arrays over the extended reals.

  A branch is a two-layer graph convolution followed by a linear layer and a row-wise log-softmax:
    h₁ = relu (A (x · W₁) + b₁),   h₂ = A (h₁ · W₂) + b₂,   out = lsm (h₂ · L + ℓ),
  where `A` is the aggregation over the graph's edges (a gather of rows, a scaling by the edge weight and a
  scatter-add of rows: the same host operations in both programs, so it stays an abstract function here), `·` the
  matrix product, `+ b` a vector added to every row, and `lsm` the row-wise log-softmax. The network joins the two
  branches' outputs column-wise (`C`, again the same host operation in both programs and abstract here), applies one
  more linear layer and a last log-softmax.
-/
import proofs.«134329_j2834678415610_1_alg».proof.Proof.LibRowBias

noncomputable section

namespace Cert.Spec

open Idealize.ShloMosaic Idealize.ShloMosaic.ValueIdx

variable {n f h k : ℕ}

/-- The first layer and the second layer's product: relu (A (x · W₁) + b₁) · W₂. -/
def hidden (A : ((⟨2, ![n, h]⟩ : Shape).Idx → EReal) → ((⟨2, ![n, h]⟩ : Shape).Idx → EReal))
    (x : (⟨2, ![n, f]⟩ : Shape).Idx → EReal) (W1 : (⟨2, ![f, h]⟩ : Shape).Idx → EReal) (b1 : (⟨1, ![h]⟩ : Shape).Idx → EReal)
    (W2 : (⟨2, ![h, h]⟩ : Shape).Idx → EReal) : (⟨2, ![n, h]⟩ : Shape).Idx → EReal :=
  mm (relu (addRow (A (mm x W1)) b1)) W2

/-- One branch: lsm ((A (hidden) + b₂) · L + ℓ). -/
def branch (A : ((⟨2, ![n, h]⟩ : Shape).Idx → EReal) → ((⟨2, ![n, h]⟩ : Shape).Idx → EReal))
    (x : (⟨2, ![n, f]⟩ : Shape).Idx → EReal) (W1 : (⟨2, ![f, h]⟩ : Shape).Idx → EReal) (b1 : (⟨1, ![h]⟩ : Shape).Idx → EReal)
    (W2 : (⟨2, ![h, h]⟩ : Shape).Idx → EReal) (b2 : (⟨1, ![h]⟩ : Shape).Idx → EReal)
    (L : (⟨2, ![h, h]⟩ : Shape).Idx → EReal) (l : (⟨1, ![h]⟩ : Shape).Idx → EReal) : (⟨2, ![n, h]⟩ : Shape).Idx → EReal :=
  lsm (addRow (mm (addRow (A (hidden A x W1 b1 W2)) b2) L) l)

/-- The last layer on the joined branches: lsm (C(u, v) · L + ℓ). -/
def head {h2 : ℕ} (C : ((⟨2, ![n, h]⟩ : Shape).Idx → EReal) → ((⟨2, ![n, h]⟩ : Shape).Idx → EReal) → ((⟨2, ![n, h2]⟩ : Shape).Idx → EReal))
    (u v : (⟨2, ![n, h]⟩ : Shape).Idx → EReal) (L : (⟨2, ![h2, k]⟩ : Shape).Idx → EReal) (l : (⟨1, ![k]⟩ : Shape).Idx → EReal) :
    (⟨2, ![n, k]⟩ : Shape).Idx → EReal :=
  lsm (addRow (mm (C u v) L) l)

end Cert.Spec

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibKeepdims.lean ====
/-
  Layout operations of a row-reduced block, read at an index by coordinates.

  A kernel that reduces an [a, b] block along its rows and uses the result against the block again (a row maximum
  subtracted, a row sum divided by) passes it through three re-layings: the reduced vector [a] is cast to a column
  [a, 1], and the column is broadcast back over the b lanes to [a, b]. A pipelined block of a rank-4 array with two
  leading unit axes is cast to the matrix [a, b] it holds, and a matrix result is cast back. Each lemma reads one of
  these at an index written by its coordinates; none depends on a program.
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes to [a, b] reads, at (i, j), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A block [1, 1, a, b] cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- A matrix [a, b] cast to the block [1, 1, a, b] reads, at (u, w, i, j), the matrix at (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

end Idealize.ShloMosaic.Keepdims

end
-- ==== Proof.LibBlockOps.lean ====
/-
  The operations of the kernels' bodies on one block, read as the whole-array functions of the specification.

  Every body works on a block of rows: it adds a one-row matrix to every row, takes a maximum with zero, multiplies by a
  weight matrix on the matrix unit (its operands rounded to a shorter format first, which over the extended reals changes
  nothing), and takes a row-wise log-softmax by a lane maximum, a subtraction, an exponential, a lane sum, a logarithm and
  another subtraction, the two lane reductions kept as columns and spread back over the lanes. Each lemma here says that one
  of these, as the body spells it, is the specification's function of the same block.
-/
import proofs.«134329_j2834678415610_1_alg».proof.Proof.LibRowBias
import proofs.«134329_j2834678415610_1_alg».proof.Proof.LibPlainDot
import proofs.«134329_j2834678415610_1_alg».proof.Proof.LibKeepdims
import Idealize.ShloMosaic.Lib.ValueLayout
import Idealize.ShloMosaic.Lib.Pipeline.Value
import Idealize.ShloMosaic.PureOps.Ideal.Laws

noncomputable section

namespace Cert.BlockOps

open Idealize.ShloMosaic Idealize.ShloMosaic.ValueIdx Cert.Spec

variable {a b K : ℕ}

/-- The matrix unit's product of two rounded operands into a zero accumulator is the matrix product. -/
theorem mm_block (d : DotDims ⟨2, ![a, K]⟩ ⟨2, ![K, b]⟩ ⟨2, ![a, b]⟩) (hd : d = DotDims.plain a K b)
    (X : FVec Ideal ⟨2, ![a, K]⟩ .f32) (W : FVec Ideal ⟨2, ![K, b]⟩ .f32)
    (h1 : FTy.bf16.bits < FTy.f32.bits) (h2 : FTy.bf16.bits < FTy.f32.bits) :
    matmul d none (truncf .bf16 X h1) (truncf .bf16 W h2) (constant ⟨2, ![a, b]⟩ .f32 0x00000000#32) = mm X W := by
  subst hd
  funext j
  exact PlainDot.matmul_apply none _ _ j

/-- A one-row matrix spread over the rows and added is that row added to every row. -/
theorem addRow_block (X : FVec Ideal ⟨2, ![a, b]⟩ .f32) (v : FVec Ideal ⟨2, ![1, b]⟩ .f32)
    (h2 : (⟨2, ![1, b]⟩ : Shape).ShapeCasts ⟨2, ![1, b]⟩) (hb : (⟨2, ![1, b]⟩ : Shape).Broadcasts ⟨2, ![a, b]⟩) :
    addf X (broadcastTo ⟨2, ![a, b]⟩ (shapeCast ⟨2, ![1, b]⟩ v h2) hb) = addRow1 X v := by
  funext j
  obtain ⟨r, c, rfl⟩ : ∃ (r : Fin a) (c : Fin b), j = ix2 r c := ⟨j 0, j 1, eq_ix2 j⟩
  show X (ix2 r c) + broadcastTo ⟨2, ![a, b]⟩ (shapeCast ⟨2, ![1, b]⟩ v h2) hb (ix2 r c) = X (ix2 r c) + v (ix2 (0 : Fin 1) c)
  rw [broadcastTo_1b_ab_apply, shapeCast_self]

/-- The maximum with a splat of zero is the relu. -/
theorem relu_block {s : Shape} (X : FVec Ideal s .f32) :
    maximumf X (broadcast s (Scalar.ofBits (F := Ideal) .f32 0x00000000#32)) = relu X := rfl

/-- The lane maximum from −∞ of a block, at a row: the row's maximum. -/
theorem rowMax_block (Y : FVec Ideal ⟨2, ![a, b]⟩ .f32) (h : Shape.Reduces ⟨2, ![a, b]⟩ [(1 : Fin 2)] ⟨1, ![a]⟩)
    (hφ : FKind.Formats .f32) (hacc : (0xFF800000#32 : BitVec 32) = FKind.maximumf.neutral .f32 hφ) (r : Fin a) :
    multiReduction .maximumf [(1 : Fin 2)] ⟨1, ![a]⟩ Y 0xFF800000#32 h hφ hacc (ix1 r) = rowMax Y r := by
  refine (Ideal.multiReduction_maximumf_single Y _ h hφ hacc (ix1 r)).trans ?_
  show (Finset.univ : Finset (Fin b)).fold max (Ideal.ofBits .f32 0xFF800000#32) (fun k => Y (h.lift (ix1 r) k)) = _
  unfold rowMax
  refine congrArg (fun f => Finset.fold max (Ideal.ofBits .f32 0xFF800000#32) f (Finset.univ : Finset (Fin b))) (funext fun k => congrArg Y ?_)
  funext ax
  apply Fin.ext
  match ax with
  | ⟨0, _⟩ => rfl
  | ⟨1, _⟩ => rfl

/-- The lane sum of a block, at a row: the sum over the row. -/
theorem rowSum_block (E : FVec Ideal ⟨2, ![a, b]⟩ .f32) (h : Shape.Reduces ⟨2, ![a, b]⟩ [(1 : Fin 2)] ⟨1, ![a]⟩)
    (hφ : FKind.Formats .f32) (hacc : (0x00000000#32 : BitVec 32) = FKind.add.neutral .f32 hφ) (r : Fin a) :
    multiReduction .add [(1 : Fin 2)] ⟨1, ![a]⟩ E 0x00000000#32 h hφ hacc (ix1 r) = ∑ k : Fin b, E (ix2 r k) := by
  refine (Ideal.multiReduction_add_single E _ h hφ hacc (ix1 r)).trans ?_
  show ∑ k : Fin b, E (h.lift (ix1 r) k) = _
  refine Finset.sum_congr rfl fun k _ => congrArg E ?_
  funext ax
  apply Fin.ext
  match ax with
  | ⟨0, _⟩ => rfl
  | ⟨1, _⟩ => rfl

/-- The body's row-wise log-softmax of a block: the lane maximum kept as a column, spread back and subtracted; the
    exponential; its lane sum kept as a column; the logarithm, spread back and subtracted. -/
theorem lsm_block (Y : FVec Ideal ⟨2, ![a, b]⟩ .f32) (h : Shape.Reduces ⟨2, ![a, b]⟩ [(1 : Fin 2)] ⟨1, ![a]⟩)
    (hφ : FKind.Formats .f32) (hmaxacc : (0xFF800000#32 : BitVec 32) = FKind.maximumf.neutral .f32 hφ)
    (hφ' : FKind.Formats .f32) (haddacc : (0x00000000#32 : BitVec 32) = FKind.add.neutral .f32 hφ')
    (hsc : (⟨1, ![a]⟩ : Shape).ShapeCasts ⟨2, ![a, 1]⟩) (hbc : (⟨2, ![a, 1]⟩ : Shape).Broadcasts ⟨2, ![a, b]⟩) :
    subf (subf Y (broadcastTo ⟨2, ![a, b]⟩ (shapeCast ⟨2, ![a, 1]⟩
            (multiReduction .maximumf [(1 : Fin 2)] ⟨1, ![a]⟩ Y 0xFF800000#32 h hφ hmaxacc) hsc) hbc))
        (broadcastTo ⟨2, ![a, b]⟩ (log (shapeCast ⟨2, ![a, 1]⟩
            (multiReduction .add [(1 : Fin 2)] ⟨1, ![a]⟩
              (exp (subf Y (broadcastTo ⟨2, ![a, b]⟩ (shapeCast ⟨2, ![a, 1]⟩
                (multiReduction .maximumf [(1 : Fin 2)] ⟨1, ![a]⟩ Y 0xFF800000#32 h hφ hmaxacc) hsc) hbc)))
              0x00000000#32 h hφ' haddacc) hsc)) hbc)
      = lsm Y := by
  refine lsm_of_parts Y _ _ (fun r k => ?_) (fun r c => ?_)
  · exact (Keepdims.broadcastTo_a1_ab_apply _ hbc r k).trans
      ((Keepdims.shapeCast_a_a1_apply _ hsc r 0).trans (rowMax_block Y h hφ hmaxacc r))
  · refine (Keepdims.broadcastTo_a1_ab_apply _ hbc r c).trans ?_
    show Ideal.log (shapeCast ⟨2, ![a, 1]⟩ _ hsc (ix2 r (0 : Fin 1))) = _
    rw [Keepdims.shapeCast_a_a1_apply _ hsc r 0]
    exact congrArg Ideal.log (rowSum_block _ h hφ' haddacc r)

end Cert.BlockOps

end
-- ==== Proof.Body.lean ====
/-
  What each of the seven kernel bodies stores, as the specification's function of the blocks it loads.

  The seven bodies are four texts: a matrix product (regions 0 and 3); relu of a block plus a bias row, times a weight
  matrix (regions 1 and 4); a block plus a bias row, times a weight matrix, plus a second bias row, under a row-wise
  log-softmax (regions 2 and 5); and a block times a weight matrix plus a bias row under a row-wise log-softmax (region 6).
-/
import proofs.«134329_j2834678415610_1_alg».proof.Proof.Gen.KernelIdeal.Skeleton
import proofs.«134329_j2834678415610_1_alg».proof.Proof.LibBlockOps

noncomputable section

namespace Cert.KernelIdeal.Body

open Cert.KernelIdeal Cert.KernelIdeal.Gen Idealize.ShloMosaic Cert.Spec Cert.BlockOps

/-- Region 0's body stores the matrix product of its row block and the weight matrix. -/
theorem pay0 (x : Vec Ideal S5000x512 .f32) (w : Vec Ideal S512x256 .f32) : k0_pay1 (F := Ideal) x w = mm x w := by
  unfold k0_pay1
  exact mm_block _ rfl x w _ _

/-- Region 1's body stores relu (block + bias row) times the weight matrix. -/
theorem pay1 (x : Vec Ideal S5000x256 .f32) (b : Vec Ideal S1x256 .f32) (w : Vec Ideal S256x256 .f32) :
    k1_pay1 (F := Ideal) x b w = mm (relu (addRow1 x b)) w := by
  unfold k1_pay1
  dsimp only
  refine (mm_block _ rfl _ w _ _).trans (congrArg (fun M => mm M w) ?_)
  refine (relu_block _).trans (congrArg relu ?_)
  rw [shapeCast_self]
  exact addRow_block x b _ _

/-- Region 2's body stores the row-wise log-softmax of (block + bias row) times the weight matrix plus a second bias row. -/
theorem pay2 (x : Vec Ideal S5000x256 .f32) (b : Vec Ideal S1x256 .f32) (w : Vec Ideal S256x256 .f32) (l : Vec Ideal S1x256 .f32) :
    k2_pay1 (F := Ideal) x b w l = lsm (addRow1 (mm (addRow1 x b) w) l) := by
  unfold k2_pay1
  dsimp only
  refine (lsm_block _ _ _ _ _ _ _ _).trans (congrArg lsm ?_)
  refine (addRow_block _ l _ _).trans (congrArg (fun M => addRow1 M l) ?_)
  refine (mm_block _ rfl _ w _ _).trans (congrArg (fun M => mm M w) ?_)
  rw [shapeCast_self]
  exact addRow_block x b _ _

/-- Region 3's body stores the matrix product of its row block and the weight matrix. -/
theorem pay3 (x : Vec Ideal S5000x512 .f32) (w : Vec Ideal S512x256 .f32) : k3_pay1 (F := Ideal) x w = mm x w := by
  unfold k3_pay1
  exact mm_block _ rfl x w _ _

/-- Region 4's body stores relu (block + bias row) times the weight matrix. -/
theorem pay4 (x : Vec Ideal S5000x256 .f32) (b : Vec Ideal S1x256 .f32) (w : Vec Ideal S256x256 .f32) :
    k4_pay1 (F := Ideal) x b w = mm (relu (addRow1 x b)) w := by
  unfold k4_pay1
  dsimp only
  refine (mm_block _ rfl _ w _ _).trans (congrArg (fun M => mm M w) ?_)
  refine (relu_block _).trans (congrArg relu ?_)
  rw [shapeCast_self]
  exact addRow_block x b _ _

/-- Region 5's body stores the row-wise log-softmax of (block + bias row) times the weight matrix plus a second bias row. -/
theorem pay5 (x : Vec Ideal S5000x256 .f32) (b : Vec Ideal S1x256 .f32) (w : Vec Ideal S256x256 .f32) (l : Vec Ideal S1x256 .f32) :
    k5_pay1 (F := Ideal) x b w l = lsm (addRow1 (mm (addRow1 x b) w) l) := by
  unfold k5_pay1
  dsimp only
  refine (lsm_block _ _ _ _ _ _ _ _).trans (congrArg lsm ?_)
  refine (addRow_block _ l _ _).trans (congrArg (fun M => addRow1 M l) ?_)
  refine (mm_block _ rfl _ w _ _).trans (congrArg (fun M => mm M w) ?_)
  rw [shapeCast_self]
  exact addRow_block x b _ _

/-- Region 6's body stores the row-wise log-softmax of the block times the weight matrix plus a bias row. -/
theorem pay6 (x : Vec Ideal S5000x512 .f32) (w : Vec Ideal S512x64 .f32) (l : Vec Ideal S1x64 .f32) :
    k6_pay1 (F := Ideal) x w l = lsm (addRow1 (mm x w) l) := by
  unfold k6_pay1
  dsimp only
  refine (lsm_block _ _ _ _ _ _ _ _).trans (congrArg lsm ?_)
  refine (addRow_block _ l _ _).trans (congrArg (fun M => addRow1 M l) ?_)
  refine (mm_block _ rfl _ w _ _).trans ?_
  rw [shapeCast_self]

end Cert.KernelIdeal.Body

end
-- ==== Proof.Reg0.lean ====
/-
  Region 0 (the product of the row-blocked array and the weight matrix): from the blocks its grid points write back to the whole array it leaves.

  The region runs over ten grid points; point t loads rows 5000·t … 5000·t + 4999 of its row-blocked operand and the other
  operands whole, and writes back the same rows of the result. An entry of the result depends on one row of the row-blocked
  operand only, so block t of the whole-array function is that function of block t, and the ten blocks cover the array.
-/
import proofs.«134329_j2834678415610_1_alg».proof.Proof.Gen.KernelIdeal.Frame
import proofs.«134329_j2834678415610_1_alg».proof.Proof.Body
import Idealize.ShloMosaic.Lib.Pipeline.Value

noncomputable section

namespace Cert.KernelIdeal.Reg0

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's is (0, 0). -/
theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem row_lt (t : Fin cfg0.N) (p : Fin 5000) : 5000 * t.val + p.val < 50000 := by
  have ht : t.val < 10 := by have h1 := t.isLt; have h2 : cfg0.N = 10 := N_0; omega
  have := p.isLt
  omega

/-- Window 0's block at point `t` is rows 5000·t … 5000·t + 4999 of its array. -/
theorem blk_0 (c : Dev nD) (t : Fin cfg0.N) (p : Fin 5000) (k : Fin 512) :
    (iblk0 V c 0 t : Vec Ideal S5000x512 .f32) (ix2 p k)
      = (V c main_arg0 : S50000x512.Idx → EReal) (ix2 ⟨5000 * t.val + p.val, row_lt t p⟩ k) := by
  unfold iblk0
  rw [View.read_apply]
  show V c main_arg0 _ = V c main_arg0 _
  congr 1
  funext ax
  apply Fin.ext
  match ax with
  | ⟨0, _⟩ => show win0_0.index t (0 : Fin 2) * 5000 + 1 * p.val = 5000 * t.val + p.val; rw [(idx t).1]; omega
  | ⟨1, _⟩ => show win0_0.index t (1 : Fin 2) * 512 + 1 * k.val = k.val; rw [(idx t).2.1]; omega

/-- Window 1's block at every point is its whole array. -/
theorem blk_1 (c : Dev nD) (t : Fin cfg0.N) (r : Fin 512) (k : Fin 256) :
    (iblk0 V c 1 t : Vec Ideal S512x256 .f32) (ix2 r k) = (V c main_arg5 : S512x256.Idx → EReal) (ix2 r k) := by
  unfold iblk0
  rw [View.read_apply]
  show V c main_arg5 _ = V c main_arg5 _
  congr 1
  funext ax
  apply Fin.ext
  match ax with
  | ⟨0, _⟩ => show win0_1.index t (0 : Fin 2) * 512 + 1 * r.val = r.val; rw [(idx t).2.2.1]; omega
  | ⟨1, _⟩ => show win0_1.index t (1 : Fin 2) * 256 + 1 * k.val = k.val; rw [(idx t).2.2.2.1]; omega

/-- What point `t` writes back is block `t` of the whole-array function of the arrays as the region finds them. -/
theorem flushed (c : Dev nD) (t : Fin cfg0.N) :
    (dat0 V c).flushed 2 t = ((cfg0.win 2).blk t).view.read (Elt Ideal) (mm (V c main_arg0) (V c main_arg5)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x256) hz]
  rw [Body.pay0]
  funext j
  obtain ⟨p, q, rfl⟩ : ∃ (p : Fin 5000) (q : Fin 256), j = ix2 p q := ⟨j 0, j 1, eq_ix2 j⟩
  rw [View.read_apply]
  have hemb : ((cfg0.win 2).blk t).view.emb (ix2 p q) = (ix2 ⟨5000 * t.val + p.val, row_lt t p⟩ q : S50000x256.Idx) := by
    funext ax
    apply Fin.ext
    match ax with
    | ⟨0, _⟩ => show win0_2.index t (0 : Fin 2) * 5000 + 1 * p.val = 5000 * t.val + p.val; rw [(idx t).2.2.2.2.1]; omega
    | ⟨1, _⟩ => show win0_2.index t (1 : Fin 2) * 256 + 1 * q.val = q.val; rw [(idx t).2.2.2.2.2]; omega
  rw [hemb]
  exact mm_congr (fun k => blk_0 V c t p k) (fun k => blk_1 V c t k q)

/-- An index of the result array lies in point `t`'s block iff each coordinate lies in the block's range. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v0).slice (win0_2.rect t)).set ↔ _
  rw [View.set_slice_whole, Rect.mem_set_unit]
  exact Iff.rfl

/-- Row r of the result lies in the block of point r / 5000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 5000, by rw [show cfg0.N = 10 from N_0]; omega⟩
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [(idx t).2.2.2.2.1]; omega
  | ⟨1, _⟩ => show win0_2.index t (1 : Fin 2) * 256 ≤ (i 1).val ∧ (i 1).val < win0_2.index t (1 : Fin 2) * 256 + 256; rw [(idx t).2.2.2.2.2]; omega

/-- The result array after the region: the whole-array function of the arrays as the region finds them. -/
theorem final (c : Dev nD) : (dat0 V c).arrAt 2 cfg0.N = mm (V c main_arg0) (V c main_arg5) :=
  (dat0 V c).arrAt_eq_of_cover 2 (mm (V c main_arg0) (V c main_arg5)) (fun t _ => flushed V c t) cover

end Cert.KernelIdeal.Reg0

end
-- ==== Proof.Reg1.lean ====
/-
  Region 1 (relu of the row-blocked array plus the bias row, times the weight matrix): from the blocks its grid points write back to the whole array it leaves.

  The region runs over ten grid points; point t loads rows 5000·t … 5000·t + 4999 of its row-blocked operand and the other
  operands whole, and writes back the same rows of the result. An entry of the result depends on one row of the row-blocked
  operand only, so block t of the whole-array function is that function of block t, and the ten blocks cover the array.
-/
import proofs.«134329_j2834678415610_1_alg».proof.Proof.Gen.KernelIdeal.Frame
import proofs.«134329_j2834678415610_1_alg».proof.Proof.Body
import Idealize.ShloMosaic.Lib.Pipeline.Value

noncomputable section

namespace Cert.KernelIdeal.Reg1

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's is (0, 0). -/
theorem idx : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

theorem row_lt (t : Fin cfg1.N) (p : Fin 5000) : 5000 * t.val + p.val < 50000 := by
  have ht : t.val < 10 := by have h1 := t.isLt; have h2 : cfg1.N = 10 := N_1; omega
  have := p.isLt
  omega

/-- Window 0's block at point `t` is rows 5000·t … 5000·t + 4999 of its array. -/
theorem blk_0 (c : Dev nD) (t : Fin cfg1.N) (p : Fin 5000) (k : Fin 256) :
    (iblk1 V c 0 t : Vec Ideal S5000x256 .f32) (ix2 p k)
      = (V c main_v13 : S50000x256.Idx → EReal) (ix2 ⟨5000 * t.val + p.val, row_lt t p⟩ k) := by
  unfold iblk1
  rw [View.read_apply]
  show V c main_v13 _ = V c main_v13 _
  congr 1
  funext ax
  apply Fin.ext
  match ax with
  | ⟨0, _⟩ => show win1_0.index t (0 : Fin 2) * 5000 + 1 * p.val = 5000 * t.val + p.val; rw [(idx t).1]; omega
  | ⟨1, _⟩ => show win1_0.index t (1 : Fin 2) * 256 + 1 * k.val = k.val; rw [(idx t).2.1]; omega

/-- Window 1's block at every point is its whole array. -/
theorem blk_1 (c : Dev nD) (t : Fin cfg1.N) (r : Fin 1) (k : Fin 256) :
    (iblk1 V c 1 t : Vec Ideal S1x256 .f32) (ix2 r k) = (V c main_v14 : S1x256.Idx → EReal) (ix2 r k) := by
  unfold iblk1
  rw [View.read_apply]
  show V c main_v14 _ = V c main_v14 _
  congr 1
  funext ax
  apply Fin.ext
  match ax with
  | ⟨0, _⟩ => show win1_1.index t (0 : Fin 2) * 1 + 1 * r.val = r.val; rw [(idx t).2.2.1]; omega
  | ⟨1, _⟩ => show win1_1.index t (1 : Fin 2) * 256 + 1 * k.val = k.val; rw [(idx t).2.2.2.1]; omega

/-- Window 2's block at every point is its whole array. -/
theorem blk_2 (c : Dev nD) (t : Fin cfg1.N) (r : Fin 256) (k : Fin 256) :
    (iblk1 V c 2 t : Vec Ideal S256x256 .f32) (ix2 r k) = (V c main_arg7 : S256x256.Idx → EReal) (ix2 r k) := by
  unfold iblk1
  rw [View.read_apply]
  show V c main_arg7 _ = V c main_arg7 _
  congr 1
  funext ax
  apply Fin.ext
  match ax with
  | ⟨0, _⟩ => show win1_2.index t (0 : Fin 2) * 256 + 1 * r.val = r.val; rw [(idx t).2.2.2.2.1]; omega
  | ⟨1, _⟩ => show win1_2.index t (1 : Fin 2) * 256 + 1 * k.val = k.val; rw [(idx t).2.2.2.2.2.1]; omega

/-- What point `t` writes back is block `t` of the whole-array function of the arrays as the region finds them. -/
theorem flushed (c : Dev nD) (t : Fin cfg1.N) :
    (dat1 V c).flushed 3 t = ((cfg1.win 3).blk t).view.read (Elt Ideal) (mm (relu (addRow1 (V c main_v13) (V c main_v14))) (V c main_arg7)) := by
  show (cfg1.win 3).cut (grid1.coords t) ((dat1 V c).after 3 t) = _
  rw [after1_3]
  unfold out1_3
  rw [View.canon_unit_zero hz]
  simp only [View.ld_unit_zero (S := S5000x256) hz, View.ld_unit_zero (S := S1x256) hz, View.ld_unit_zero (S := S256x256) hz]
  rw [Body.pay1]
  funext j
  obtain ⟨p, q, rfl⟩ : ∃ (p : Fin 5000) (q : Fin 256), j = ix2 p q := ⟨j 0, j 1, eq_ix2 j⟩
  rw [View.read_apply]
  have hemb : ((cfg1.win 3).blk t).view.emb (ix2 p q) = (ix2 ⟨5000 * t.val + p.val, row_lt t p⟩ q : S50000x256.Idx) := by
    funext ax
    apply Fin.ext
    match ax with
    | ⟨0, _⟩ => show win1_3.index t (0 : Fin 2) * 5000 + 1 * p.val = 5000 * t.val + p.val; rw [(idx t).2.2.2.2.2.2.1]; omega
    | ⟨1, _⟩ => show win1_3.index t (1 : Fin 2) * 256 + 1 * q.val = q.val; rw [(idx t).2.2.2.2.2.2.2]; omega
  rw [hemb]
  exact mm_congr (fun k => by rw [relu_apply, relu_apply, addRow1_congr k (blk_0 V c t p k) (blk_1 V c t 0 k)]) (fun k => blk_2 V c t k q)

/-- An index of the result array lies in point `t`'s block iff each coordinate lies in the block's range. -/
theorem mem_blk (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v15).slice (win1_3.rect t)).set ↔ _
  rw [View.set_slice_whole, Rect.mem_set_unit]
  exact Iff.rfl

/-- Row r of the result lies in the block of point r / 5000. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  let t : Fin cfg1.N := ⟨(i 0).val / 5000, by rw [show cfg1.N = 10 from N_1]; omega⟩
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [(idx t).2.2.2.2.2.2.1]; omega
  | ⟨1, _⟩ => show win1_3.index t (1 : Fin 2) * 256 ≤ (i 1).val ∧ (i 1).val < win1_3.index t (1 : Fin 2) * 256 + 256; rw [(idx t).2.2.2.2.2.2.2]; omega

/-- The result array after the region: the whole-array function of the arrays as the region finds them. -/
theorem final (c : Dev nD) : (dat1 V c).arrAt 3 cfg1.N = mm (relu (addRow1 (V c main_v13) (V c main_v14))) (V c main_arg7) :=
  (dat1 V c).arrAt_eq_of_cover 3 (mm (relu (addRow1 (V c main_v13) (V c main_v14))) (V c main_arg7)) (fun t _ => flushed V c t) cover

end Cert.KernelIdeal.Reg1

end
-- ==== Proof.Reg2.lean ====
/-
  Region 2 (the row-wise log-softmax of (the row-blocked array plus a bias row) times the weight matrix plus a second bias row): from the blocks its grid points write back to the whole array it leaves.

  The region runs over ten grid points; point t loads rows 5000·t … 5000·t + 4999 of its row-blocked operand and the other
  operands whole, and writes back the same rows of the result. An entry of the result depends on one row of the row-blocked
  operand only, so block t of the whole-array function is that function of block t, and the ten blocks cover the array.
-/
import proofs.«134329_j2834678415610_1_alg».proof.Proof.Gen.KernelIdeal.Frame
import proofs.«134329_j2834678415610_1_alg».proof.Proof.Body
import Idealize.ShloMosaic.Lib.Pipeline.Value

noncomputable section

namespace Cert.KernelIdeal.Reg2

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's is (0, 0). -/
theorem idx : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

theorem row_lt (t : Fin cfg2.N) (p : Fin 5000) : 5000 * t.val + p.val < 50000 := by
  have ht : t.val < 10 := by have h1 := t.isLt; have h2 : cfg2.N = 10 := N_2; omega
  have := p.isLt
  omega

/-- Window 0's block at point `t` is rows 5000·t … 5000·t + 4999 of its array. -/
theorem blk_0 (c : Dev nD) (t : Fin cfg2.N) (p : Fin 5000) (k : Fin 256) :
    (iblk2 V c 0 t : Vec Ideal S5000x256 .f32) (ix2 p k)
      = (V c main_v28 : S50000x256.Idx → EReal) (ix2 ⟨5000 * t.val + p.val, row_lt t p⟩ k) := by
  unfold iblk2
  rw [View.read_apply]
  show V c main_v28 _ = V c main_v28 _
  congr 1
  funext ax
  apply Fin.ext
  match ax with
  | ⟨0, _⟩ => show win2_0.index t (0 : Fin 2) * 5000 + 1 * p.val = 5000 * t.val + p.val; rw [(idx t).1]; omega
  | ⟨1, _⟩ => show win2_0.index t (1 : Fin 2) * 256 + 1 * k.val = k.val; rw [(idx t).2.1]; omega

/-- Window 1's block at every point is its whole array. -/
theorem blk_1 (c : Dev nD) (t : Fin cfg2.N) (r : Fin 1) (k : Fin 256) :
    (iblk2 V c 1 t : Vec Ideal S1x256 .f32) (ix2 r k) = (V c main_v29 : S1x256.Idx → EReal) (ix2 r k) := by
  unfold iblk2
  rw [View.read_apply]
  show V c main_v29 _ = V c main_v29 _
  congr 1
  funext ax
  apply Fin.ext
  match ax with
  | ⟨0, _⟩ => show win2_1.index t (0 : Fin 2) * 1 + 1 * r.val = r.val; rw [(idx t).2.2.1]; omega
  | ⟨1, _⟩ => show win2_1.index t (1 : Fin 2) * 256 + 1 * k.val = k.val; rw [(idx t).2.2.2.1]; omega

/-- Window 2's block at every point is its whole array. -/
theorem blk_2 (c : Dev nD) (t : Fin cfg2.N) (r : Fin 256) (k : Fin 256) :
    (iblk2 V c 2 t : Vec Ideal S256x256 .f32) (ix2 r k) = (V c main_arg9 : S256x256.Idx → EReal) (ix2 r k) := by
  unfold iblk2
  rw [View.read_apply]
  show V c main_arg9 _ = V c main_arg9 _
  congr 1
  funext ax
  apply Fin.ext
  match ax with
  | ⟨0, _⟩ => show win2_2.index t (0 : Fin 2) * 256 + 1 * r.val = r.val; rw [(idx t).2.2.2.2.1]; omega
  | ⟨1, _⟩ => show win2_2.index t (1 : Fin 2) * 256 + 1 * k.val = k.val; rw [(idx t).2.2.2.2.2.1]; omega

/-- Window 3's block at every point is its whole array. -/
theorem blk_3 (c : Dev nD) (t : Fin cfg2.N) (r : Fin 1) (k : Fin 256) :
    (iblk2 V c 3 t : Vec Ideal S1x256 .f32) (ix2 r k) = (V c main_v30 : S1x256.Idx → EReal) (ix2 r k) := by
  unfold iblk2
  rw [View.read_apply]
  show V c main_v30 _ = V c main_v30 _
  congr 1
  funext ax
  apply Fin.ext
  match ax with
  | ⟨0, _⟩ => show win2_3.index t (0 : Fin 2) * 1 + 1 * r.val = r.val; rw [(idx t).2.2.2.2.2.2.1]; omega
  | ⟨1, _⟩ => show win2_3.index t (1 : Fin 2) * 256 + 1 * k.val = k.val; rw [(idx t).2.2.2.2.2.2.2.1]; omega

/-- What point `t` writes back is block `t` of the whole-array function of the arrays as the region finds them. -/
theorem flushed (c : Dev nD) (t : Fin cfg2.N) :
    (dat2 V c).flushed 4 t = ((cfg2.win 4).blk t).view.read (Elt Ideal) (lsm (addRow1 (mm (addRow1 (V c main_v28) (V c main_v29)) (V c main_arg9)) (V c main_v30))) := by
  show (cfg2.win 4).cut (grid2.coords t) ((dat2 V c).after 4 t) = _
  rw [after2_4]
  unfold out2_4
  rw [View.canon_unit_zero hz]
  simp only [View.ld_unit_zero (S := S5000x256) hz, View.ld_unit_zero (S := S1x256) hz, View.ld_unit_zero (S := S256x256) hz]
  rw [Body.pay2]
  funext j
  obtain ⟨p, q, rfl⟩ : ∃ (p : Fin 5000) (q : Fin 256), j = ix2 p q := ⟨j 0, j 1, eq_ix2 j⟩
  rw [View.read_apply]
  have hemb : ((cfg2.win 4).blk t).view.emb (ix2 p q) = (ix2 ⟨5000 * t.val + p.val, row_lt t p⟩ q : S50000x256.Idx) := by
    funext ax
    apply Fin.ext
    match ax with
    | ⟨0, _⟩ => show win2_4.index t (0 : Fin 2) * 5000 + 1 * p.val = 5000 * t.val + p.val; rw [(idx t).2.2.2.2.2.2.2.2.1]; omega
    | ⟨1, _⟩ => show win2_4.index t (1 : Fin 2) * 256 + 1 * q.val = q.val; rw [(idx t).2.2.2.2.2.2.2.2.2]; omega
  rw [hemb]
  exact lsm_congr q (fun k => addRow1_congr k (mm_congr (fun k' => addRow1_congr k' (blk_0 V c t p k') (blk_1 V c t 0 k')) (fun k' => blk_2 V c t k' k)) (blk_3 V c t 0 k))

/-- An index of the result array lies in point `t`'s block iff each coordinate lies in the block's range. -/
theorem mem_blk (t : Fin cfg2.N) (i : S50000x256.Idx) :
    i ∈ ((cfg2.win 4).blk t).view.set ↔ ∀ a : Fin 2, win2_4.index t a * S5000x256.size a ≤ (i a).val ∧ (i a).val < win2_4.index t a * S5000x256.size a + S5000x256.size a := by
  show i ∈ ((View.whole main_v31).slice (win2_4.rect t)).set ↔ _
  rw [View.set_slice_whole, Rect.mem_set_unit]
  exact Iff.rfl

/-- Row r of the result lies in the block of point r / 5000. -/
theorem cover (i : S50000x256.Idx) : ∃ t : Fin cfg2.N, (cfg2.win 4).flush t = true ∧ i ∈ ((cfg2.win 4).blk t).view.set := by
  have hi0 : (i 0).val < 50000 := (i 0).isLt
  have hi1 : (i 1).val < 256 := (i 1).isLt
  let t : Fin cfg2.N := ⟨(i 0).val / 5000, by rw [show cfg2.N = 10 from N_2]; omega⟩
  have ht : t.val = (i 0).val / 5000 := rfl
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; rw [(idx t).2.2.2.2.2.2.2.2.1]; omega
  | ⟨1, _⟩ => show win2_4.index t (1 : Fin 2) * 256 ≤ (i 1).val ∧ (i 1).val < win2_4.index t (1 : Fin 2) * 256 + 256; rw [(idx t).2.2.2.2.2.2.2.2.2]; omega

/-- The result array after the region: the whole-array function of the arrays as the region finds them. -/
theorem final (c : Dev nD) : (dat2 V c).arrAt 4 cfg2.N = lsm (addRow1 (mm (addRow1 (V c main_v28) (V c main_v29)) (V c main_arg9)) (V c main_v30)) :=
  (dat2 V c).arrAt_eq_of_cover 4 (lsm (addRow1 (mm (addRow1 (V c main_v28) (V c main_v29)) (V c main_arg9)) (V c main_v30))) (fun t _ => flushed V c t) cover

end Cert.KernelIdeal.Reg2

end
-- ==== Proof.Reg3.lean ====
/-
  Region 3 (the product of the row-blocked array and the weight matrix): from the blocks its grid points write back to the whole array it leaves.

  The region runs over ten grid points; point t loads rows 5000·t … 5000·t + 4999 of its row-blocked operand and the other
  operands whole, and writes back the same rows of the result. An entry of the result depends on one row of the row-blocked
  operand only, so block t of the whole-array function is that function of block t, and the ten blocks cover the array.
-/
import proofs.«134329_j2834678415610_1_alg».proof.Proof.Gen.KernelIdeal.Frame
import proofs.«134329_j2834678415610_1_alg».proof.Proof.Body
import Idealize.ShloMosaic.Lib.Pipeline.Value

noncomputable section

namespace Cert.KernelIdeal.Reg3

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's is (0, 0). -/
theorem idx : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

theorem row_lt (t : Fin cfg3.N) (p : Fin 5000) : 5000 * t.val + p.val < 50000 := by
  have ht : t.val < 10 := by have h1 := t.isLt; have h2 : cfg3.N = 10 := N_3; omega
  have := p.isLt
  omega

/-- Window 0's block at point `t` is rows 5000·t … 5000·t + 4999 of its array. -/
theorem blk_0 (c : Dev nD) (t : Fin cfg3.N) (p : Fin 5000) (k : Fin 512) :
    (iblk3 V c 0 t : Vec Ideal S5000x512 .f32) (ix2 p k)
      = (V c main_arg1 : S50000x512.Idx → EReal) (ix2 ⟨5000 * t.val + p.val, row_lt t p⟩ k) := by
  unfold iblk3
  rw [View.read_apply]
  show V c main_arg1 _ = V c main_arg1 _
  congr 1
  funext ax
  apply Fin.ext
  match ax with
  | ⟨0, _⟩ => show win3_0.index t (0 : Fin 2) * 5000 + 1 * p.val = 5000 * t.val + p.val; rw [(idx t).1]; omega
  | ⟨1, _⟩ => show win3_0.index t (1 : Fin 2) * 512 + 1 * k.val = k.val; rw [(idx t).2.1]; omega

/-- Window 1's block at every point is its whole array. -/
theorem blk_1 (c : Dev nD) (t : Fin cfg3.N) (r : Fin 512) (k : Fin 256) :
    (iblk3 V c 1 t : Vec Ideal S512x256 .f32) (ix2 r k) = (V c main_arg11 : S512x256.Idx → EReal) (ix2 r k) := by
  unfold iblk3
  rw [View.read_apply]
  show V c main_arg11 _ = V c main_arg11 _
  congr 1
  funext ax
  apply Fin.ext
  match ax with
  | ⟨0, _⟩ => show win3_1.index t (0 : Fin 2) * 512 + 1 * r.val = r.val; rw [(idx t).2.2.1]; omega
  | ⟨1, _⟩ => show win3_1.index t (1 : Fin 2) * 256 + 1 * k.val = k.val; rw [(idx t).2.2.2.1]; omega

/-- What point `t` writes back is block `t` of the whole-array function of the arrays as the region finds them. -/
theorem flushed (c : Dev nD) (t : Fin cfg3.N) :
    (dat3 V c).flushed 2 t = ((cfg3.win 2).blk t).view.read (Elt Ideal) (mm (V c main_arg1) (V c main_arg11)) := by
  show (cfg3.win 2).cut (grid3.coords t) ((dat3 V c).after 2 t) = _
  rw [after3_2]
  unfold out3_2
  rw [View.canon_unit_zero hz]
  simp only [View.ld_unit_zero (S := S5000x512) hz, View.ld_unit_zero (S := S512x256) hz]
  rw [Body.pay3]
  funext j
  obtain ⟨p, q, rfl⟩ : ∃ (p : Fin 5000) (q : Fin 256), j = ix2 p q := ⟨j 0, j 1, eq_ix2 j⟩
  rw [View.read_apply]
  have hemb : ((cfg3.win 2).blk t).view.emb (ix2 p q) = (ix2 ⟨5000 * t.val + p.val, row_lt t p⟩ q : S50000x256.Idx) := by
    funext ax
    apply Fin.ext
    match ax with
    | ⟨0, _⟩ => show win3_2.index t (0 : Fin 2) * 5000 + 1 * p.val = 5000 * t.val + p.val; rw [(idx t).2.2.2.2.1]; omega
    | ⟨1, _⟩ => show win3_2.index t (1 : Fin 2) * 256 + 1 * q.val = q.val; rw [(idx t).2.2.2.2.2]; omega
  rw [hemb]
  exact mm_congr (fun k => blk_0 V c t p k) (fun k => blk_1 V c t k q)

/-- An index of the result array lies in point `t`'s block iff each coordinate lies in the block's range. -/
theorem mem_blk (t : Fin cfg3.N) (i : S50000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v32).slice (win3_2.rect t)).set ↔ _
  rw [View.set_slice_whole, Rect.mem_set_unit]
  exact Iff.rfl

/-- Row r of the result lies in the block of point r / 5000. -/
theorem cover (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  let t : Fin cfg3.N := ⟨(i 0).val / 5000, by rw [show cfg3.N = 10 from N_3]; omega⟩
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [(idx t).2.2.2.2.1]; omega
  | ⟨1, _⟩ => show win3_2.index t (1 : Fin 2) * 256 ≤ (i 1).val ∧ (i 1).val < win3_2.index t (1 : Fin 2) * 256 + 256; rw [(idx t).2.2.2.2.2]; omega

/-- The result array after the region: the whole-array function of the arrays as the region finds them. -/
theorem final (c : Dev nD) : (dat3 V c).arrAt 2 cfg3.N = mm (V c main_arg1) (V c main_arg11) :=
  (dat3 V c).arrAt_eq_of_cover 2 (mm (V c main_arg1) (V c main_arg11)) (fun t _ => flushed V c t) cover

end Cert.KernelIdeal.Reg3

end
-- ==== Proof.Reg4.lean ====
/-
  Region 4 (relu of the row-blocked array plus the bias row, times the weight matrix): from the blocks its grid points write back to the whole array it leaves.

  The region runs over ten grid points; point t loads rows 5000·t … 5000·t + 4999 of its row-blocked operand and the other
  operands whole, and writes back the same rows of the result. An entry of the result depends on one row of the row-blocked
  operand only, so block t of the whole-array function is that function of block t, and the ten blocks cover the array.
-/
import proofs.«134329_j2834678415610_1_alg».proof.Proof.Gen.KernelIdeal.Frame
import proofs.«134329_j2834678415610_1_alg».proof.Proof.Body
import Idealize.ShloMosaic.Lib.Pipeline.Value

noncomputable section

namespace Cert.KernelIdeal.Reg4

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's is (0, 0). -/
theorem idx : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

theorem row_lt (t : Fin cfg4.N) (p : Fin 5000) : 5000 * t.val + p.val < 50000 := by
  have ht : t.val < 10 := by have h1 := t.isLt; have h2 : cfg4.N = 10 := N_4; omega
  have := p.isLt
  omega

/-- Window 0's block at point `t` is rows 5000·t … 5000·t + 4999 of its array. -/
theorem blk_0 (c : Dev nD) (t : Fin cfg4.N) (p : Fin 5000) (k : Fin 256) :
    (iblk4 V c 0 t : Vec Ideal S5000x256 .f32) (ix2 p k)
      = (V c main_v45 : S50000x256.Idx → EReal) (ix2 ⟨5000 * t.val + p.val, row_lt t p⟩ k) := by
  unfold iblk4
  rw [View.read_apply]
  show V c main_v45 _ = V c main_v45 _
  congr 1
  funext ax
  apply Fin.ext
  match ax with
  | ⟨0, _⟩ => show win4_0.index t (0 : Fin 2) * 5000 + 1 * p.val = 5000 * t.val + p.val; rw [(idx t).1]; omega
  | ⟨1, _⟩ => show win4_0.index t (1 : Fin 2) * 256 + 1 * k.val = k.val; rw [(idx t).2.1]; omega

/-- Window 1's block at every point is its whole array. -/
theorem blk_1 (c : Dev nD) (t : Fin cfg4.N) (r : Fin 1) (k : Fin 256) :
    (iblk4 V c 1 t : Vec Ideal S1x256 .f32) (ix2 r k) = (V c main_v46 : S1x256.Idx → EReal) (ix2 r k) := by
  unfold iblk4
  rw [View.read_apply]
  show V c main_v46 _ = V c main_v46 _
  congr 1
  funext ax
  apply Fin.ext
  match ax with
  | ⟨0, _⟩ => show win4_1.index t (0 : Fin 2) * 1 + 1 * r.val = r.val; rw [(idx t).2.2.1]; omega
  | ⟨1, _⟩ => show win4_1.index t (1 : Fin 2) * 256 + 1 * k.val = k.val; rw [(idx t).2.2.2.1]; omega

/-- Window 2's block at every point is its whole array. -/
theorem blk_2 (c : Dev nD) (t : Fin cfg4.N) (r : Fin 256) (k : Fin 256) :
    (iblk4 V c 2 t : Vec Ideal S256x256 .f32) (ix2 r k) = (V c main_arg13 : S256x256.Idx → EReal) (ix2 r k) := by
  unfold iblk4
  rw [View.read_apply]
  show V c main_arg13 _ = V c main_arg13 _
  congr 1
  funext ax
  apply Fin.ext
  match ax with
  | ⟨0, _⟩ => show win4_2.index t (0 : Fin 2) * 256 + 1 * r.val = r.val; rw [(idx t).2.2.2.2.1]; omega
  | ⟨1, _⟩ => show win4_2.index t (1 : Fin 2) * 256 + 1 * k.val = k.val; rw [(idx t).2.2.2.2.2.1]; omega

/-- What point `t` writes back is block `t` of the whole-array function of the arrays as the region finds them. -/
theorem flushed (c : Dev nD) (t : Fin cfg4.N) :
    (dat4 V c).flushed 3 t = ((cfg4.win 3).blk t).view.read (Elt Ideal) (mm (relu (addRow1 (V c main_v45) (V c main_v46))) (V c main_arg13)) := by
  show (cfg4.win 3).cut (grid4.coords t) ((dat4 V c).after 3 t) = _
  rw [after4_3]
  unfold out4_3
  rw [View.canon_unit_zero hz]
  simp only [View.ld_unit_zero (S := S5000x256) hz, View.ld_unit_zero (S := S1x256) hz, View.ld_unit_zero (S := S256x256) hz]
  rw [Body.pay4]
  funext j
  obtain ⟨p, q, rfl⟩ : ∃ (p : Fin 5000) (q : Fin 256), j = ix2 p q := ⟨j 0, j 1, eq_ix2 j⟩
  rw [View.read_apply]
  have hemb : ((cfg4.win 3).blk t).view.emb (ix2 p q) = (ix2 ⟨5000 * t.val + p.val, row_lt t p⟩ q : S50000x256.Idx) := by
    funext ax
    apply Fin.ext
    match ax with
    | ⟨0, _⟩ => show win4_3.index t (0 : Fin 2) * 5000 + 1 * p.val = 5000 * t.val + p.val; rw [(idx t).2.2.2.2.2.2.1]; omega
    | ⟨1, _⟩ => show win4_3.index t (1 : Fin 2) * 256 + 1 * q.val = q.val; rw [(idx t).2.2.2.2.2.2.2]; omega
  rw [hemb]
  exact mm_congr (fun k => by rw [relu_apply, relu_apply, addRow1_congr k (blk_0 V c t p k) (blk_1 V c t 0 k)]) (fun k => blk_2 V c t k q)

/-- An index of the result array lies in point `t`'s block iff each coordinate lies in the block's range. -/
theorem mem_blk (t : Fin cfg4.N) (i : S50000x256.Idx) :
    i ∈ ((cfg4.win 3).blk t).view.set ↔ ∀ a : Fin 2, win4_3.index t a * S5000x256.size a ≤ (i a).val ∧ (i a).val < win4_3.index t a * S5000x256.size a + S5000x256.size a := by
  show i ∈ ((View.whole main_v47).slice (win4_3.rect t)).set ↔ _
  rw [View.set_slice_whole, Rect.mem_set_unit]
  exact Iff.rfl

/-- Row r of the result lies in the block of point r / 5000. -/
theorem cover (i : S50000x256.Idx) : ∃ t : Fin cfg4.N, (cfg4.win 3).flush t = true ∧ i ∈ ((cfg4.win 3).blk t).view.set := by
  have hi0 : (i 0).val < 50000 := (i 0).isLt
  have hi1 : (i 1).val < 256 := (i 1).isLt
  let t : Fin cfg4.N := ⟨(i 0).val / 5000, by rw [show cfg4.N = 10 from N_4]; omega⟩
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; rw [(idx t).2.2.2.2.2.2.1]; omega
  | ⟨1, _⟩ => show win4_3.index t (1 : Fin 2) * 256 ≤ (i 1).val ∧ (i 1).val < win4_3.index t (1 : Fin 2) * 256 + 256; rw [(idx t).2.2.2.2.2.2.2]; omega

/-- The result array after the region: the whole-array function of the arrays as the region finds them. -/
theorem final (c : Dev nD) : (dat4 V c).arrAt 3 cfg4.N = mm (relu (addRow1 (V c main_v45) (V c main_v46))) (V c main_arg13) :=
  (dat4 V c).arrAt_eq_of_cover 3 (mm (relu (addRow1 (V c main_v45) (V c main_v46))) (V c main_arg13)) (fun t _ => flushed V c t) cover

end Cert.KernelIdeal.Reg4

end
-- ==== Proof.Reg5.lean ====
/-
  Region 5 (the row-wise log-softmax of (the row-blocked array plus a bias row) times the weight matrix plus a second bias row): from the blocks its grid points write back to the whole array it leaves.

  The region runs over ten grid points; point t loads rows 5000·t … 5000·t + 4999 of its row-blocked operand and the other
  operands whole, and writes back the same rows of the result. An entry of the result depends on one row of the row-blocked
  operand only, so block t of the whole-array function is that function of block t, and the ten blocks cover the array.
-/
import proofs.«134329_j2834678415610_1_alg».proof.Proof.Gen.KernelIdeal.Frame
import proofs.«134329_j2834678415610_1_alg».proof.Proof.Body
import Idealize.ShloMosaic.Lib.Pipeline.Value

noncomputable section

namespace Cert.KernelIdeal.Reg5

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's is (0, 0). -/
theorem idx : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

theorem row_lt (t : Fin cfg5.N) (p : Fin 5000) : 5000 * t.val + p.val < 50000 := by
  have ht : t.val < 10 := by have h1 := t.isLt; have h2 : cfg5.N = 10 := N_5; omega
  have := p.isLt
  omega

/-- Window 0's block at point `t` is rows 5000·t … 5000·t + 4999 of its array. -/
theorem blk_0 (c : Dev nD) (t : Fin cfg5.N) (p : Fin 5000) (k : Fin 256) :
    (iblk5 V c 0 t : Vec Ideal S5000x256 .f32) (ix2 p k)
      = (V c main_v60 : S50000x256.Idx → EReal) (ix2 ⟨5000 * t.val + p.val, row_lt t p⟩ k) := by
  unfold iblk5
  rw [View.read_apply]
  show V c main_v60 _ = V c main_v60 _
  congr 1
  funext ax
  apply Fin.ext
  match ax with
  | ⟨0, _⟩ => show win5_0.index t (0 : Fin 2) * 5000 + 1 * p.val = 5000 * t.val + p.val; rw [(idx t).1]; omega
  | ⟨1, _⟩ => show win5_0.index t (1 : Fin 2) * 256 + 1 * k.val = k.val; rw [(idx t).2.1]; omega

/-- Window 1's block at every point is its whole array. -/
theorem blk_1 (c : Dev nD) (t : Fin cfg5.N) (r : Fin 1) (k : Fin 256) :
    (iblk5 V c 1 t : Vec Ideal S1x256 .f32) (ix2 r k) = (V c main_v61 : S1x256.Idx → EReal) (ix2 r k) := by
  unfold iblk5
  rw [View.read_apply]
  show V c main_v61 _ = V c main_v61 _
  congr 1
  funext ax
  apply Fin.ext
  match ax with
  | ⟨0, _⟩ => show win5_1.index t (0 : Fin 2) * 1 + 1 * r.val = r.val; rw [(idx t).2.2.1]; omega
  | ⟨1, _⟩ => show win5_1.index t (1 : Fin 2) * 256 + 1 * k.val = k.val; rw [(idx t).2.2.2.1]; omega

/-- Window 2's block at every point is its whole array. -/
theorem blk_2 (c : Dev nD) (t : Fin cfg5.N) (r : Fin 256) (k : Fin 256) :
    (iblk5 V c 2 t : Vec Ideal S256x256 .f32) (ix2 r k) = (V c main_arg15 : S256x256.Idx → EReal) (ix2 r k) := by
  unfold iblk5
  rw [View.read_apply]
  show V c main_arg15 _ = V c main_arg15 _
  congr 1
  funext ax
  apply Fin.ext
  match ax with
  | ⟨0, _⟩ => show win5_2.index t (0 : Fin 2) * 256 + 1 * r.val = r.val; rw [(idx t).2.2.2.2.1]; omega
  | ⟨1, _⟩ => show win5_2.index t (1 : Fin 2) * 256 + 1 * k.val = k.val; rw [(idx t).2.2.2.2.2.1]; omega

/-- Window 3's block at every point is its whole array. -/
theorem blk_3 (c : Dev nD) (t : Fin cfg5.N) (r : Fin 1) (k : Fin 256) :
    (iblk5 V c 3 t : Vec Ideal S1x256 .f32) (ix2 r k) = (V c main_v62 : S1x256.Idx → EReal) (ix2 r k) := by
  unfold iblk5
  rw [View.read_apply]
  show V c main_v62 _ = V c main_v62 _
  congr 1
  funext ax
  apply Fin.ext
  match ax with
  | ⟨0, _⟩ => show win5_3.index t (0 : Fin 2) * 1 + 1 * r.val = r.val; rw [(idx t).2.2.2.2.2.2.1]; omega
  | ⟨1, _⟩ => show win5_3.index t (1 : Fin 2) * 256 + 1 * k.val = k.val; rw [(idx t).2.2.2.2.2.2.2.1]; omega

/-- What point `t` writes back is block `t` of the whole-array function of the arrays as the region finds them. -/
theorem flushed (c : Dev nD) (t : Fin cfg5.N) :
    (dat5 V c).flushed 4 t = ((cfg5.win 4).blk t).view.read (Elt Ideal) (lsm (addRow1 (mm (addRow1 (V c main_v60) (V c main_v61)) (V c main_arg15)) (V c main_v62))) := by
  show (cfg5.win 4).cut (grid5.coords t) ((dat5 V c).after 4 t) = _
  rw [after5_4]
  unfold out5_4
  rw [View.canon_unit_zero hz]
  simp only [View.ld_unit_zero (S := S5000x256) hz, View.ld_unit_zero (S := S1x256) hz, View.ld_unit_zero (S := S256x256) hz]
  rw [Body.pay5]
  funext j
  obtain ⟨p, q, rfl⟩ : ∃ (p : Fin 5000) (q : Fin 256), j = ix2 p q := ⟨j 0, j 1, eq_ix2 j⟩
  rw [View.read_apply]
  have hemb : ((cfg5.win 4).blk t).view.emb (ix2 p q) = (ix2 ⟨5000 * t.val + p.val, row_lt t p⟩ q : S50000x256.Idx) := by
    funext ax
    apply Fin.ext
    match ax with
    | ⟨0, _⟩ => show win5_4.index t (0 : Fin 2) * 5000 + 1 * p.val = 5000 * t.val + p.val; rw [(idx t).2.2.2.2.2.2.2.2.1]; omega
    | ⟨1, _⟩ => show win5_4.index t (1 : Fin 2) * 256 + 1 * q.val = q.val; rw [(idx t).2.2.2.2.2.2.2.2.2]; omega
  rw [hemb]
  exact lsm_congr q (fun k => addRow1_congr k (mm_congr (fun k' => addRow1_congr k' (blk_0 V c t p k') (blk_1 V c t 0 k')) (fun k' => blk_2 V c t k' k)) (blk_3 V c t 0 k))

/-- An index of the result array lies in point `t`'s block iff each coordinate lies in the block's range. -/
theorem mem_blk (t : Fin cfg5.N) (i : S50000x256.Idx) :
    i ∈ ((cfg5.win 4).blk t).view.set ↔ ∀ a : Fin 2, win5_4.index t a * S5000x256.size a ≤ (i a).val ∧ (i a).val < win5_4.index t a * S5000x256.size a + S5000x256.size a := by
  show i ∈ ((View.whole main_v63).slice (win5_4.rect t)).set ↔ _
  rw [View.set_slice_whole, Rect.mem_set_unit]
  exact Iff.rfl

/-- Row r of the result lies in the block of point r / 5000. -/
theorem cover (i : S50000x256.Idx) : ∃ t : Fin cfg5.N, (cfg5.win 4).flush t = true ∧ i ∈ ((cfg5.win 4).blk t).view.set := by
  have hi0 : (i 0).val < 50000 := (i 0).isLt
  have hi1 : (i 1).val < 256 := (i 1).isLt
  let t : Fin cfg5.N := ⟨(i 0).val / 5000, by rw [show cfg5.N = 10 from N_5]; omega⟩
  have ht : t.val = (i 0).val / 5000 := rfl
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; rw [(idx t).2.2.2.2.2.2.2.2.1]; omega
  | ⟨1, _⟩ => show win5_4.index t (1 : Fin 2) * 256 ≤ (i 1).val ∧ (i 1).val < win5_4.index t (1 : Fin 2) * 256 + 256; rw [(idx t).2.2.2.2.2.2.2.2.2]; omega

/-- The result array after the region: the whole-array function of the arrays as the region finds them. -/
theorem final (c : Dev nD) : (dat5 V c).arrAt 4 cfg5.N = lsm (addRow1 (mm (addRow1 (V c main_v60) (V c main_v61)) (V c main_arg15)) (V c main_v62)) :=
  (dat5 V c).arrAt_eq_of_cover 4 (lsm (addRow1 (mm (addRow1 (V c main_v60) (V c main_v61)) (V c main_arg15)) (V c main_v62))) (fun t _ => flushed V c t) cover

end Cert.KernelIdeal.Reg5

end
-- ==== Proof.Reg6.lean ====
/-
  Region 6 (the row-wise log-softmax of the row-blocked array times the weight matrix plus a bias row): from the blocks its grid points write back to the whole array it leaves.

  The region runs over ten grid points; point t loads rows 5000·t … 5000·t + 4999 of its row-blocked operand and the other
  operands whole, and writes back the same rows of the result. An entry of the result depends on one row of the row-blocked
  operand only, so block t of the whole-array function is that function of block t, and the ten blocks cover the array.
-/
import proofs.«134329_j2834678415610_1_alg».proof.Proof.Gen.KernelIdeal.Frame
import proofs.«134329_j2834678415610_1_alg».proof.Proof.Body
import Idealize.ShloMosaic.Lib.Pipeline.Value

noncomputable section

namespace Cert.KernelIdeal.Reg6

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's is (0, 0). -/
theorem idx : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

theorem row_lt (t : Fin cfg6.N) (p : Fin 5000) : 5000 * t.val + p.val < 50000 := by
  have ht : t.val < 10 := by have h1 := t.isLt; have h2 : cfg6.N = 10 := N_6; omega
  have := p.isLt
  omega

/-- Window 0's block at point `t` is rows 5000·t … 5000·t + 4999 of its array. -/
theorem blk_0 (c : Dev nD) (t : Fin cfg6.N) (p : Fin 5000) (k : Fin 512) :
    (iblk6 V c 0 t : Vec Ideal S5000x512 .f32) (ix2 p k)
      = (V c main_v64 : S50000x512.Idx → EReal) (ix2 ⟨5000 * t.val + p.val, row_lt t p⟩ k) := by
  unfold iblk6
  rw [View.read_apply]
  show V c main_v64 _ = V c main_v64 _
  congr 1
  funext ax
  apply Fin.ext
  match ax with
  | ⟨0, _⟩ => show win6_0.index t (0 : Fin 2) * 5000 + 1 * p.val = 5000 * t.val + p.val; rw [(idx t).1]; omega
  | ⟨1, _⟩ => show win6_0.index t (1 : Fin 2) * 512 + 1 * k.val = k.val; rw [(idx t).2.1]; omega

/-- Window 1's block at every point is its whole array. -/
theorem blk_1 (c : Dev nD) (t : Fin cfg6.N) (r : Fin 512) (k : Fin 64) :
    (iblk6 V c 1 t : Vec Ideal S512x64 .f32) (ix2 r k) = (V c main_arg17 : S512x64.Idx → EReal) (ix2 r k) := by
  unfold iblk6
  rw [View.read_apply]
  show V c main_arg17 _ = V c main_arg17 _
  congr 1
  funext ax
  apply Fin.ext
  match ax with
  | ⟨0, _⟩ => show win6_1.index t (0 : Fin 2) * 512 + 1 * r.val = r.val; rw [(idx t).2.2.1]; omega
  | ⟨1, _⟩ => show win6_1.index t (1 : Fin 2) * 64 + 1 * k.val = k.val; rw [(idx t).2.2.2.1]; omega

/-- Window 2's block at every point is its whole array. -/
theorem blk_2 (c : Dev nD) (t : Fin cfg6.N) (r : Fin 1) (k : Fin 64) :
    (iblk6 V c 2 t : Vec Ideal S1x64 .f32) (ix2 r k) = (V c main_v65 : S1x64.Idx → EReal) (ix2 r k) := by
  unfold iblk6
  rw [View.read_apply]
  show V c main_v65 _ = V c main_v65 _
  congr 1
  funext ax
  apply Fin.ext
  match ax with
  | ⟨0, _⟩ => show win6_2.index t (0 : Fin 2) * 1 + 1 * r.val = r.val; rw [(idx t).2.2.2.2.1]; omega
  | ⟨1, _⟩ => show win6_2.index t (1 : Fin 2) * 64 + 1 * k.val = k.val; rw [(idx t).2.2.2.2.2.1]; omega

/-- What point `t` writes back is block `t` of the whole-array function of the arrays as the region finds them. -/
theorem flushed (c : Dev nD) (t : Fin cfg6.N) :
    (dat6 V c).flushed 3 t = ((cfg6.win 3).blk t).view.read (Elt Ideal) (lsm (addRow1 (mm (V c main_v64) (V c main_arg17)) (V c main_v65))) := by
  show (cfg6.win 3).cut (grid6.coords t) ((dat6 V c).after 3 t) = _
  rw [after6_3]
  unfold out6_3
  rw [View.canon_unit_zero hz]
  simp only [View.ld_unit_zero (S := S5000x512) hz, View.ld_unit_zero (S := S512x64) hz, View.ld_unit_zero (S := S1x64) hz]
  rw [Body.pay6]
  funext j
  obtain ⟨p, q, rfl⟩ : ∃ (p : Fin 5000) (q : Fin 64), j = ix2 p q := ⟨j 0, j 1, eq_ix2 j⟩
  rw [View.read_apply]
  have hemb : ((cfg6.win 3).blk t).view.emb (ix2 p q) = (ix2 ⟨5000 * t.val + p.val, row_lt t p⟩ q : S50000x64.Idx) := by
    funext ax
    apply Fin.ext
    match ax with
    | ⟨0, _⟩ => show win6_3.index t (0 : Fin 2) * 5000 + 1 * p.val = 5000 * t.val + p.val; rw [(idx t).2.2.2.2.2.2.1]; omega
    | ⟨1, _⟩ => show win6_3.index t (1 : Fin 2) * 64 + 1 * q.val = q.val; rw [(idx t).2.2.2.2.2.2.2]; omega
  rw [hemb]
  exact lsm_congr q (fun k => addRow1_congr k (mm_congr (fun k' => blk_0 V c t p k') (fun k' => blk_1 V c t k' k)) (blk_2 V c t 0 k))

/-- An index of the result array lies in point `t`'s block iff each coordinate lies in the block's range. -/
theorem mem_blk (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v66).slice (win6_3.rect t)).set ↔ _
  rw [View.set_slice_whole, Rect.mem_set_unit]
  exact Iff.rfl

/-- Row r of the result lies in the block of point r / 5000. -/
theorem cover (i : S50000x64.Idx) : ∃ t : Fin cfg6.N, (cfg6.win 3).flush t = true ∧ i ∈ ((cfg6.win 3).blk t).view.set := by
  have hi0 : (i 0).val < 50000 := (i 0).isLt
  have hi1 : (i 1).val < 64 := (i 1).isLt
  let t : Fin cfg6.N := ⟨(i 0).val / 5000, by rw [show cfg6.N = 10 from N_6]; omega⟩
  have ht : t.val = (i 0).val / 5000 := rfl
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; rw [(idx t).2.2.2.2.2.2.1]; omega
  | ⟨1, _⟩ => show win6_3.index t (1 : Fin 2) * 64 ≤ (i 1).val ∧ (i 1).val < win6_3.index t (1 : Fin 2) * 64 + 64; rw [(idx t).2.2.2.2.2.2.2]; omega

/-- The result array after the region: the whole-array function of the arrays as the region finds them. -/
theorem final (c : Dev nD) : (dat6 V c).arrAt 3 cfg6.N = lsm (addRow1 (mm (V c main_v64) (V c main_arg17)) (V c main_v65)) :=
  (dat6 V c).arrAt_eq_of_cover 3 (lsm (addRow1 (mm (V c main_v64) (V c main_arg17)) (V c main_v65))) (fun t _ => flushed V c t) cover

end Cert.KernelIdeal.Reg6

end
-- ==== Proof.Fold.lean ====
/-
  The kernel program's result buffer at the end of the run, as the specification's network of the arguments.

  The fold of buffer contents through the twelve segments is read forwards: each region leaves in its result array the
  whole-array function of the arrays it finds (one lemma per region), each stretch of host operations leaves the
  aggregation of what the region before it left and the biases re-laid as single rows, and an argument's buffer holds the
  launch contents at every boundary.
-/
import proofs.«134329_j2834678415610_1_alg».proof.Proof.Keep
import proofs.«134329_j2834678415610_1_alg».proof.Proof.Spec
import proofs.«134329_j2834678415610_1_alg».proof.Proof.Reg0
import proofs.«134329_j2834678415610_1_alg».proof.Proof.Reg1
import proofs.«134329_j2834678415610_1_alg».proof.Proof.Reg2
import proofs.«134329_j2834678415610_1_alg».proof.Proof.Reg3
import proofs.«134329_j2834678415610_1_alg».proof.Proof.Reg4
import proofs.«134329_j2834678415610_1_alg».proof.Proof.Reg5
import proofs.«134329_j2834678415610_1_alg».proof.Proof.Reg6
import Idealize.ShloMosaic.Lib.ValueLayout
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo Cert.Spec

/-- The aggregation over the graph's edges as the host spells it: the source indices wrapped once if negative, the rows
    gathered at them, every gathered row scaled by its edge's weight, and the scaled rows scatter-added at the
    destination indices into a zero array. -/
def agg (x2 x3 : (⟨S800000, .i32⟩ : BufTy).Contents (Elt Ideal)) (x4 : (⟨S800000, .f32⟩ : BufTy).Contents (Elt Ideal))
    (h : (⟨S50000x256, .f32⟩ : BufTy).Contents (Elt Ideal)) : (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 x3)
    (mulf (broadcastInDim S800000x256 ![0, 1] bcast_S800000x1_S800000x256_0_1 (broadcastInDim S800000x1 ![0] bcast_S800000_S800000x1_0 x4))
      (Host.gather gather_S50000x256_S800000x1_S800000x256_1_0_n_n_0_1_1256 h
        (broadcastInDim S800000x1 ![0] bcast_S800000_S800000x1_0
          (select (cmpi .slt x2 (broadcastInDim S800000 ![] bcast_S_S800000 (constantI S_ 32 0#32)))
            (addi x2 (broadcastInDim S800000 ![] bcast_S_S800000 (constantI S_ 32 50000#32))) x2))))

/-- The two branches' outputs joined column-wise, as the host spells it. -/
def join (u v : (⟨S50000x256, .f32⟩ : BufTy).Contents (Elt Ideal)) : (⟨S50000x512, .f32⟩ : BufTy).Contents (Elt Ideal) :=
  concatenate S50000x512 1 [⟨S50000x256, u⟩, ⟨S50000x256, v⟩] concatenates_S50000x256_S50000x256_S50000x512_d1

variable (m : (ℓ : Loc nD τ sig) → Buf (Elt Ideal) ℓ) (ρ : Dev nD → PrngReg)

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)
abbrev a13 (c : Dev nD) := m ((c : Thread nD τ).loc main_arg13)
abbrev a14 (c : Dev nD) := m ((c : Thread nD τ).loc main_arg14)
abbrev a15 (c : Dev nD) := m ((c : Thread nD τ).loc main_arg15)
abbrev a16 (c : Dev nD) := m ((c : Thread nD τ).loc main_arg16)
abbrev a17 (c : Dev nD) := m ((c : Thread nD τ).loc main_arg17)
abbrev a18 (c : Dev nD) := m ((c : Thread nD τ).loc main_arg18)

/-! ### Branch ba -/

/-- After the first region: the product x · W₁. -/
theorem ba_prod (c : Dev nD) : W1 m ρ c (Proc.devRef .tc main_v0) = mm (a0 m c) (a5 m c) := by
  refine (W1_arr m ρ c 2).trans ((Reg0.final (V0 m ρ) c).trans ?_)
  show mm (W0 m ρ c (Proc.devRef .tc main_arg0)) (W0 m ρ c (Proc.devRef .tc main_arg5)) = _
  rw [show W0 m ρ c (Proc.devRef .tc main_arg0) = (a0 m c) from rfl, show W0 m ρ c (Proc.devRef .tc main_arg5) = (a5 m c) from rfl]

/-- After the first stretch of host operations: the aggregation of the product, and the first bias as one row. -/
theorem ba_agg1 (c : Dev nD) : W2 m ρ c (Proc.devRef .tc main_v13) = agg (a2 m c) (a3 m c) (a4 m c) (mm (a0 m c) (a5 m c)) := by
  show StableHlo.after hostOps1 (W1 m ρ c) (Proc.devRef .tc main_v13) = _
  after_results_simp
  rw [Keep.arg2_at1 m ρ c, Keep.arg3_at1 m ρ c, Keep.arg4_at1 m ρ c, ba_prod m ρ c]
  rfl

theorem ba_bias1 (c : Dev nD) : W2 m ρ c (Proc.devRef .tc main_v14) = shapeCast S1x256 (a6 m c) shapeCasts_S256_S1x256 := by
  show StableHlo.after hostOps1 (W1 m ρ c) (Proc.devRef .tc main_v14) = _
  after_results
  rw [Keep.arg6_at1 m ρ c]
  rfl

/-- After the second region: relu (A (x · W₁) + b₁) · W₂. -/
theorem ba_hidden (c : Dev nD) : W3 m ρ c (Proc.devRef .tc main_v15) = (hidden (agg (a2 m c) (a3 m c) (a4 m c)) (a0 m c) (a5 m c) (a6 m c) (a7 m c)) := by
  refine (W3_arr m ρ c 3).trans ((Reg1.final (V2 m ρ) c).trans ?_)
  show mm (relu (addRow1 (W2 m ρ c (Proc.devRef .tc main_v13)) (W2 m ρ c (Proc.devRef .tc main_v14)))) (W2 m ρ c (Proc.devRef .tc main_arg7)) = _
  rw [ba_agg1 m ρ c, ba_bias1 m ρ c, Keep.arg7_at2 m ρ c,
    addRow1_eq_addRow _ _ (a6 m c) (fun k => shapeCast_a_1a_apply _ _ 0 k)]
  rfl

/-- After the second stretch of host operations: the aggregation of the hidden layer's product, and two biases as rows. -/
theorem ba_agg2 (c : Dev nD) : W4 m ρ c (Proc.devRef .tc main_v28) = agg (a2 m c) (a3 m c) (a4 m c) (hidden (agg (a2 m c) (a3 m c) (a4 m c)) (a0 m c) (a5 m c) (a6 m c) (a7 m c)) := by
  show StableHlo.after hostOps2 (W3 m ρ c) (Proc.devRef .tc main_v28) = _
  after_results_simp
  rw [Keep.arg2_at3 m ρ c, Keep.arg3_at3 m ρ c, Keep.arg4_at3 m ρ c, ba_hidden m ρ c]
  rfl

theorem ba_bias2 (c : Dev nD) : W4 m ρ c (Proc.devRef .tc main_v29) = shapeCast S1x256 (a8 m c) shapeCasts_S256_S1x256 := by
  show StableHlo.after hostOps2 (W3 m ρ c) (Proc.devRef .tc main_v29) = _
  after_results
  rw [Keep.arg8_at3 m ρ c]
  rfl

theorem ba_bias3 (c : Dev nD) : W4 m ρ c (Proc.devRef .tc main_v30) = shapeCast S1x256 (a10 m c) shapeCasts_S256_S1x256 := by
  show StableHlo.after hostOps2 (W3 m ρ c) (Proc.devRef .tc main_v30) = _
  after_results
  rw [Keep.arg10_at3 m ρ c]
  rfl

/-- After the third region: the branch's output. -/
theorem ba_out (c : Dev nD) : W5 m ρ c (Proc.devRef .tc main_v31) = (branch (agg (a2 m c) (a3 m c) (a4 m c)) (a0 m c) (a5 m c) (a6 m c) (a7 m c) (a8 m c) (a9 m c) (a10 m c)) := by
  refine (W5_arr m ρ c 4).trans ((Reg2.final (V4 m ρ) c).trans ?_)
  show lsm (addRow1 (mm (addRow1 (W4 m ρ c (Proc.devRef .tc main_v28)) (W4 m ρ c (Proc.devRef .tc main_v29))) (W4 m ρ c (Proc.devRef .tc main_arg9))) (W4 m ρ c (Proc.devRef .tc main_v30))) = _
  rw [ba_agg2 m ρ c, ba_bias2 m ρ c, ba_bias3 m ρ c, Keep.arg9_at4 m ρ c,
    addRow1_eq_addRow _ _ (a8 m c) (fun k => shapeCast_a_1a_apply _ _ 0 k),
    addRow1_eq_addRow _ _ (a10 m c) (fun k => shapeCast_a_1a_apply _ _ 0 k)]
  rfl

/-! ### Branch bb -/

/-- After the first region: the product x · W₁. -/
theorem bb_prod (c : Dev nD) : W6 m ρ c (Proc.devRef .tc main_v32) = mm (a1 m c) (a11 m c) := by
  refine (W6_arr m ρ c 2).trans ((Reg3.final (V5 m ρ) c).trans ?_)
  show mm (W5 m ρ c (Proc.devRef .tc main_arg1)) (W5 m ρ c (Proc.devRef .tc main_arg11)) = _
  rw [Keep.arg1_at5 m ρ c, Keep.arg11_at5 m ρ c]

/-- After the first stretch of host operations: the aggregation of the product, and the first bias as one row. -/
theorem bb_agg1 (c : Dev nD) : W7 m ρ c (Proc.devRef .tc main_v45) = agg (a2 m c) (a3 m c) (a4 m c) (mm (a1 m c) (a11 m c)) := by
  show StableHlo.after hostOps4 (W6 m ρ c) (Proc.devRef .tc main_v45) = _
  after_results_simp
  rw [Keep.arg2_at6 m ρ c, Keep.arg3_at6 m ρ c, Keep.arg4_at6 m ρ c, bb_prod m ρ c]
  rfl

theorem bb_bias1 (c : Dev nD) : W7 m ρ c (Proc.devRef .tc main_v46) = shapeCast S1x256 (a12 m c) shapeCasts_S256_S1x256 := by
  show StableHlo.after hostOps4 (W6 m ρ c) (Proc.devRef .tc main_v46) = _
  after_results
  rw [Keep.arg12_at6 m ρ c]
  rfl

/-- After the second region: relu (A (x · W₁) + b₁) · W₂. -/
theorem bb_hidden (c : Dev nD) : W8 m ρ c (Proc.devRef .tc main_v47) = (hidden (agg (a2 m c) (a3 m c) (a4 m c)) (a1 m c) (a11 m c) (a12 m c) (a13 m c)) := by
  refine (W8_arr m ρ c 3).trans ((Reg4.final (V7 m ρ) c).trans ?_)
  show mm (relu (addRow1 (W7 m ρ c (Proc.devRef .tc main_v45)) (W7 m ρ c (Proc.devRef .tc main_v46)))) (W7 m ρ c (Proc.devRef .tc main_arg13)) = _
  rw [bb_agg1 m ρ c, bb_bias1 m ρ c, Keep.arg13_at7 m ρ c,
    addRow1_eq_addRow _ _ (a12 m c) (fun k => shapeCast_a_1a_apply _ _ 0 k)]
  rfl

/-- After the second stretch of host operations: the aggregation of the hidden layer's product, and two biases as rows. -/
theorem bb_agg2 (c : Dev nD) : W9 m ρ c (Proc.devRef .tc main_v60) = agg (a2 m c) (a3 m c) (a4 m c) (hidden (agg (a2 m c) (a3 m c) (a4 m c)) (a1 m c) (a11 m c) (a12 m c) (a13 m c)) := by
  show StableHlo.after hostOps5 (W8 m ρ c) (Proc.devRef .tc main_v60) = _
  after_results_simp
  rw [Keep.arg2_at8 m ρ c, Keep.arg3_at8 m ρ c, Keep.arg4_at8 m ρ c, bb_hidden m ρ c]
  rfl

theorem bb_bias2 (c : Dev nD) : W9 m ρ c (Proc.devRef .tc main_v61) = shapeCast S1x256 (a14 m c) shapeCasts_S256_S1x256 := by
  show StableHlo.after hostOps5 (W8 m ρ c) (Proc.devRef .tc main_v61) = _
  after_results
  rw [Keep.arg14_at8 m ρ c]
  rfl

theorem bb_bias3 (c : Dev nD) : W9 m ρ c (Proc.devRef .tc main_v62) = shapeCast S1x256 (a16 m c) shapeCasts_S256_S1x256 := by
  show StableHlo.after hostOps5 (W8 m ρ c) (Proc.devRef .tc main_v62) = _
  after_results
  rw [Keep.arg16_at8 m ρ c]
  rfl

/-- After the third region: the branch's output. -/
theorem bb_out (c : Dev nD) : W10 m ρ c (Proc.devRef .tc main_v63) = (branch (agg (a2 m c) (a3 m c) (a4 m c)) (a1 m c) (a11 m c) (a12 m c) (a13 m c) (a14 m c) (a15 m c) (a16 m c)) := by
  refine (W10_arr m ρ c 4).trans ((Reg5.final (V9 m ρ) c).trans ?_)
  show lsm (addRow1 (mm (addRow1 (W9 m ρ c (Proc.devRef .tc main_v60)) (W9 m ρ c (Proc.devRef .tc main_v61))) (W9 m ρ c (Proc.devRef .tc main_arg15))) (W9 m ρ c (Proc.devRef .tc main_v62))) = _
  rw [bb_agg2 m ρ c, bb_bias2 m ρ c, bb_bias3 m ρ c, Keep.arg15_at9 m ρ c,
    addRow1_eq_addRow _ _ (a14 m c) (fun k => shapeCast_a_1a_apply _ _ 0 k),
    addRow1_eq_addRow _ _ (a16 m c) (fun k => shapeCast_a_1a_apply _ _ 0 k)]
  rfl

/-! ### The join and the last region -/

theorem joined (c : Dev nD) : W11 m ρ c (Proc.devRef .tc main_v64)
    = join (branch (agg (a2 m c) (a3 m c) (a4 m c)) (a0 m c) (a5 m c) (a6 m c) (a7 m c) (a8 m c) (a9 m c) (a10 m c)) (branch (agg (a2 m c) (a3 m c) (a4 m c)) (a1 m c) (a11 m c) (a12 m c) (a13 m c) (a14 m c) (a15 m c) (a16 m c)) := by
  show StableHlo.after hostOps6 (W10 m ρ c) (Proc.devRef .tc main_v64) = _
  after_results
  rw [Keep.v31_at10 m ρ c, ba_out m ρ c, bb_out m ρ c]
  rfl

theorem bias_last (c : Dev nD) : W11 m ρ c (Proc.devRef .tc main_v65) = shapeCast S1x64 (a18 m c) shapeCasts_S64_S1x64 := by
  show StableHlo.after hostOps6 (W10 m ρ c) (Proc.devRef .tc main_v65) = _
  after_results
  rw [Keep.arg18_at10 m ρ c]
  rfl

/-- The result buffer at the end of the run. -/
theorem result (c : Dev nD) : W12 m ρ c (Proc.devRef .tc main_v66)
    = head join (branch (agg (a2 m c) (a3 m c) (a4 m c)) (a0 m c) (a5 m c) (a6 m c) (a7 m c) (a8 m c) (a9 m c) (a10 m c)) (branch (agg (a2 m c) (a3 m c) (a4 m c)) (a1 m c) (a11 m c) (a12 m c) (a13 m c) (a14 m c) (a15 m c) (a16 m c)) (a17 m c) (a18 m c) := by
  refine (W12_arr m ρ c 3).trans ((Reg6.final (V11 m ρ) c).trans ?_)
  show lsm (addRow1 (mm (W11 m ρ c (Proc.devRef .tc main_v64)) (W11 m ρ c (Proc.devRef .tc main_arg17))) (W11 m ρ c (Proc.devRef .tc main_v65))) = _
  rw [joined m ρ c, bias_last m ρ c, Keep.arg17_at11 m ρ c,
    addRow1_eq_addRow _ _ (a18 m c) (fun k => shapeCast_a_1a_apply _ _ 0 k)]
  rfl

end Cert.KernelIdeal.Fold

end
-- ==== Proof.LibRefOps.lean ====
/-
  The operations of the reference, as the host spells them, read as the whole-array functions of the specification.

  The reference multiplies by `dot_general`, adds a vector to every row by broadcasting it first to one row and then down
  the rows, takes relu as a maximum with a broadcast zero, and a row-wise log-softmax as: a row maximum by a reduction from
  −∞, taken once more against −∞, kept as a column and spread over the lanes; a subtraction; an exponential; a row sum by
  a reduction from zero, kept as a column; a logarithm, spread over the lanes; a last subtraction.
-/
import proofs.«134329_j2834678415610_1_alg».proof.Proof.LibRowBias
import proofs.«134329_j2834678415610_1_alg».proof.Proof.LibPlainDot
import Idealize.ShloMosaic.Lib.Pipeline.Value
import Idealize.ShloMosaic.Lib.IdealHost
import Idealize.ShloMosaic.PureOps.Ideal.Laws

noncomputable section

namespace Cert.RefOps

open Idealize.ShloMosaic Idealize.ShloMosaic.ValueIdx Cert.Spec

variable {n h K : ℕ}

/-- The host's plain matrix product is the matrix product. -/
theorem mm_ref (d : DotDims ⟨2, ![n, K]⟩ ⟨2, ![K, h]⟩ ⟨2, ![n, h]⟩) (hd : d = DotDims.plain n K h)
    (X : FVec Ideal ⟨2, ![n, K]⟩ .f32) (W : FVec Ideal ⟨2, ![K, h]⟩ .f32) :
    Host.dotGeneral d none X W = mm X W := by
  subst hd
  funext j
  exact PlainDot.dotGeneral_apply none .single X W j

/-- A vector broadcast to one row and then down the rows, added: the vector added to every row. -/
theorem addRow_ref (hh : h ≠ 1) (X : FVec Ideal ⟨2, ![n, h]⟩ .f32) (v : FVec Ideal ⟨1, ![h]⟩ .f32)
    (h1 : (⟨1, ![h]⟩ : Shape).BroadcastsInDim ⟨2, ![1, h]⟩ ![1])
    (h2 : (⟨2, ![1, h]⟩ : Shape).BroadcastsInDim ⟨2, ![n, h]⟩ ![0, 1]) :
    addf X (broadcastInDim ⟨2, ![n, h]⟩ ![0, 1] h2 (broadcastInDim ⟨2, ![1, h]⟩ ![1] h1 v)) = addRow X v := by
  funext j
  obtain ⟨r, c, rfl⟩ : ∃ (r : Fin n) (c : Fin h), j = ix2 r c := ⟨j 0, j 1, eq_ix2 j⟩
  show X (ix2 r c) + broadcastInDim ⟨2, ![n, h]⟩ ![0, 1] h2 (broadcastInDim ⟨2, ![1, h]⟩ ![1] h1 v) (ix2 r c) = X (ix2 r c) + v (ix1 c)
  rw [broadcastInDim_apply _ h2 _ (ix2 r c) (ix2 (0 : Fin 1) c) (fun ax => match ax with
      | ⟨0, _⟩ => by show 0 = if (1 : ℕ) = 1 then 0 else r.val; rw [if_pos rfl]
      | ⟨1, _⟩ => by show c.val = if h = 1 then 0 else c.val; rw [if_neg hh]),
    broadcastInDim_apply _ h1 v (ix2 (0 : Fin 1) c) (ix1 c) (fun ax => match ax with
      | ⟨0, _⟩ => by show c.val = if h = 1 then 0 else c.val; rw [if_neg hh])]

/-- The maximum with a broadcast zero is the relu. -/
theorem relu_ref {s : Shape} (X : FVec Ideal s .f32) (h0 : (⟨0, ![]⟩ : Shape).BroadcastsInDim s ![]) :
    maximumf X (broadcastInDim s ![] h0 (constant (F := Ideal) ⟨0, ![]⟩ .f32 0x00000000#32)) = relu X := by
  funext i
  show max (X i) (broadcastInDim s ![] h0 (constant (F := Ideal) ⟨0, ![]⟩ .f32 0x00000000#32) i) = max (X i) (Ideal.ofBits .f32 0x00000000#32)
  rw [broadcastInDim_scalar_apply]
  rfl

/-- The host's row maximum from −∞, at a row. -/
theorem rowMax_ref (Y : FVec Ideal ⟨2, ![n, h]⟩ .f32) (hr' : Shape.ReducesTo ⟨2, ![n, h]⟩ [(1 : Fin 2)] ⟨1, ![n]⟩)
    (hr : Shape.Reduces ⟨2, ![n, h]⟩ [(1 : Fin 2)] ⟨1, ![n]⟩) (hu : 0 < (⟨0, ![]⟩ : Shape).numel) (r : Fin n) :
    Host.reduce FloatOps.maximumf Y (constant (F := Ideal) ⟨0, ![]⟩ .f32 0xFF800000#32) hr' hu (ix1 r) = rowMax Y r := by
  refine (Host.reduce_eq_fold_single FloatOps.maximumf Y _ hr' hr hu (ix1 r)).trans ?_
  show (Finset.univ : Finset (Fin h)).fold max (Ideal.ofBits .f32 0xFF800000#32) (fun k => Y (hr.lift (ix1 r) k)) = _
  unfold rowMax
  refine congrArg (fun f => Finset.fold max (Ideal.ofBits .f32 0xFF800000#32) f (Finset.univ : Finset (Fin h))) (funext fun k => congrArg Y ?_)
  funext ax
  apply Fin.ext
  match ax with
  | ⟨0, _⟩ => rfl
  | ⟨1, _⟩ => rfl

/-- The host's row sum from zero, at a row. -/
theorem rowSum_ref (E : FVec Ideal ⟨2, ![n, h]⟩ .f32) (hr' : Shape.ReducesTo ⟨2, ![n, h]⟩ [(1 : Fin 2)] ⟨1, ![n]⟩)
    (hr : Shape.Reduces ⟨2, ![n, h]⟩ [(1 : Fin 2)] ⟨1, ![n]⟩) (hu : 0 < (⟨0, ![]⟩ : Shape).numel) (r : Fin n) :
    Host.reduceAdd E (constant (F := Ideal) ⟨0, ![]⟩ .f32 0x00000000#32) hr' hu (ix1 r) = ∑ k : Fin h, E (ix2 r k) := by
  rw [hostReduceAdd_apply, Ideal.hostReduceAdd_single hr' hr]
  show Ideal.ofBits .f32 0x00000000#32 + ∑ k : Fin h, E (hr.lift (ix1 r) k) = _
  rw [Ideal.ofBits_zero_f32, zero_add]
  refine Finset.sum_congr rfl fun k _ => congrArg E ?_
  funext ax
  apply Fin.ext
  match ax with
  | ⟨0, _⟩ => rfl
  | ⟨1, _⟩ => rfl

/-- A vector kept as a column and spread over the lanes reads, at (r, c), the vector at r. -/
theorem column_ref (hn : n ≠ 1) (v : FVec Ideal ⟨1, ![n]⟩ .f32)
    (h1 : (⟨1, ![n]⟩ : Shape).BroadcastsInDim ⟨2, ![n, 1]⟩ ![0])
    (h2 : (⟨2, ![n, 1]⟩ : Shape).BroadcastsInDim ⟨2, ![n, h]⟩ ![0, 1]) (r : Fin n) (c : Fin h) :
    broadcastInDim ⟨2, ![n, h]⟩ ![0, 1] h2 (broadcastInDim ⟨2, ![n, 1]⟩ ![0] h1 v) (ix2 r c) = v (ix1 r) := by
  rw [broadcastInDim_apply _ h2 _ (ix2 r c) (ix2 r (0 : Fin 1)) (fun ax => match ax with
      | ⟨0, _⟩ => by show r.val = if n = 1 then 0 else r.val; rw [if_neg hn]
      | ⟨1, _⟩ => by show 0 = if (1 : ℕ) = 1 then 0 else c.val; rw [if_pos rfl]),
    broadcastInDim_apply _ h1 v (ix2 r (0 : Fin 1)) (ix1 r) (fun ax => match ax with
      | ⟨0, _⟩ => by show r.val = if n = 1 then 0 else r.val; rw [if_neg hn])]

/-- The same with a logarithm taken of the column before it is spread. -/
theorem logColumn_ref (hn : n ≠ 1) (v : FVec Ideal ⟨1, ![n]⟩ .f32)
    (h1 : (⟨1, ![n]⟩ : Shape).BroadcastsInDim ⟨2, ![n, 1]⟩ ![0])
    (h2 : (⟨2, ![n, 1]⟩ : Shape).BroadcastsInDim ⟨2, ![n, h]⟩ ![0, 1]) (r : Fin n) (c : Fin h) :
    broadcastInDim ⟨2, ![n, h]⟩ ![0, 1] h2 (Host.log (broadcastInDim ⟨2, ![n, 1]⟩ ![0] h1 v)) (ix2 r c) = Ideal.log (v (ix1 r)) := by
  rw [broadcastInDim_apply _ h2 _ (ix2 r c) (ix2 r (0 : Fin 1)) (fun ax => match ax with
      | ⟨0, _⟩ => by show r.val = if n = 1 then 0 else r.val; rw [if_neg hn]
      | ⟨1, _⟩ => by show 0 = if (1 : ℕ) = 1 then 0 else c.val; rw [if_pos rfl])]
  show Ideal.log (broadcastInDim ⟨2, ![n, 1]⟩ ![0] h1 v (ix2 r (0 : Fin 1))) = _
  rw [broadcastInDim_apply _ h1 v (ix2 r (0 : Fin 1)) (ix1 r) (fun ax => match ax with
      | ⟨0, _⟩ => by show r.val = if n = 1 then 0 else r.val; rw [if_neg hn])]

/-- The reference's row-wise log-softmax. -/
theorem lsm_ref (hn : n ≠ 1) (Y : FVec Ideal ⟨2, ![n, h]⟩ .f32)
    (hr' : Shape.ReducesTo ⟨2, ![n, h]⟩ [(1 : Fin 2)] ⟨1, ![n]⟩) (hr : Shape.Reduces ⟨2, ![n, h]⟩ [(1 : Fin 2)] ⟨1, ![n]⟩)
    (hu : 0 < (⟨0, ![]⟩ : Shape).numel) (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, h]⟩ ![0, 1]) :
    subf (subf Y (broadcastInDim ⟨2, ![n, h]⟩ ![0, 1] h2 (broadcastInDim ⟨2, ![n, 1]⟩ ![0] h1
            (maximumf (broadcastInDim ⟨1, ![n]⟩ ![] h0 (constant (F := Ideal) ⟨0, ![]⟩ .f32 0xFF800000#32))
              (Host.reduce FloatOps.maximumf Y (constant (F := Ideal) ⟨0, ![]⟩ .f32 0xFF800000#32) hr' hu)))))
        (broadcastInDim ⟨2, ![n, h]⟩ ![0, 1] h2 (Host.log (broadcastInDim ⟨2, ![n, 1]⟩ ![0] h1
            (Host.reduceAdd (Host.exp (subf Y (broadcastInDim ⟨2, ![n, h]⟩ ![0, 1] h2 (broadcastInDim ⟨2, ![n, 1]⟩ ![0] h1
                (maximumf (broadcastInDim ⟨1, ![n]⟩ ![] h0 (constant (F := Ideal) ⟨0, ![]⟩ .f32 0xFF800000#32))
                  (Host.reduce FloatOps.maximumf Y (constant (F := Ideal) ⟨0, ![]⟩ .f32 0xFF800000#32) hr' hu))))))
              (constant (F := Ideal) ⟨0, ![]⟩ .f32 0x00000000#32) hr' hu))))
      = lsm Y := by
  refine lsm_of_parts Y _ _ (fun r k => ?_) (fun r c => ?_)
  · rw [column_ref hn _ h1 h2 r k]
    show max (broadcastInDim ⟨1, ![n]⟩ ![] h0 (constant (F := Ideal) ⟨0, ![]⟩ .f32 0xFF800000#32) (ix1 r)) (Host.reduce FloatOps.maximumf Y _ hr' hu (ix1 r)) = _
    rw [broadcastInDim_scalar_apply, rowMax_ref Y hr' hr hu r]
    exact max_init_rowMax Y r
  · rw [logColumn_ref hn _ h1 h2 r c, rowSum_ref _ hr' hr hu r]
    rfl

end Cert.RefOps

end
-- ==== Proof.LibTRefCast.lean ====
/-
  Contents of a tensor value moved to its buffer's own type and back.

  An operation of a called function reads and writes its buffers through typed references: what it computes is moved from the
  value's type to the buffer's own type when written (`toBuf`) and back when read (`ofBuf`), along the equation between the
  two types. Written and read back through one reference, contents are unchanged, whatever the reference: the two moves
  cancel. (For a literal reference the equation is the identity and each move alone is too, by `rfl` at that reference.)
-/
import Idealize.ShloMosaic.Lib.StableHlo

namespace Idealize.ShloMosaic.StableHlo.TRef

variable {sig : RefSig} {Val : EltTy → Type} {T : BufTy}

/-- Contents moved to a buffer's own type and back are the contents. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.LibAfterAppend.lean ====
/-
  Host operations run one after the other, read in stages.

  `StableHlo.after ops V` is the contents of the buffers after the list `ops` of host operations has run from the contents
  `V`: each operation's result folded in, in order. Over a list cut in two it composes: the contents after `l₁ ++ l₂` are
  the contents after `l₂`, run from the contents after `l₁`. A long straight-line host program can therefore be read stage by
  stage — cut at the buffers a later stage reads (for a literal list, `ops = ops.take n ++ ops.drop n` holds by `rfl`), each
  stage read on its own from ANY contents before it, and the readings composed — instead of as one composed term of the whole
  program, which for a program of a hundred operations with reductions over large arrays is too large to compare in one step.
-/
import Idealize.ShloMosaic.Lib.StableHlo.Run

namespace Idealize.ShloMosaic.StableHlo

variable {τ : Topo} {sig : RefSig} {Val : EltTy → Type}

/-- The contents after two lists of host operations run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A list of host operations cut at position `n`: the contents after the whole list are those after its tail, run from the
    contents after its first `n` operations. -/
theorem after_take_drop (n : Nat) (l : List (HloOp τ sig Val)) (V : Valuation τ sig Val) :
    after l V = after (l.drop n) (after (l.take n) V) := by
  rw [← after_append, List.take_append_drop]

end Idealize.ShloMosaic.StableHlo
-- ==== Proof.RefRun.lean ====
/-
  The reference's run, read stage by stage, with its result as the specification's network of the arguments.

  The reference is a straight line of 144 host operations. Its list is cut into seven stretches at the buffers a later
  stretch reads: per branch, the first layer up to the relu, the second layer up to the input of the log-softmax, and the
  log-softmax; then the join, the last layer and the last log-softmax. Each stretch is read on its own, from any contents
  before it, as the specification's function of the buffers it reads, with the aggregation over the edges and the column
  join kept as the functions `agg` and `join`; no stretch writes a buffer an earlier one wrote or an argument, so the readings
  compose.
-/
import proofs.«134329_j2834678415610_1_alg».proof.Proof.RunP
import proofs.«134329_j2834678415610_1_alg».proof.Proof.LibRefOps
import proofs.«134329_j2834678415610_1_alg».proof.Proof.LibTRefCast
import proofs.«134329_j2834678415610_1_alg».proof.Proof.Spec
import proofs.«134329_j2834678415610_1_alg».proof.Proof.LibAfterAppend

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo Cert.Spec Cert.RefOps

/-- The aggregation over the graph's edges as the host spells it: the source indices wrapped once if negative, the rows
    gathered at them, every gathered row scaled by its edge's weight, and the scaled rows scatter-added at the
    destination indices into a zero array. -/
def agg (x2 x3 : (⟨S800000, .i32⟩ : BufTy).Contents (Elt Ideal)) (x4 : (⟨S800000, .f32⟩ : BufTy).Contents (Elt Ideal))
    (h : (⟨S50000x256, .f32⟩ : BufTy).Contents (Elt Ideal)) : (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 x3)
    (mulf (broadcastInDim S800000x256 ![0, 1] bcast_S800000x1_S800000x256_0_1 (broadcastInDim S800000x1 ![0] bcast_S800000_S800000x1_0 x4))
      (Host.gather gather_S50000x256_S800000x1_S800000x256_1_0_n_n_0_1_1256 h
        (broadcastInDim S800000x1 ![0] bcast_S800000_S800000x1_0
          (select (cmpi .slt x2 (broadcastInDim S800000 ![] bcast_S_S800000 (constantI S_ 32 0#32)))
            (addi x2 (broadcastInDim S800000 ![] bcast_S_S800000 (constantI S_ 32 50000#32))) x2))))

/-- The two branches' outputs joined column-wise, as the host spells it. -/
def join (u v : (⟨S50000x256, .f32⟩ : BufTy).Contents (Elt Ideal)) : (⟨S50000x512, .f32⟩ : BufTy).Contents (Elt Ideal) :=
  concatenate S50000x512 1 [⟨S50000x256, u⟩, ⟨S50000x256, v⟩] concatenates_S50000x256_S50000x256_S50000x512_d1

/-- The reference's operations at the extended reals. -/
abbrev opsI : List (HloOp τ sig (Elt Ideal)) := ops (F := Ideal)

abbrev G1 : List (HloOp τ sig (Elt Ideal)) := opsI.take 23
abbrev G2 : List (HloOp τ sig (Elt Ideal)) := (opsI.drop 23).take 24
abbrev G3 : List (HloOp τ sig (Elt Ideal)) := (opsI.drop 47).take 15
abbrev G4 : List (HloOp τ sig (Elt Ideal)) := (opsI.drop 62).take 23
abbrev G5 : List (HloOp τ sig (Elt Ideal)) := (opsI.drop 85).take 24
abbrev G6 : List (HloOp τ sig (Elt Ideal)) := (opsI.drop 109).take 15
abbrev G7 : List (HloOp τ sig (Elt Ideal)) := opsI.drop 124

set_option maxRecDepth 65536 in
theorem ops_cut : opsI = G1 ++ (G2 ++ (G3 ++ (G4 ++ (G5 ++ (G6 ++ G7))))) := rfl

theorem after_cut (W : Valuation τ sig (Elt Ideal)) :
    after opsI W = after G7 (after G6 (after G5 (after G4 (after G3 (after G2 (after G1 W)))))) := by
  rw [ops_cut]; simp only [after_append]

/-- A stretch as the literal list of its operations. -/
macro "seg_lit" : tactic => `(tactic|
  dsimp only [G1, G2, G3, G4, G5, G6, G7, opsI, ops, List.drop, List.take])

/-! ### Contents at a buffer's type and at its tensor value's type -/

/-! A buffer's own type is the type of the tensor value it holds, so the move between the two is the identity. -/
theorem ofBuf_v16 (h1 h2 h3) (v : main_v16.ty.Contents (Elt Ideal)) : (TRef.of (T := ⟨S50000x256, .f32⟩) main_v16 h1 h2 h3).ofBuf v = v := rfl
theorem toBuf_v16 (h1 h2 h3) (v : (⟨S50000x256, .f32⟩ : BufTy).Contents (Elt Ideal)) : (TRef.of (T := ⟨S50000x256, .f32⟩) main_v16 h1 h2 h3).toBuf v = v := rfl
theorem ofBuf_v17 (h1 h2 h3) (v : main_v17.ty.Contents (Elt Ideal)) : (TRef.of (T := ⟨S50000x256, .f32⟩) main_v17 h1 h2 h3).ofBuf v = v := rfl
theorem toBuf_v17 (h1 h2 h3) (v : (⟨S50000x256, .f32⟩ : BufTy).Contents (Elt Ideal)) : (TRef.of (T := ⟨S50000x256, .f32⟩) main_v17 h1 h2 h3).toBuf v = v := rfl
theorem ofBuf_v38 (h1 h2 h3) (v : main_v38.ty.Contents (Elt Ideal)) : (TRef.of (T := ⟨S50000x256, .f32⟩) main_v38 h1 h2 h3).ofBuf v = v := rfl
theorem toBuf_v38 (h1 h2 h3) (v : (⟨S50000x256, .f32⟩ : BufTy).Contents (Elt Ideal)) : (TRef.of (T := ⟨S50000x256, .f32⟩) main_v38 h1 h2 h3).toBuf v = v := rfl
theorem ofBuf_v39 (h1 h2 h3) (v : main_v39.ty.Contents (Elt Ideal)) : (TRef.of (T := ⟨S50000x256, .f32⟩) main_v39 h1 h2 h3).ofBuf v = v := rfl
theorem toBuf_v39 (h1 h2 h3) (v : (⟨S50000x256, .f32⟩ : BufTy).Contents (Elt Ideal)) : (TRef.of (T := ⟨S50000x256, .f32⟩) main_v39 h1 h2 h3).toBuf v = v := rfl
theorem ofBuf_v56 (h1 h2 h3) (v : main_v56.ty.Contents (Elt Ideal)) : (TRef.of (T := ⟨S50000x256, .f32⟩) main_v56 h1 h2 h3).ofBuf v = v := rfl
theorem toBuf_v56 (h1 h2 h3) (v : (⟨S50000x256, .f32⟩ : BufTy).Contents (Elt Ideal)) : (TRef.of (T := ⟨S50000x256, .f32⟩) main_v56 h1 h2 h3).toBuf v = v := rfl
theorem ofBuf_v57 (h1 h2 h3) (v : main_v57.ty.Contents (Elt Ideal)) : (TRef.of (T := ⟨S50000x256, .f32⟩) main_v57 h1 h2 h3).ofBuf v = v := rfl
theorem toBuf_v57 (h1 h2 h3) (v : (⟨S50000x256, .f32⟩ : BufTy).Contents (Elt Ideal)) : (TRef.of (T := ⟨S50000x256, .f32⟩) main_v57 h1 h2 h3).toBuf v = v := rfl
theorem ofBuf_v78 (h1 h2 h3) (v : main_v78.ty.Contents (Elt Ideal)) : (TRef.of (T := ⟨S50000x256, .f32⟩) main_v78 h1 h2 h3).ofBuf v = v := rfl
theorem toBuf_v78 (h1 h2 h3) (v : (⟨S50000x256, .f32⟩ : BufTy).Contents (Elt Ideal)) : (TRef.of (T := ⟨S50000x256, .f32⟩) main_v78 h1 h2 h3).toBuf v = v := rfl
theorem ofBuf_v79 (h1 h2 h3) (v : main_v79.ty.Contents (Elt Ideal)) : (TRef.of (T := ⟨S50000x256, .f32⟩) main_v79 h1 h2 h3).ofBuf v = v := rfl
theorem toBuf_v79 (h1 h2 h3) (v : (⟨S50000x256, .f32⟩ : BufTy).Contents (Elt Ideal)) : (TRef.of (T := ⟨S50000x256, .f32⟩) main_v79 h1 h2 h3).toBuf v = v := rfl
theorem ofBuf_v84 (h1 h2 h3) (v : main_v84.ty.Contents (Elt Ideal)) : (TRef.of (T := ⟨S50000x64, .f32⟩) main_v84 h1 h2 h3).ofBuf v = v := rfl
theorem toBuf_v84 (h1 h2 h3) (v : (⟨S50000x64, .f32⟩ : BufTy).Contents (Elt Ideal)) : (TRef.of (T := ⟨S50000x64, .f32⟩) main_v84 h1 h2 h3).toBuf v = v := rfl
theorem ofBuf_v85 (h1 h2 h3) (v : main_v85.ty.Contents (Elt Ideal)) : (TRef.of (T := ⟨S50000x64, .f32⟩) main_v85 h1 h2 h3).ofBuf v = v := rfl
theorem toBuf_v85 (h1 h2 h3) (v : (⟨S50000x64, .f32⟩ : BufTy).Contents (Elt Ideal)) : (TRef.of (T := ⟨S50000x64, .f32⟩) main_v85 h1 h2 h3).toBuf v = v := rfl

/-! ### What each stretch leaves alone -/

theorem keep1_arg1 (V : Valuation τ sig (Elt Ideal)) : after G1 V (Proc.devRef .tc main_arg1) = V (Proc.devRef .tc main_arg1) := by
  seg_lit; after_results_simp
theorem keep1_arg2 (V : Valuation τ sig (Elt Ideal)) : after G1 V (Proc.devRef .tc main_arg2) = V (Proc.devRef .tc main_arg2) := by
  seg_lit; after_results_simp
theorem keep1_arg3 (V : Valuation τ sig (Elt Ideal)) : after G1 V (Proc.devRef .tc main_arg3) = V (Proc.devRef .tc main_arg3) := by
  seg_lit; after_results_simp
theorem keep1_arg4 (V : Valuation τ sig (Elt Ideal)) : after G1 V (Proc.devRef .tc main_arg4) = V (Proc.devRef .tc main_arg4) := by
  seg_lit; after_results_simp
theorem keep1_arg7 (V : Valuation τ sig (Elt Ideal)) : after G1 V (Proc.devRef .tc main_arg7) = V (Proc.devRef .tc main_arg7) := by
  seg_lit; after_results_simp
theorem keep1_arg8 (V : Valuation τ sig (Elt Ideal)) : after G1 V (Proc.devRef .tc main_arg8) = V (Proc.devRef .tc main_arg8) := by
  seg_lit; after_results_simp
theorem keep1_arg9 (V : Valuation τ sig (Elt Ideal)) : after G1 V (Proc.devRef .tc main_arg9) = V (Proc.devRef .tc main_arg9) := by
  seg_lit; after_results_simp
theorem keep1_arg10 (V : Valuation τ sig (Elt Ideal)) : after G1 V (Proc.devRef .tc main_arg10) = V (Proc.devRef .tc main_arg10) := by
  seg_lit; after_results_simp
theorem keep1_arg11 (V : Valuation τ sig (Elt Ideal)) : after G1 V (Proc.devRef .tc main_arg11) = V (Proc.devRef .tc main_arg11) := by
  seg_lit; after_results_simp
theorem keep1_arg12 (V : Valuation τ sig (Elt Ideal)) : after G1 V (Proc.devRef .tc main_arg12) = V (Proc.devRef .tc main_arg12) := by
  seg_lit; after_results_simp
theorem keep1_arg13 (V : Valuation τ sig (Elt Ideal)) : after G1 V (Proc.devRef .tc main_arg13) = V (Proc.devRef .tc main_arg13) := by
  seg_lit; after_results_simp
theorem keep1_arg14 (V : Valuation τ sig (Elt Ideal)) : after G1 V (Proc.devRef .tc main_arg14) = V (Proc.devRef .tc main_arg14) := by
  seg_lit; after_results_simp
theorem keep1_arg15 (V : Valuation τ sig (Elt Ideal)) : after G1 V (Proc.devRef .tc main_arg15) = V (Proc.devRef .tc main_arg15) := by
  seg_lit; after_results_simp
theorem keep1_arg16 (V : Valuation τ sig (Elt Ideal)) : after G1 V (Proc.devRef .tc main_arg16) = V (Proc.devRef .tc main_arg16) := by
  seg_lit; after_results_simp
theorem keep1_arg17 (V : Valuation τ sig (Elt Ideal)) : after G1 V (Proc.devRef .tc main_arg17) = V (Proc.devRef .tc main_arg17) := by
  seg_lit; after_results_simp
theorem keep1_arg18 (V : Valuation τ sig (Elt Ideal)) : after G1 V (Proc.devRef .tc main_arg18) = V (Proc.devRef .tc main_arg18) := by
  seg_lit; after_results_simp
theorem keep2_arg1 (V : Valuation τ sig (Elt Ideal)) : after G2 V (Proc.devRef .tc main_arg1) = V (Proc.devRef .tc main_arg1) := by
  seg_lit; after_results_simp
theorem keep2_arg2 (V : Valuation τ sig (Elt Ideal)) : after G2 V (Proc.devRef .tc main_arg2) = V (Proc.devRef .tc main_arg2) := by
  seg_lit; after_results_simp
theorem keep2_arg3 (V : Valuation τ sig (Elt Ideal)) : after G2 V (Proc.devRef .tc main_arg3) = V (Proc.devRef .tc main_arg3) := by
  seg_lit; after_results_simp
theorem keep2_arg4 (V : Valuation τ sig (Elt Ideal)) : after G2 V (Proc.devRef .tc main_arg4) = V (Proc.devRef .tc main_arg4) := by
  seg_lit; after_results_simp
theorem keep2_arg11 (V : Valuation τ sig (Elt Ideal)) : after G2 V (Proc.devRef .tc main_arg11) = V (Proc.devRef .tc main_arg11) := by
  seg_lit; after_results_simp
theorem keep2_arg12 (V : Valuation τ sig (Elt Ideal)) : after G2 V (Proc.devRef .tc main_arg12) = V (Proc.devRef .tc main_arg12) := by
  seg_lit; after_results_simp
theorem keep2_arg13 (V : Valuation τ sig (Elt Ideal)) : after G2 V (Proc.devRef .tc main_arg13) = V (Proc.devRef .tc main_arg13) := by
  seg_lit; after_results_simp
theorem keep2_arg14 (V : Valuation τ sig (Elt Ideal)) : after G2 V (Proc.devRef .tc main_arg14) = V (Proc.devRef .tc main_arg14) := by
  seg_lit; after_results_simp
theorem keep2_arg15 (V : Valuation τ sig (Elt Ideal)) : after G2 V (Proc.devRef .tc main_arg15) = V (Proc.devRef .tc main_arg15) := by
  seg_lit; after_results_simp
theorem keep2_arg16 (V : Valuation τ sig (Elt Ideal)) : after G2 V (Proc.devRef .tc main_arg16) = V (Proc.devRef .tc main_arg16) := by
  seg_lit; after_results_simp
theorem keep2_arg17 (V : Valuation τ sig (Elt Ideal)) : after G2 V (Proc.devRef .tc main_arg17) = V (Proc.devRef .tc main_arg17) := by
  seg_lit; after_results_simp
theorem keep2_arg18 (V : Valuation τ sig (Elt Ideal)) : after G2 V (Proc.devRef .tc main_arg18) = V (Proc.devRef .tc main_arg18) := by
  seg_lit; after_results_simp
theorem keep3_arg1 (V : Valuation τ sig (Elt Ideal)) : after G3 V (Proc.devRef .tc main_arg1) = V (Proc.devRef .tc main_arg1) := by
  seg_lit; after_results_simp
theorem keep3_arg2 (V : Valuation τ sig (Elt Ideal)) : after G3 V (Proc.devRef .tc main_arg2) = V (Proc.devRef .tc main_arg2) := by
  seg_lit; after_results_simp
theorem keep3_arg3 (V : Valuation τ sig (Elt Ideal)) : after G3 V (Proc.devRef .tc main_arg3) = V (Proc.devRef .tc main_arg3) := by
  seg_lit; after_results_simp
theorem keep3_arg4 (V : Valuation τ sig (Elt Ideal)) : after G3 V (Proc.devRef .tc main_arg4) = V (Proc.devRef .tc main_arg4) := by
  seg_lit; after_results_simp
theorem keep3_arg11 (V : Valuation τ sig (Elt Ideal)) : after G3 V (Proc.devRef .tc main_arg11) = V (Proc.devRef .tc main_arg11) := by
  seg_lit; after_results_simp
theorem keep3_arg12 (V : Valuation τ sig (Elt Ideal)) : after G3 V (Proc.devRef .tc main_arg12) = V (Proc.devRef .tc main_arg12) := by
  seg_lit; after_results_simp
theorem keep3_arg13 (V : Valuation τ sig (Elt Ideal)) : after G3 V (Proc.devRef .tc main_arg13) = V (Proc.devRef .tc main_arg13) := by
  seg_lit; after_results_simp
theorem keep3_arg14 (V : Valuation τ sig (Elt Ideal)) : after G3 V (Proc.devRef .tc main_arg14) = V (Proc.devRef .tc main_arg14) := by
  seg_lit; after_results_simp
theorem keep3_arg15 (V : Valuation τ sig (Elt Ideal)) : after G3 V (Proc.devRef .tc main_arg15) = V (Proc.devRef .tc main_arg15) := by
  seg_lit; after_results_simp
theorem keep3_arg16 (V : Valuation τ sig (Elt Ideal)) : after G3 V (Proc.devRef .tc main_arg16) = V (Proc.devRef .tc main_arg16) := by
  seg_lit; after_results_simp
theorem keep3_arg17 (V : Valuation τ sig (Elt Ideal)) : after G3 V (Proc.devRef .tc main_arg17) = V (Proc.devRef .tc main_arg17) := by
  seg_lit; after_results_simp
theorem keep3_arg18 (V : Valuation τ sig (Elt Ideal)) : after G3 V (Proc.devRef .tc main_arg18) = V (Proc.devRef .tc main_arg18) := by
  seg_lit; after_results_simp
theorem keep4_arg2 (V : Valuation τ sig (Elt Ideal)) : after G4 V (Proc.devRef .tc main_arg2) = V (Proc.devRef .tc main_arg2) := by
  seg_lit; after_results_simp
theorem keep4_arg3 (V : Valuation τ sig (Elt Ideal)) : after G4 V (Proc.devRef .tc main_arg3) = V (Proc.devRef .tc main_arg3) := by
  seg_lit; after_results_simp
theorem keep4_arg4 (V : Valuation τ sig (Elt Ideal)) : after G4 V (Proc.devRef .tc main_arg4) = V (Proc.devRef .tc main_arg4) := by
  seg_lit; after_results_simp
theorem keep4_arg13 (V : Valuation τ sig (Elt Ideal)) : after G4 V (Proc.devRef .tc main_arg13) = V (Proc.devRef .tc main_arg13) := by
  seg_lit; after_results_simp
theorem keep4_arg14 (V : Valuation τ sig (Elt Ideal)) : after G4 V (Proc.devRef .tc main_arg14) = V (Proc.devRef .tc main_arg14) := by
  seg_lit; after_results_simp
theorem keep4_arg15 (V : Valuation τ sig (Elt Ideal)) : after G4 V (Proc.devRef .tc main_arg15) = V (Proc.devRef .tc main_arg15) := by
  seg_lit; after_results_simp
theorem keep4_arg16 (V : Valuation τ sig (Elt Ideal)) : after G4 V (Proc.devRef .tc main_arg16) = V (Proc.devRef .tc main_arg16) := by
  seg_lit; after_results_simp
theorem keep4_arg17 (V : Valuation τ sig (Elt Ideal)) : after G4 V (Proc.devRef .tc main_arg17) = V (Proc.devRef .tc main_arg17) := by
  seg_lit; after_results_simp
theorem keep4_arg18 (V : Valuation τ sig (Elt Ideal)) : after G4 V (Proc.devRef .tc main_arg18) = V (Proc.devRef .tc main_arg18) := by
  seg_lit; after_results_simp
theorem keep4_v39 (V : Valuation τ sig (Elt Ideal)) : after G4 V (Proc.devRef .tc main_v39) = V (Proc.devRef .tc main_v39) := by
  seg_lit; after_results_simp
theorem keep5_arg17 (V : Valuation τ sig (Elt Ideal)) : after G5 V (Proc.devRef .tc main_arg17) = V (Proc.devRef .tc main_arg17) := by
  seg_lit; after_results_simp
theorem keep5_arg18 (V : Valuation τ sig (Elt Ideal)) : after G5 V (Proc.devRef .tc main_arg18) = V (Proc.devRef .tc main_arg18) := by
  seg_lit; after_results_simp
theorem keep5_v39 (V : Valuation τ sig (Elt Ideal)) : after G5 V (Proc.devRef .tc main_v39) = V (Proc.devRef .tc main_v39) := by
  seg_lit; after_results_simp
theorem keep6_arg17 (V : Valuation τ sig (Elt Ideal)) : after G6 V (Proc.devRef .tc main_arg17) = V (Proc.devRef .tc main_arg17) := by
  seg_lit; after_results_simp
theorem keep6_arg18 (V : Valuation τ sig (Elt Ideal)) : after G6 V (Proc.devRef .tc main_arg18) = V (Proc.devRef .tc main_arg18) := by
  seg_lit; after_results_simp
theorem keep6_v39 (V : Valuation τ sig (Elt Ideal)) : after G6 V (Proc.devRef .tc main_v39) = V (Proc.devRef .tc main_v39) := by
  seg_lit; after_results_simp

/-! ### What each stretch computes -/

/-- Branch a, first stage: relu (A (x · W₁) + b₁). -/
theorem S1 (V : Valuation τ sig (Elt Ideal)) : after G1 V (Proc.devRef .tc main_v17)
    = relu (addRow (agg (V (Proc.devRef .tc main_arg2)) (V (Proc.devRef .tc main_arg3)) (V (Proc.devRef .tc main_arg4)) (mm (V (Proc.devRef .tc main_arg0)) (V (Proc.devRef .tc main_arg5)))) (V (Proc.devRef .tc main_arg6))) := by
  seg_lit; after_results_simp
  try simp only [TRef.ofBuf_toBuf, ofBuf_v16, toBuf_v16, ofBuf_v17, toBuf_v17, ofBuf_v38, toBuf_v38, ofBuf_v39, toBuf_v39, ofBuf_v56, toBuf_v56, ofBuf_v57, toBuf_v57, ofBuf_v78, toBuf_v78, ofBuf_v79, toBuf_v79, ofBuf_v84, toBuf_v84, ofBuf_v85, toBuf_v85]
  exact (relu_ref _ _).trans (congrArg relu ((addRow_ref (by decide) _ _ _ _).trans
    (congrArg (fun M => addRow M (V (Proc.devRef .tc main_arg6))) (congrArg (agg (V (Proc.devRef .tc main_arg2)) (V (Proc.devRef .tc main_arg3)) (V (Proc.devRef .tc main_arg4))) (mm_ref _ rfl _ _)))))

/-- Branch a, second stage: (A (h₁ · W₂) + b₂) · L + ℓ. -/
theorem S2 (V : Valuation τ sig (Elt Ideal)) : after G2 V (Proc.devRef .tc main_v38)
    = addRow (mm (addRow (agg (V (Proc.devRef .tc main_arg2)) (V (Proc.devRef .tc main_arg3)) (V (Proc.devRef .tc main_arg4)) (mm (V (Proc.devRef .tc main_v17)) (V (Proc.devRef .tc main_arg7)))) (V (Proc.devRef .tc main_arg8))) (V (Proc.devRef .tc main_arg9))) (V (Proc.devRef .tc main_arg10)) := by
  seg_lit; after_results_simp
  try simp only [TRef.ofBuf_toBuf, ofBuf_v16, toBuf_v16, ofBuf_v17, toBuf_v17, ofBuf_v38, toBuf_v38, ofBuf_v39, toBuf_v39, ofBuf_v56, toBuf_v56, ofBuf_v57, toBuf_v57, ofBuf_v78, toBuf_v78, ofBuf_v79, toBuf_v79, ofBuf_v84, toBuf_v84, ofBuf_v85, toBuf_v85]
  exact (addRow_ref (by decide) _ _ _ _).trans (congrArg (fun M => addRow M (V (Proc.devRef .tc main_arg10))) ((mm_ref _ rfl _ _).trans
    (congrArg (fun M => mm M (V (Proc.devRef .tc main_arg9))) ((addRow_ref (by decide) _ _ _ _).trans
      (congrArg (fun M => addRow M (V (Proc.devRef .tc main_arg8))) (congrArg (agg (V (Proc.devRef .tc main_arg2)) (V (Proc.devRef .tc main_arg3)) (V (Proc.devRef .tc main_arg4))) (mm_ref _ rfl _ _)))))))

/-- Branch a, third stage: the row-wise log-softmax. -/
theorem S3 (V : Valuation τ sig (Elt Ideal)) : after G3 V (Proc.devRef .tc main_v39) = lsm (V (Proc.devRef .tc main_v38)) := by
  seg_lit; after_results_simp
  try simp only [TRef.ofBuf_toBuf, ofBuf_v16, toBuf_v16, ofBuf_v17, toBuf_v17, ofBuf_v38, toBuf_v38, ofBuf_v39, toBuf_v39, ofBuf_v56, toBuf_v56, ofBuf_v57, toBuf_v57, ofBuf_v78, toBuf_v78, ofBuf_v79, toBuf_v79, ofBuf_v84, toBuf_v84, ofBuf_v85, toBuf_v85]
  exact lsm_ref (by decide) _ _ (by decide) _ _ _ _

/-- Branch b, first stage: relu (A (x · W₁) + b₁). -/
theorem S4 (V : Valuation τ sig (Elt Ideal)) : after G4 V (Proc.devRef .tc main_v57)
    = relu (addRow (agg (V (Proc.devRef .tc main_arg2)) (V (Proc.devRef .tc main_arg3)) (V (Proc.devRef .tc main_arg4)) (mm (V (Proc.devRef .tc main_arg1)) (V (Proc.devRef .tc main_arg11)))) (V (Proc.devRef .tc main_arg12))) := by
  seg_lit; after_results_simp
  try simp only [TRef.ofBuf_toBuf, ofBuf_v16, toBuf_v16, ofBuf_v17, toBuf_v17, ofBuf_v38, toBuf_v38, ofBuf_v39, toBuf_v39, ofBuf_v56, toBuf_v56, ofBuf_v57, toBuf_v57, ofBuf_v78, toBuf_v78, ofBuf_v79, toBuf_v79, ofBuf_v84, toBuf_v84, ofBuf_v85, toBuf_v85]
  exact (relu_ref _ _).trans (congrArg relu ((addRow_ref (by decide) _ _ _ _).trans
    (congrArg (fun M => addRow M (V (Proc.devRef .tc main_arg12))) (congrArg (agg (V (Proc.devRef .tc main_arg2)) (V (Proc.devRef .tc main_arg3)) (V (Proc.devRef .tc main_arg4))) (mm_ref _ rfl _ _)))))

/-- Branch b, second stage: (A (h₁ · W₂) + b₂) · L + ℓ. -/
theorem S5 (V : Valuation τ sig (Elt Ideal)) : after G5 V (Proc.devRef .tc main_v78)
    = addRow (mm (addRow (agg (V (Proc.devRef .tc main_arg2)) (V (Proc.devRef .tc main_arg3)) (V (Proc.devRef .tc main_arg4)) (mm (V (Proc.devRef .tc main_v57)) (V (Proc.devRef .tc main_arg13)))) (V (Proc.devRef .tc main_arg14))) (V (Proc.devRef .tc main_arg15))) (V (Proc.devRef .tc main_arg16)) := by
  seg_lit; after_results_simp
  try simp only [TRef.ofBuf_toBuf, ofBuf_v16, toBuf_v16, ofBuf_v17, toBuf_v17, ofBuf_v38, toBuf_v38, ofBuf_v39, toBuf_v39, ofBuf_v56, toBuf_v56, ofBuf_v57, toBuf_v57, ofBuf_v78, toBuf_v78, ofBuf_v79, toBuf_v79, ofBuf_v84, toBuf_v84, ofBuf_v85, toBuf_v85]
  exact (addRow_ref (by decide) _ _ _ _).trans (congrArg (fun M => addRow M (V (Proc.devRef .tc main_arg16))) ((mm_ref _ rfl _ _).trans
    (congrArg (fun M => mm M (V (Proc.devRef .tc main_arg15))) ((addRow_ref (by decide) _ _ _ _).trans
      (congrArg (fun M => addRow M (V (Proc.devRef .tc main_arg14))) (congrArg (agg (V (Proc.devRef .tc main_arg2)) (V (Proc.devRef .tc main_arg3)) (V (Proc.devRef .tc main_arg4))) (mm_ref _ rfl _ _)))))))

/-- Branch b, third stage: the row-wise log-softmax. -/
theorem S6 (V : Valuation τ sig (Elt Ideal)) : after G6 V (Proc.devRef .tc main_v79) = lsm (V (Proc.devRef .tc main_v78)) := by
  seg_lit; after_results_simp
  try simp only [TRef.ofBuf_toBuf, ofBuf_v16, toBuf_v16, ofBuf_v17, toBuf_v17, ofBuf_v38, toBuf_v38, ofBuf_v39, toBuf_v39, ofBuf_v56, toBuf_v56, ofBuf_v57, toBuf_v57, ofBuf_v78, toBuf_v78, ofBuf_v79, toBuf_v79, ofBuf_v84, toBuf_v84, ofBuf_v85, toBuf_v85]
  exact lsm_ref (by decide) _ _ (by decide) _ _ _ _

/-- The last stretch: the join, the last layer and the last log-softmax. -/
theorem S7 (V : Valuation τ sig (Elt Ideal)) : after G7 V (Proc.devRef .tc main_v85)
    = head join (V (Proc.devRef .tc main_v39)) (V (Proc.devRef .tc main_v79)) (V (Proc.devRef .tc main_arg17)) (V (Proc.devRef .tc main_arg18)) := by
  seg_lit; after_results_simp
  try simp only [TRef.ofBuf_toBuf, ofBuf_v16, toBuf_v16, ofBuf_v17, toBuf_v17, ofBuf_v38, toBuf_v38, ofBuf_v39, toBuf_v39, ofBuf_v56, toBuf_v56, ofBuf_v57, toBuf_v57, ofBuf_v78, toBuf_v78, ofBuf_v79, toBuf_v79, ofBuf_v84, toBuf_v84, ofBuf_v85, toBuf_v85]
  exact (lsm_ref (by decide) _ _ (by decide) _ _ _ _).trans (congrArg lsm ((addRow_ref (by decide) _ _ _ _).trans
    (congrArg (fun M => addRow M (V (Proc.devRef .tc main_arg18))) (mm_ref _ rfl _ _))))

/-! ### The whole program -/

set_option maxHeartbeats 4000000 in
/-- The result buffer after all 144 operations, from any launch contents. -/
theorem value (W : Valuation τ sig (Elt Ideal)) : after opsI W (Proc.devRef .tc main_v85)
    = head join (branch (agg (W (Proc.devRef .tc main_arg2)) (W (Proc.devRef .tc main_arg3)) (W (Proc.devRef .tc main_arg4))) (W (Proc.devRef .tc main_arg0)) (W (Proc.devRef .tc main_arg5)) (W (Proc.devRef .tc main_arg6)) (W (Proc.devRef .tc main_arg7)) (W (Proc.devRef .tc main_arg8)) (W (Proc.devRef .tc main_arg9)) (W (Proc.devRef .tc main_arg10)))
        (branch (agg (W (Proc.devRef .tc main_arg2)) (W (Proc.devRef .tc main_arg3)) (W (Proc.devRef .tc main_arg4))) (W (Proc.devRef .tc main_arg1)) (W (Proc.devRef .tc main_arg11)) (W (Proc.devRef .tc main_arg12)) (W (Proc.devRef .tc main_arg13)) (W (Proc.devRef .tc main_arg14)) (W (Proc.devRef .tc main_arg15)) (W (Proc.devRef .tc main_arg16)))
        (W (Proc.devRef .tc main_arg17)) (W (Proc.devRef .tc main_arg18)) := by
  rw [after_cut, S7,
    keep6_v39, keep6_arg17, keep6_arg18,
    S6,
    keep5_v39, keep5_arg17, keep5_arg18,
    S5,
    keep4_v39, keep4_arg2, keep4_arg3, keep4_arg4, keep4_arg13, keep4_arg14, keep4_arg15, keep4_arg16, keep4_arg17, keep4_arg18,
    S4,
    S3,
    keep3_arg1, keep3_arg2, keep3_arg3, keep3_arg4, keep3_arg11, keep3_arg12, keep3_arg13, keep3_arg14, keep3_arg15, keep3_arg16, keep3_arg17, keep3_arg18,
    S2,
    keep2_arg1, keep2_arg2, keep2_arg3, keep2_arg4, keep2_arg11, keep2_arg12, keep2_arg13, keep2_arg14, keep2_arg15, keep2_arg16, keep2_arg17, keep2_arg18,
    S1,
    keep1_arg1, keep1_arg2, keep1_arg3, keep1_arg4, keep1_arg7, keep1_arg8, keep1_arg9, keep1_arg10, keep1_arg11, keep1_arg12, keep1_arg13, keep1_arg14, keep1_arg15, keep1_arg16, keep1_arg17, keep1_arg18]
  rfl

set_option maxHeartbeats 57600000 in
/-- The run: every weakly fair execution terminates with the result at the network of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = head join (branch (agg (m ((c.tc : Thread nD τ).loc main_arg2)) (m ((c.tc : Thread nD τ).loc main_arg3)) (m ((c.tc : Thread nD τ).loc main_arg4))) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
        (branch (agg (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
        (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v85).trans (value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl)⟩)
    (run_seq scopedRefs_eq scopedSems_eq defs main (fun _ => ops) main_eq (fun _ => ops_sub) m ρ)

end Cert.ReferenceIdeal.RefRun

end
-- ==== Proof.lean ====
/-
  The certificate of the two-branch graph-convolution network.

  The kernel program runs seven row-tiled regions (three per branch and a last one on the joined branches) with the sparse
  aggregation over the graph's edges done by host operations between them; the reference computes the same network with
  whole-array host operations. Over the extended reals both results are one function of the arguments: per branch
    lsm ((A (relu (A (x · W₁) + b₁) · W₂) + b₂) · L + ℓ),
  the two branches joined column-wise, multiplied by the last weight matrix, biased and passed through a last row-wise
  log-softmax — `A` the aggregation and the join being the same host operations in both programs. The kernel side reads
  each region's result array as the whole-array function of what the region finds (a row of the result depends on one row
  of the row-blocked operand, and the ten row blocks cover the array) and folds these readings through the program's
  segments; the reference side reads its operations in seven stretches. No law of arithmetic is needed beyond the order-free
  row sums and maxima, so the precondition is never opened. The idealization rewrote nothing.
-/
import proofs.«134329_j2834678415610_1_alg».proof.Defs
import proofs.«134329_j2834678415610_1_alg».proof.Proof.Gen.Kernel
import proofs.«134329_j2834678415610_1_alg».proof.Proof.Gen.Kernel.Frame
import proofs.«134329_j2834678415610_1_alg».proof.Proof.Gen.KernelIdeal
import proofs.«134329_j2834678415610_1_alg».proof.Proof.Gen.KernelIdeal.Frame
import proofs.«134329_j2834678415610_1_alg».proof.Proof.Gen.ReferenceIdeal
import proofs.«134329_j2834678415610_1_alg».proof.Proof.Gen.Pre_finite_inputs
import proofs.«134329_j2834678415610_1_alg».proof.Proof.KRun
import proofs.«134329_j2834678415610_1_alg».proof.Proof.Fold
import proofs.«134329_j2834678415610_1_alg».proof.Proof.RefRun

noncomputable section

namespace Cert.Proof

open Idealize.ShloMosaic Idealize.ShloMosaic.TcCoe Idealize.SL.Sem

/-- The aggregation over the edges is spelt by the same host operations in both programs. -/
theorem agg_eq : Cert.ReferenceIdeal.RefRun.agg = Cert.KernelIdeal.Fold.agg := rfl

/-- So is the column-wise join of the two branches. -/
theorem join_eq : Cert.ReferenceIdeal.RefRun.join = Cert.KernelIdeal.Fold.join := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both runs end with the result at the network of the arguments, which agree. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Fold.result m ρ c), (h c).2⟩)
    (Cert.KernelIdeal.KRun.run_value (F := Ideal) m ρ), ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18, agg_eq, join_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
